-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v98)) (v2 : (c : Dev Cert.KernelIdeal.nD) → Buf (Elt Ideal) ((c.tc : Thread Cert.KernelIdeal.nD Cert.KernelIdeal.τ).loc Cert.KernelIdeal.main_v54_0)) (v3 : (c : Dev Cert.KernelIdeal.nD) → Buf (Elt Ideal) ((c.tc : Thread Cert.KernelIdeal.nD Cert.KernelIdeal.τ).loc Cert.KernelIdeal.main_v54_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_v54_0) = v2 c
          ∧ r.2.mem ((c.tc : Thread Cert.KernelIdeal.nD Cert.KernelIdeal.τ).loc Cert.KernelIdeal.main_v54_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S3x64 : Shape := ⟨2, ![3, 64]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg22 : FVec F S3 .f32) (main_arg23 : FVec F S3x64 .f32) (main_v98 : IVec S_ 1) (main_v101 : IVec S3x64 1) (main_c_39 : IVec S_ 1) : IVec S_ 1 :=
  let main_v102 : IVec S_ 1 := (fun x v => Host.reduce IntOp.andi x v reducesTo_S3x64_S_d0_1 h_S_) main_v101 main_c_39
  let main_v103 : IVec S_ 1 := andi main_v98 main_v102
  let main_v104 : FVec F S3 .f32 := Host.absf main_arg22
  let main_cst_40 : FVec F S_ .f32 := constant S_ .f32 0x7F800000#32
  let main_v105 : FVec F S3 .f32 := broadcastInDim S3 ![] bcast_S_S3 main_cst_40
  let main_v106 : IVec S3 1 := cmpf .olt main_v104 main_v105
  let main_c_41 : IVec S_ 1 := constantI S_ 1 1#1
  let main_v107 : IVec S_ 1 := (fun x v => Host.reduce IntOp.andi x v reducesTo_S3_S_d0 h_S_) main_v106 main_c_41
  let main_v108 : IVec S_ 1 := andi main_v103 main_v107
  let main_v109 : FVec F S3x64 .f32 := Host.absf main_arg23
  let main_cst_42 : FVec F S_ .f32 := constant S_ .f32 0x7F800000#32
  let main_v110 : FVec F S3x64 .f32 := broadcastInDim S3x64 ![] bcast_S_S3x64 main_cst_42
  let main_v111 : IVec S3x64 1 := cmpf .olt main_v109 main_v110
  let main_c_43 : IVec S_ 1 := constantI S_ 1 1#1
  let main_v112 : IVec S_ 1 := (fun x v => Host.reduce IntOp.andi x v reducesTo_S3x64_S_d0_1 h_S_) main_v111 main_c_43
  let main_v113 : IVec S_ 1 := andi main_v108 main_v112
  main_v113

def fn_part5 {F : FTy → Type} [FloatOps F] (main_arg19 : FVec F S64 .f32) (main_arg20 : FVec F S64x128 .f32) (main_arg21 : FVec F S3x64 .f32) (main_arg22 : FVec F S3 .f32) (main_arg23 : FVec F S3x64 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x128 .f32 := Host.absf main_arg20
  let main_cst_36 : FVec F S_ .f32 := constant S_ .f32 0x7F800000#32
  let main_v95 : FVec F S64x128 .f32 := broadcastInDim S64x128 ![] bcast_S_S64x128 main_cst_36
  let main_v96 : IVec S64x128 1 := cmpf .olt main_v94 main_v95
  let main_c_37 : IVec S_ 1 := constantI S_ 1 1#1
  let main_v97 : IVec S_ 1 := (fun x v => Host.reduce IntOp.andi x v reducesTo_S64x128_S_d0_1 h_S_) main_v96 main_c_37
  let main_v98 : IVec S_ 1 := andi main_v93 main_v97
  let main_v99 : FVec F S3x64 .f32 := Host.absf main_arg21
  let main_cst_38 : FVec F S_ .f32 := constant S_ .f32 0x7F800000#32
  let main_v100 : FVec F S3x64 .f32 := broadcastInDim S3x64 ![] bcast_S_S3x64 main_cst_38
  let main_v101 : IVec S3x64 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S128x128 .f32) (main_arg16 : FVec F S128 .f32) (main_arg17 : FVec F S128x128 .f32) (main_arg18 : FVec F S64x128 .f32) (main_arg19 : FVec F S64 .f32) (main_arg20 : FVec F S64x128 .f32) (main_arg21 : FVec F S3x64 .f32) (main_arg22 : FVec F S3 .f32) (main_arg23 : FVec F S3x64 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S64x128 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S64 .f32) (main_arg13 : FVec F S128x64 .f32) (main_arg14 : FVec F S128 .f32) (main_arg15 : FVec F S128x128 .f32) (main_arg16 : FVec F S128 .f32) (main_arg17 : FVec F S128x128 .f32) (main_arg18 : FVec F S64x128 .f32) (main_arg19 : FVec F S64 .f32) (main_arg20 : FVec F S64x128 .f32) (main_arg21 : FVec F S3x64 .f32) (main_arg22 : FVec F S3 .f32) (main_arg23 : FVec F S3x64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128x128 .f32) (main_arg9 : FVec F S128 .f32) (main_arg10 : FVec F S128x128 .f32) (main_arg11 : FVec F S64x128 .f32) (main_arg12 : FVec F S64 .f32) (main_arg13 : FVec F S128x64 .f32) (main_arg14 : FVec F S128 .f32) (main_arg15 : FVec F S128x128 .f32) (main_arg16 : FVec F S128 .f32) (main_arg17 : FVec F S128x128 .f32) (main_arg18 : FVec F S64x128 .f32) (main_arg19 : FVec F S64 .f32) (main_arg20 : FVec F S64x128 .f32) (main_arg21 : FVec F S3x64 .f32) (main_arg22 : FVec F S3 .f32) (main_arg23 : FVec F S3x64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S128x64 .f32) (main_arg14 : FVec F S128 .f32) (main_arg15 : FVec F S128x128 .f32) (main_arg16 : FVec F S128 .f32) (main_arg17 : FVec F S128x128 .f32) (main_arg18 : FVec F S64x128 .f32) (main_arg19 : FVec F S64 .f32) (main_arg20 : FVec F S64x128 .f32) (main_arg21 : FVec F S3x64 .f32) (main_arg22 : FVec F S3 .f32) (main_arg23 : FVec F S3x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x64 .f32) (main_arg1 : IVec S2x1600000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S128x64 .f32) (main_arg14 : FVec F S128 .f32) (main_arg15 : FVec F S128x128 .f32) (main_arg16 : FVec F S128 .f32) (main_arg17 : FVec F S128x128 .f32) (main_arg18 : FVec F S64x128 .f32) (main_arg19 : FVec F S64 .f32) (main_arg20 : FVec F S64x128 .f32) (main_arg21 : FVec F S3x64 .f32) (main_arg22 : FVec F S3 .f32) (main_arg23 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S3x64 : Shape := ⟨2, ![3, 64]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1x128 : Shape := ⟨2, ![1, 128]⟩
abbrev S1600000x128 : Shape := ⟨2, ![1600000, 128]⟩
abbrev S1x64 : Shape := ⟨2, ![1, 64]⟩
abbrev S64x3 : Shape := ⟨2, ![64, 3]⟩
abbrev S100000x3 : Shape := ⟨2, ![100000, 3]⟩
abbrev S5000x3 : Shape := ⟨2, ![5000, 3]⟩
abbrev S1600000x3 : Shape := ⟨2, ![1600000, 3]⟩
abbrev S1x3 : Shape := ⟨2, ![1, 3]⟩
abbrev S100000x2 : Shape := ⟨2, ![100000, 2]⟩

abbrev nBuf : Space → Nat
  | .hbm => 146
  | .vmem => 84
  | .smem => 0
  | _ => 0

abbrev hbmTy0_0 (i : Nat) : BufTy := match i % 128 with
  | 0 => ⟨S100000x64, .f32⟩
  | 1 => ⟨S2x1600000, .i32⟩
  | 2 => ⟨S128x64, .f32⟩
  | 3 => ⟨S128, .f32⟩
  | 4 => ⟨S128x64, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S64x128, .f32⟩
  | 12 => ⟨S64, .f32⟩
  | 13 => ⟨S128x64, .f32⟩
  | 14 => ⟨S128, .f32⟩
  | 15 => ⟨S128x128, .f32⟩
  | 16 => ⟨S128, .f32⟩
  | 17 => ⟨S128x128, .f32⟩
  | 18 => ⟨S64x128, .f32⟩
  | 19 => ⟨S64, .f32⟩
  | 20 => ⟨S64x128, .f32⟩
  | 21 => ⟨S3x64, .f32⟩
  | 22 => ⟨S3, .f32⟩
  | 23 => ⟨S3x64, .f32⟩
  | 24 => ⟨S1x1600000, .i32⟩
  | 25 => ⟨S1600000, .i32⟩
  | 26 => ⟨S1x1600000, .i32⟩
  | 27 => ⟨S1600000, .i32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .f32⟩
  | 40 => ⟨S100000x1, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S64x128, .f32⟩
  | 55 => ⟨S64x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S128x128, .f32⟩
  | 71 => ⟨S128x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S128x128, .f32⟩
  | 87 => ⟨S128x128, .f32⟩
  | 88 => ⟨S100000x128, .f32⟩
  | 89 => ⟨S128x64, .f32⟩
  | 90 => ⟨S64x128, .f32⟩
  | 91 => ⟨S100000x64, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S128x128, .f32⟩
  | 107 => ⟨S128x128, .f32⟩
  | 108 => ⟨S100000x128, .f32⟩
  | 109 => ⟨S128x64, .f32⟩
  | 110 => ⟨S100000x64, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S128x64, .f32⟩
  | 125 => ⟨S100000x64, .f32⟩
  | 126 => ⟨S64x3, .f32⟩
  | 127 => ⟨S100000x3, .f32⟩
  | _ => ⟨S100000x64, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x3, .f32⟩
  | 9 => ⟨S_, .f32⟩
  | 10 => ⟨S100000x3, .f32⟩
  | 11 => ⟨S1600000x1, .i32⟩
  | 12 => ⟨S100000x3, .f32⟩
  | 13 => ⟨S64x3, .f32⟩
  | 14 => ⟨S100000x3, .f32⟩
  | 15 => ⟨S100000x2, .f32⟩
  | 16 => ⟨S100000x1, .f32⟩
  | 17 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x128, .f32⟩
  | .local _ .vmem, ⟨7, _⟩ => ⟨S64x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x64, .f32⟩
  | .local _ .vmem, ⟨36, _⟩ => ⟨S64, .f32⟩
  | .local _ .vmem, ⟨37, _⟩ => ⟨S64x128, .f32⟩
  | .local _ .vmem, ⟨38, _⟩ => ⟨S128, .f32⟩
  | .local _ .vmem, ⟨39, _⟩ => ⟨S5000x64, .f32⟩
  | .local _ .vmem, ⟨40, _⟩ => ⟨S5000x64, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x1, .f32⟩
  | .local _ .vmem, ⟨48, _⟩ => ⟨S5000x1, .f32⟩
  | .local _ .vmem, ⟨49, _⟩ => ⟨S128x128, .f32⟩
  | .local _ .vmem, ⟨50, _⟩ => ⟨S128x128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x64, .f32⟩
  | .local _ .vmem, ⟨57, _⟩ => ⟨S5000x64, .f32⟩
  | .local _ .vmem, ⟨58, _⟩ => ⟨S5000x64, .f32⟩
  | .local _ .vmem, ⟨59, _⟩ => ⟨S5000x128, .f32⟩
  | .local _ .vmem, ⟨60, _⟩ => ⟨S5000x128, .f32⟩
  | .local _ .vmem, ⟨61, _⟩ => ⟨S5000x64, .f32⟩
  | .local _ .vmem, ⟨62, _⟩ => ⟨S5000x64, .f32⟩
  | .local _ .vmem, ⟨63, _⟩ => ⟨S5000x1, .f32⟩
  | .local _ .vmem, ⟨64, _⟩ => ⟨S5000x1, .f32⟩
  | .local _ .vmem, ⟨65, _⟩ => ⟨S128x64, .f32⟩
  | .local _ .vmem, ⟨66, _⟩ => ⟨S64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S64x3, .f32⟩
  | .local _ .vmem, ⟨72, _⟩ => ⟨S5000x3, .f32⟩
  | .local _ .vmem, ⟨73, _⟩ => ⟨S5000x3, .f32⟩
  | .local _ .vmem, ⟨74, _⟩ => ⟨S5000x64, .f32⟩
  | .local _ .vmem, ⟨75, _⟩ => ⟨S5000x64, .f32⟩
  | .local _ .vmem, ⟨76, _⟩ => ⟨S5000x3, .f32⟩
  | .local _ .vmem, ⟨77, _⟩ => ⟨S5000x3, .f32⟩
  | .local _ .vmem, ⟨78, _⟩ => ⟨S5000x1, .f32⟩
  | .local _ .vmem, ⟨79, _⟩ => ⟨S5000x1, .f32⟩
  | .local _ .vmem, ⟨80, _⟩ => ⟨S64x3, .f32⟩
  | .local _ .vmem, ⟨81, _⟩ => ⟨S3, .f32⟩
  | .local _ .vmem, ⟨82, _⟩ => ⟨S5000x3, .f32⟩
  | .local _ .vmem, ⟨83, _⟩ => ⟨S5000x3, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_5 : Ref sig .tc := ⟨.hbm, 57, rfl⟩
abbrev main_v26 : Ref sig .tc := ⟨.hbm, 58, rfl⟩
abbrev main_v27 : Ref sig .tc := ⟨.hbm, 59, rfl⟩
abbrev main_c_6 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_8 : Ref sig .tc := ⟨.hbm, 73, rfl⟩
abbrev main_v39 : Ref sig .tc := ⟨.hbm, 74, rfl⟩
abbrev main_v40 : Ref sig .tc := ⟨.hbm, 75, rfl⟩
abbrev main_c_9 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_10 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54_0 : Ref sig .tc := ⟨.hbm, 91, rfl⟩
abbrev main_v54_1 : Ref sig .tc := ⟨.hbm, 92, rfl⟩
abbrev main_c_11 : Ref sig .tc := ⟨.hbm, 93, rfl⟩
abbrev main_v55 : Ref sig .tc := ⟨.hbm, 94, rfl⟩
abbrev main_v56 : Ref sig .tc := ⟨.hbm, 95, rfl⟩
abbrev main_c_12 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_13 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_14 : Ref sig .tc := ⟨.hbm, 111, rfl⟩
abbrev main_v70 : Ref sig .tc := ⟨.hbm, 112, rfl⟩
abbrev main_v71 : Ref sig .tc := ⟨.hbm, 113, rfl⟩
abbrev main_c_15 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_16 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_17 : Ref sig .tc := ⟨.hbm, 128, rfl⟩
abbrev main_v84 : Ref sig .tc := ⟨.hbm, 129, rfl⟩
abbrev main_v85 : Ref sig .tc := ⟨.hbm, 130, rfl⟩
abbrev main_c_18 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_19 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg5_1 : Ref sig .tc := ⟨.vmem, 40, rfl⟩
abbrev cc3_stg6_0 : Ref sig .tc := ⟨.vmem, 41, rfl⟩
abbrev cc3_stg6_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg2_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg2_1 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg5_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg2_0 : Ref sig .tc := ⟨.vmem, 72, rfl⟩
abbrev cc7_stg2_1 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg1_1 : Ref sig .tc := ⟨.vmem, 77, rfl⟩
abbrev cc8_stg2_0 : Ref sig .tc := ⟨.vmem, 78, rfl⟩
abbrev cc8_stg2_1 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem5_1 : DmaSem sig := 40
abbrev cc3_sem6_0 : DmaSem sig := 41
abbrev cc3_sem6_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem6_1 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem2_1 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem2_1 : DmaSem sig := 64
abbrev cc6_sem3_0 : DmaSem sig := 65
abbrev cc6_sem4_0 : DmaSem sig := 66
abbrev cc6_sem5_0 : DmaSem sig := 67
abbrev cc6_sem5_1 : DmaSem sig := 68
abbrev cc7_sem0_0 : DmaSem sig := 69
abbrev cc7_sem0_1 : DmaSem sig := 70
abbrev cc7_sem1_0 : DmaSem sig := 71
abbrev cc7_sem2_0 : DmaSem sig := 72
abbrev cc7_sem2_1 : DmaSem sig := 73
abbrev cc8_sem0_0 : DmaSem sig := 74
abbrev cc8_sem0_1 : DmaSem sig := 75
abbrev cc8_sem1_0 : DmaSem sig := 76
abbrev cc8_sem1_1 : DmaSem sig := 77
abbrev cc8_sem2_0 : DmaSem sig := 78
abbrev cc8_sem2_1 : DmaSem sig := 79
abbrev cc8_sem3_0 : DmaSem sig := 80
abbrev cc8_sem4_0 : DmaSem sig := 81
abbrev cc8_sem5_0 : DmaSem sig := 82
abbrev cc8_sem5_1 : DmaSem sig := 83

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x3 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x3 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x3 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S64x3 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S3 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x3 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  transposes_S128x64_S64x128_1_0 : S128x64.Transposes [1, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  transposes_S128x128_S128x128_1_0 : S128x128.Transposes [1, 0] S128x128
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  transposes_S3x64_S64x3_1_0 : S3x64.Transposes [1, 0] S64x3
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S5000x3_S5000x3_0_0 : ∀ a, (![0, 0] : Fin 2 → Nat) a + S5000x3.size a ≤ S5000x3.size a
  h_S5000x3 : 0 < S5000x3.numel
  bcast_S_S100000x3 : S_.BroadcastsInDim S100000x3 (![] : Fin 0 → Fin S100000x3.rank)
  shapeCasts_S5000x3_S5000x3 : S5000x3.ShapeCasts S5000x3
  broadcasts_S5000x1_S5000x3 : S5000x1.Broadcasts S5000x3
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  slices_S100000x3_S100000x2_0_0 : S100000x3.Slices ![0, 0] S100000x2
  slices_S100000x3_S100000x1_0_2 : S100000x3.Slices ![0, 2] S100000x1
  shapeCasts_S100000x1_S100000 : S100000x1.ShapeCasts S100000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x3_S5000x3_1_0_0_1_n_n_wf : DotDims.WF S5000x64 S64x3 S5000x3 [1] [0] [0] [1] [] []
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x3.size a ≤ S64x3.size a
  hwx7_1 : ∀ i : grid7.Coords, EltTy.bits .f32 = 32 ∨ (Rect.block (s := S64x3) S64x3.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x3.size a ≤ S100000x3.size a
  hwx7_2 : ∀ i : grid7.Coords, EltTy.bits .f32 = 32 ∨ (Rect.block (s := S100000x3) S5000x3.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x3.size a ≤ S100000x3.size a
  hwx8_1 : ∀ i : grid8.Coords, EltTy.bits .f32 = 32 ∨ (Rect.block (s := S100000x3) S5000x3.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x3.size a ≤ S64x3.size a
  hwx8_3 : ∀ i : grid8.Coords, EltTy.bits .f32 = 32 ∨ (Rect.block (s := S64x3) S64x3.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S3.size a ≤ S3.size a
  hwx8_4 : ∀ i : grid8.Coords, EltTy.bits .f32 = 32 ∨ (Rect.block (s := S3) S3.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x3.size a ≤ S100000x3.size a
  hwx8_5 : ∀ i : grid8.Coords, EltTy.bits .f32 = 32 ∨ (Rect.block (s := S100000x3) S5000x3.size (cc8_transform_5 i) (hinb8_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v54_1) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v54_1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v67) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v67) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v80) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg19) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v81) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v81) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v82) S64x3.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v83) S5000x3.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v81) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v93) S5000x3.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v12) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v94) S64x3.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg22) S3.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v95) S5000x3.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S3x64 : Shape := ⟨2, ![3, 64]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S64x3 : Shape := ⟨2, ![64, 3]⟩
abbrev S100000x3 : Shape := ⟨2, ![100000, 3]⟩
abbrev S1x3 : Shape := ⟨2, ![1, 3]⟩
abbrev S100000x2 : Shape := ⟨2, ![100000, 2]⟩
abbrev S100000 : Shape := ⟨1, ![100000]⟩

abbrev nBuf : Space → Nat
  | .hbm => 251
  | .vmem => 0
  | .smem => 0
  | _ => 0

abbrev hbmTy0_0 (i : Nat) : BufTy := match i % 128 with
  | 0 => ⟨S100000x64, .f32⟩
  | 1 => ⟨S2x1600000, .i32⟩
  | 2 => ⟨S128x64, .f32⟩
  | 3 => ⟨S128, .f32⟩
  | 4 => ⟨S128x64, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S64x128, .f32⟩
  | 12 => ⟨S64, .f32⟩
  | 13 => ⟨S128x64, .f32⟩
  | 14 => ⟨S128, .f32⟩
  | 15 => ⟨S128x128, .f32⟩
  | 16 => ⟨S128, .f32⟩
  | 17 => ⟨S128x128, .f32⟩
  | 18 => ⟨S64x128, .f32⟩
  | 19 => ⟨S64, .f32⟩
  | 20 => ⟨S64x128, .f32⟩
  | 21 => ⟨S3x64, .f32⟩
  | 22 => ⟨S3, .f32⟩
  | 23 => ⟨S3x64, .f32⟩
  | 24 => ⟨S1x1600000, .i32⟩
  | 25 => ⟨S1600000, .i32⟩
  | 26 => ⟨S1x1600000, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S_, .f32⟩
  | 38 => ⟨S100000x64, .f32⟩
  | 39 => ⟨S1600000x1, .i32⟩
  | 40 => ⟨S100000x64, .f32⟩
  | 41 => ⟨S_, .f32⟩
  | 42 => ⟨S1600000x1, .f32⟩
  | 43 => ⟨S_, .f32⟩
  | 44 => ⟨S100000x1, .f32⟩
  | 45 => ⟨S1600000x1, .i32⟩
  | 46 => ⟨S100000x1, .f32⟩
  | 47 => ⟨S_, .f32⟩
  | 48 => ⟨S100000x1, .f32⟩
  | 49 => ⟨S100000x1, .f32⟩
  | 50 => ⟨S100000x64, .f32⟩
  | 51 => ⟨S100000x64, .f32⟩
  | 52 => ⟨S64x128, .f32⟩
  | 53 => ⟨S100000x128, .f32⟩
  | 54 => ⟨S1x128, .f32⟩
  | 55 => ⟨S100000x128, .f32⟩
  | 56 => ⟨S100000x128, .f32⟩
  | 57 => ⟨S64x128, .f32⟩
  | 58 => ⟨S100000x128, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S_, .f32⟩
  | 75 => ⟨S1600000x1, .f32⟩
  | 76 => ⟨S_, .f32⟩
  | 77 => ⟨S100000x1, .f32⟩
  | 78 => ⟨S1600000x1, .i32⟩
  | 79 => ⟨S100000x1, .f32⟩
  | 80 => ⟨S_, .f32⟩
  | 81 => ⟨S100000x1, .f32⟩
  | 82 => ⟨S100000x1, .f32⟩
  | 83 => ⟨S100000x128, .f32⟩
  | 84 => ⟨S100000x128, .f32⟩
  | 85 => ⟨S128x128, .f32⟩
  | 86 => ⟨S100000x128, .f32⟩
  | 87 => ⟨S1x128, .f32⟩
  | 88 => ⟨S100000x128, .f32⟩
  | 89 => ⟨S100000x128, .f32⟩
  | 90 => ⟨S128x128, .f32⟩
  | 91 => ⟨S100000x128, .f32⟩
  | 92 => ⟨S100000x128, .f32⟩
  | 93 => ⟨S100000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S_, .f32⟩
  | 108 => ⟨S1600000x1, .f32⟩
  | 109 => ⟨S_, .f32⟩
  | 110 => ⟨S100000x1, .f32⟩
  | 111 => ⟨S1600000x1, .i32⟩
  | 112 => ⟨S100000x1, .f32⟩
  | 113 => ⟨S_, .f32⟩
  | 114 => ⟨S100000x1, .f32⟩
  | 115 => ⟨S100000x1, .f32⟩
  | 116 => ⟨S100000x128, .f32⟩
  | 117 => ⟨S100000x128, .f32⟩
  | 118 => ⟨S128x128, .f32⟩
  | 119 => ⟨S100000x128, .f32⟩
  | 120 => ⟨S1x128, .f32⟩
  | 121 => ⟨S100000x128, .f32⟩
  | 122 => ⟨S100000x128, .f32⟩
  | 123 => ⟨S128x128, .f32⟩
  | 124 => ⟨S100000x128, .f32⟩
  | 125 => ⟨S100000x128, .f32⟩
  | 126 => ⟨S100000x128, .f32⟩
  | 127 => ⟨S128x64, .f32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S64x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .i1⟩
  | 12 => ⟨S_, .f32⟩
  | 13 => ⟨S100000x128, .f32⟩
  | 14 => ⟨S100000x128, .f32⟩
  | 15 => ⟨S100000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S_, .f32⟩
  | 30 => ⟨S1600000x1, .f32⟩
  | 31 => ⟨S_, .f32⟩
  | 32 => ⟨S100000x1, .f32⟩
  | 33 => ⟨S1600000x1, .i32⟩
  | 34 => ⟨S100000x1, .f32⟩
  | 35 => ⟨S_, .f32⟩
  | 36 => ⟨S100000x1, .f32⟩
  | 37 => ⟨S100000x1, .f32⟩
  | 38 => ⟨S100000x128, .f32⟩
  | 39 => ⟨S100000x128, .f32⟩
  | 40 => ⟨S128x128, .f32⟩
  | 41 => ⟨S100000x128, .f32⟩
  | 42 => ⟨S1x128, .f32⟩
  | 43 => ⟨S100000x128, .f32⟩
  | 44 => ⟨S100000x128, .f32⟩
  | 45 => ⟨S128x128, .f32⟩
  | 46 => ⟨S100000x128, .f32⟩
  | 47 => ⟨S100000x128, .f32⟩
  | 48 => ⟨S_, .f32⟩
  | 49 => ⟨S100000x128, .f32⟩
  | 50 => ⟨S100000x128, .i1⟩
  | 51 => ⟨S_, .f32⟩
  | 52 => ⟨S100000x128, .f32⟩
  | 53 => ⟨S100000x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S_, .f32⟩
  | 69 => ⟨S1600000x1, .f32⟩
  | 70 => ⟨S_, .f32⟩
  | 71 => ⟨S100000x1, .f32⟩
  | 72 => ⟨S1600000x1, .i32⟩
  | 73 => ⟨S100000x1, .f32⟩
  | 74 => ⟨S_, .f32⟩
  | 75 => ⟨S100000x1, .f32⟩
  | 76 => ⟨S100000x1, .f32⟩
  | 77 => ⟨S100000x128, .f32⟩
  | 78 => ⟨S100000x128, .f32⟩
  | 79 => ⟨S128x64, .f32⟩
  | 80 => ⟨S100000x64, .f32⟩
  | 81 => ⟨S1x64, .f32⟩
  | 82 => ⟨S100000x64, .f32⟩
  | 83 => ⟨S100000x64, .f32⟩
  | 84 => ⟨S128x64, .f32⟩
  | 85 => ⟨S100000x64, .f32⟩
  | 86 => ⟨S100000x64, .f32⟩
  | 87 => ⟨S100000x64, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S_, .f32⟩
  | 98 => ⟨S100000x64, .f32⟩
  | 99 => ⟨S1600000x1, .i32⟩
  | 100 => ⟨S100000x64, .f32⟩
  | 101 => ⟨S_, .f32⟩
  | 102 => ⟨S1600000x1, .f32⟩
  | 103 => ⟨S_, .f32⟩
  | 104 => ⟨S100000x1, .f32⟩
  | 105 => ⟨S1600000x1, .i32⟩
  | 106 => ⟨S100000x1, .f32⟩
  | 107 => ⟨S_, .f32⟩
  | 108 => ⟨S100000x1, .f32⟩
  | 109 => ⟨S100000x1, .f32⟩
  | 110 => ⟨S100000x64, .f32⟩
  | 111 => ⟨S100000x64, .f32⟩
  | 112 => ⟨S64x3, .f32⟩
  | 113 => ⟨S100000x3, .f32⟩
  | 114 => ⟨S1x3, .f32⟩
  | 115 => ⟨S100000x3, .f32⟩
  | 116 => ⟨S100000x3, .f32⟩
  | 117 => ⟨S64x3, .f32⟩
  | 118 => ⟨S100000x3, .f32⟩
  | 119 => ⟨S100000x3, .f32⟩
  | 120 => ⟨S100000x2, .f32⟩
  | 121 => ⟨S100000x1, .f32⟩
  | 122 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_6 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_cst_8 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_10 : Ref sig .tc := ⟨.hbm, 94, rfl⟩
abbrev main_v58 : Ref sig .tc := ⟨.hbm, 95, rfl⟩
abbrev main_v59 : Ref sig .tc := ⟨.hbm, 96, rfl⟩
abbrev main_c_11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_12 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_13 : Ref sig .tc := ⟨.hbm, 107, rfl⟩
abbrev main_v68 : Ref sig .tc := ⟨.hbm, 108, rfl⟩
abbrev main_cst_14 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_15 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_16 : Ref sig .tc := ⟨.hbm, 137, rfl⟩
abbrev main_v95 : Ref sig .tc := ⟨.hbm, 138, rfl⟩
abbrev main_v96 : Ref sig .tc := ⟨.hbm, 139, rfl⟩
abbrev main_cst_17 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_18 : Ref sig .tc := ⟨.hbm, 144, rfl⟩
abbrev main_v100 : Ref sig .tc := ⟨.hbm, 145, rfl⟩
abbrev main_v101 : Ref sig .tc := ⟨.hbm, 146, rfl⟩
abbrev main_c_19 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_20 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_21 : Ref sig .tc := ⟨.hbm, 157, rfl⟩
abbrev main_v110 : Ref sig .tc := ⟨.hbm, 158, rfl⟩
abbrev main_cst_22 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_23 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_24 : Ref sig .tc := ⟨.hbm, 176, rfl⟩
abbrev main_v126 : Ref sig .tc := ⟨.hbm, 177, rfl⟩
abbrev main_v127 : Ref sig .tc := ⟨.hbm, 178, rfl⟩
abbrev main_cst_25 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_c_26 : Ref sig .tc := ⟨.hbm, 183, rfl⟩
abbrev main_v131 : Ref sig .tc := ⟨.hbm, 184, rfl⟩
abbrev main_v132 : Ref sig .tc := ⟨.hbm, 185, rfl⟩
abbrev main_c_27 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_28 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_29 : Ref sig .tc := ⟨.hbm, 196, rfl⟩
abbrev main_v141 : Ref sig .tc := ⟨.hbm, 197, rfl⟩
abbrev main_cst_30 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_31 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_c_32 : Ref sig .tc := ⟨.hbm, 216, rfl⟩
abbrev main_v158 : Ref sig .tc := ⟨.hbm, 217, rfl⟩
abbrev main_v159 : Ref sig .tc := ⟨.hbm, 218, rfl⟩
abbrev main_c_33 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_34 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_35 : Ref sig .tc := ⟨.hbm, 229, rfl⟩
abbrev main_v168 : Ref sig .tc := ⟨.hbm, 230, rfl⟩
abbrev main_cst_36 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_cst_37 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S3x64_S64x3_1_0 : S3x64.Transposes [1, 0] S64x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  slices_S100000x3_S100000x2_0_0 : S100000x3.Slices ![0, 0] S100000x2
  slices_S100000x3_S100000x1_0_2 : S100000x3.Slices ![0, 2] S100000x1
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x3_S100000x3_1_0_0_1_n_n_wf : DotDims.WF S100000x64 S64x3 S100000x3 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KernelRun.lean ====
/-
  The idealized kernel's run with its whole final memory kept.

  @main is nineteen segments: ten stretches of host operations and, between them, nine pipelined regions. The frame
  certificate folds the buffer contents through them — `W0` the launch memory, `W(2k+1)` a stretch applied to
  `W(2k)`, `W(2k+2)` region `k`'s arrays replaced by what its write-backs leave — and ends with every unscoped
  buffer at `W19`. The frame claim keeps of that only the argument buffers. Here the same launch is stated with the
  post "every unscoped buffer holds `W19`", from which any result buffer can be read.
-/
import proofs.«102533_j14611478741197_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main from `m` terminates, nothing faulting, and in every final state each
    unscoped TensorCore buffer holds the last boundary's contents `W19`. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- A result buffer after the run: what the last boundary holds there. -/
theorem run_at (bs : List (Ref sig .tc)) (hbs : ∀ b ∈ bs, ¬ (Proc.devRef .tc b : DevRef τ sig).isScoped) :
    θ_run defs (onTc (τ := τ) (main (F := F))) ⟨m, fun _ => 0, ρ⟩ (fun r => ∀ c : Dev nD,
      ∀ b ∈ bs, r.2.mem ((c.tc : Thread nD τ).loc b) = W19 m ρ c (Proc.devRef .tc b)) :=
  (θ_run defs _ _).mono (fun r h c b hb => h c _ (mem_uc b (hbs b hb))) (run_final m ρ)

end Cert.KernelIdeal.RunValue

end
-- ==== Proof.KernelKeep.lean ====
/-
  What each segment of @main leaves alone.

  A stretch of host operations writes only its operations' result buffers, so any other buffer holds after the
  stretch what it held before (`keepH0` … `keepH9`, each under "`b` is not one of the stretch's results"). A region
  writes back only its output windows' arrays: an input window's array ends as it was entered, and a buffer that is no
  window's array is not touched at all (`keepR0` … `keepR8`, each under "`b` is not an output array of the region").
  Chained, these carry a buffer that is written once and read many segments later — the two rows of the edge list, the
  inverse-count column, an argument — from the boundary where it is read back to the boundary where it was written.
-/
import proofs.«102533_j14611478741197_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.StableHlo
open Idealize.ShloMosaic.Pipeline (Dat)

variable {F : FTy → Type} [FloatOps F]

variable (m : (ℓ : Loc nD τ sig) → Buf (Elt F) ℓ) (ρ : Dev nD → PrngReg) (c : Dev nD)

/-! ## Host stretches -/

/-- A buffer that is not a result of stretch 0 keeps its contents across it. -/
theorem keepH0 (V : Valuation τ sig (Elt F)) (b : Ref sig .tc)
    (hb : b ∉ ([main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24] : List (Ref sig .tc))) :
    StableHlo.after (hostOps0 (F := F)) V (Proc.devRef .tc b) = V (Proc.devRef .tc b) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer that is not a result of stretch 1 keeps its contents across it. -/
theorem keepH1 (V : Valuation τ sig (Elt F)) (b : Ref sig .tc)
    (hb : b ∉ ([main_c_5, main_v26, main_v27, main_c_6, main_v28, main_v29, main_v30, main_v31, main_v32, main_cst_7, main_v33, main_v34, main_v35, main_v36, main_v37] : List (Ref sig .tc))) :
    StableHlo.after (hostOps1 (F := F)) V (Proc.devRef .tc b) = V (Proc.devRef .tc b) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer that is not a result of stretch 2 keeps its contents across it. -/
theorem keepH2 (V : Valuation τ sig (Elt F)) (b : Ref sig .tc)
    (hb : b ∉ ([main_c_8, main_v39, main_v40, main_c_9, main_v41, main_v42, main_v43, main_v44, main_v45, main_cst_10, main_v46, main_v47, main_v48, main_v49, main_v50] : List (Ref sig .tc))) :
    StableHlo.after (hostOps2 (F := F)) V (Proc.devRef .tc b) = V (Proc.devRef .tc b) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer that is not a result of stretch 3 keeps its contents across it. -/
theorem keepH3 (V : Valuation τ sig (Elt F)) (b : Ref sig .tc)
    (hb : b ∉ ([main_v52, main_v53] : List (Ref sig .tc))) :
    StableHlo.after (hostOps3 (F := F)) V (Proc.devRef .tc b) = V (Proc.devRef .tc b) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer that is not a result of stretch 4 keeps its contents across it. -/
theorem keepH4 (V : Valuation τ sig (Elt F)) (b : Ref sig .tc)
    (hb : b ∉ ([main_c_11, main_v55, main_v56, main_c_12, main_v57, main_v58, main_v59, main_v60, main_v61, main_cst_13, main_v62, main_v63, main_v64, main_v65, main_v66] : List (Ref sig .tc))) :
    StableHlo.after (hostOps4 (F := F)) V (Proc.devRef .tc b) = V (Proc.devRef .tc b) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer that is not a result of stretch 5 keeps its contents across it. -/
theorem keepH5 (V : Valuation τ sig (Elt F)) (b : Ref sig .tc)
    (hb : b ∉ ([main_v68] : List (Ref sig .tc))) :
    StableHlo.after (hostOps5 (F := F)) V (Proc.devRef .tc b) = V (Proc.devRef .tc b) :=
  StableHlo.after_of_forall_not_mem _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer that is not a result of stretch 6 keeps its contents across it. -/
theorem keepH6 (V : Valuation τ sig (Elt F)) (b : Ref sig .tc)
    (hb : b ∉ ([main_c_14, main_v70, main_v71, main_c_15, main_v72, main_v73, main_v74, main_v75, main_v76, main_cst_16, main_v77, main_v78, main_v79, main_v80] : List (Ref sig .tc))) :
    StableHlo.after (hostOps6 (F := F)) V (Proc.devRef .tc b) = V (Proc.devRef .tc b) :=
  StableHlo.after_of_forall_not_mem _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer that is not a result of stretch 7 keeps its contents across it. -/
theorem keepH7 (V : Valuation τ sig (Elt F)) (b : Ref sig .tc)
    (hb : b ∉ ([main_v82] : List (Ref sig .tc))) :
    StableHlo.after (hostOps7 (F := F)) V (Proc.devRef .tc b) = V (Proc.devRef .tc b) :=
  StableHlo.after_of_forall_not_mem _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer that is not a result of stretch 8 keeps its contents across it. -/
theorem keepH8 (V : Valuation τ sig (Elt F)) (b : Ref sig .tc)
    (hb : b ∉ ([main_c_17, main_v84, main_v85, main_c_18, main_v86, main_v87, main_v88, main_v89, main_v90, main_cst_19, main_v91, main_v92, main_v93, main_v94] : List (Ref sig .tc))) :
    StableHlo.after (hostOps8 (F := F)) V (Proc.devRef .tc b) = V (Proc.devRef .tc b) :=
  StableHlo.after_of_forall_not_mem _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer that is not a result of stretch 9 keeps its contents across it. -/
theorem keepH9 (V : Valuation τ sig (Elt F)) (b : Ref sig .tc)
    (hb : b ∉ ([main_v96, main_v97, main_v98] : List (Ref sig .tc))) :
    StableHlo.after (hostOps9 (F := F)) V (Proc.devRef .tc b) = V (Proc.devRef .tc b) :=
  StableHlo.after_of_forall_not_mem _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-! ## Regions -/

/-- A buffer that is not an output array of region 0 holds at its exit what it held at its entry. -/
theorem keepR0 (b : Ref sig .tc) (hb : b ≠ main_v25) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin 7, Pipeline.arrRef spec0 w ≠ main_v25 → (cfg0.win w).isOut = false) w hb
    exact (W2_arr m ρ c w).trans (((dat0 (V1 m ρ) c).arrAt_in w hin _).trans (A_eq0 (V1 m ρ) c w))
  · exact W2_of_ne m ρ c b (fun w e => h ⟨w, e⟩)

/-- A buffer that is not an output array of region 1 holds at its exit what it held at its entry. -/
theorem keepR1 (b : Ref sig .tc) (hb : b ≠ main_v38) :
    W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin 7, Pipeline.arrRef spec1 w ≠ main_v38 → (cfg1.win w).isOut = false) w hb
    exact (W4_arr m ρ c w).trans (((dat1 (V3 m ρ) c).arrAt_in w hin _).trans (A_eq1 (V3 m ρ) c w))
  · exact W4_of_ne m ρ c b (fun w e => h ⟨w, e⟩)

/-- A buffer that is not an output array of region 2 holds at its exit what it held at its entry. -/
theorem keepR2 (b : Ref sig .tc) (hb : b ≠ main_v51) :
    W6 m ρ c (Proc.devRef .tc b) = W5 m ρ c (Proc.devRef .tc b) := by
  by_cases h : ∃ w, Pipeline.arrRef spec2 w = b
  · obtain ⟨w, rfl⟩ := h
    have hin : (cfg2.win w).isOut = false :=
      (by decide : ∀ w : Fin 7, Pipeline.arrRef spec2 w ≠ main_v51 → (cfg2.win w).isOut = false) w hb
    exact (W6_arr m ρ c w).trans (((dat2 (V5 m ρ) c).arrAt_in w hin _).trans (A_eq2 (V5 m ρ) c w))
  · exact W6_of_ne m ρ c b (fun w e => h ⟨w, e⟩)

/-- A buffer that is not an output array of region 3 holds at its exit what it held at its entry. -/
theorem keepR3 (b : Ref sig .tc) (hb : b ≠ main_v54_0 ∧ b ≠ main_v54_1) :
    W8 m ρ c (Proc.devRef .tc b) = W7 m ρ c (Proc.devRef .tc b) := by
  by_cases h : ∃ w, Pipeline.arrRef spec3 w = b
  · obtain ⟨w, rfl⟩ := h
    have hin : (cfg3.win w).isOut = false :=
      (by decide : ∀ w : Fin 7, Pipeline.arrRef spec3 w ≠ main_v54_0 ∧ Pipeline.arrRef spec3 w ≠ main_v54_1 → (cfg3.win w).isOut = false) w hb
    exact (W8_arr m ρ c w).trans (((dat3 (V7 m ρ) c).arrAt_in w hin _).trans (A_eq3 (V7 m ρ) c w))
  · exact W8_of_ne m ρ c b (fun w e => h ⟨w, e⟩)

/-- A buffer that is not an output array of region 4 holds at its exit what it held at its entry. -/
theorem keepR4 (b : Ref sig .tc) (hb : b ≠ main_v67) :
    W10 m ρ c (Proc.devRef .tc b) = W9 m ρ c (Proc.devRef .tc b) := by
  by_cases h : ∃ w, Pipeline.arrRef spec4 w = b
  · obtain ⟨w, rfl⟩ := h
    have hin : (cfg4.win w).isOut = false :=
      (by decide : ∀ w : Fin 7, Pipeline.arrRef spec4 w ≠ main_v67 → (cfg4.win w).isOut = false) w hb
    exact (W10_arr m ρ c w).trans (((dat4 (V9 m ρ) c).arrAt_in w hin _).trans (A_eq4 (V9 m ρ) c w))
  · exact W10_of_ne m ρ c b (fun w e => h ⟨w, e⟩)

/-- A buffer that is not an output array of region 5 holds at its exit what it held at its entry. -/
theorem keepR5 (b : Ref sig .tc) (hb : b ≠ main_v69) :
    W12 m ρ c (Proc.devRef .tc b) = W11 m ρ c (Proc.devRef .tc b) := by
  by_cases h : ∃ w, Pipeline.arrRef spec5 w = b
  · obtain ⟨w, rfl⟩ := h
    have hin : (cfg5.win w).isOut = false :=
      (by decide : ∀ w : Fin 3, Pipeline.arrRef spec5 w ≠ main_v69 → (cfg5.win w).isOut = false) w hb
    exact (W12_arr m ρ c w).trans (((dat5 (V11 m ρ) c).arrAt_in w hin _).trans (A_eq5 (V11 m ρ) c w))
  · exact W12_of_ne m ρ c b (fun w e => h ⟨w, e⟩)

/-- A buffer that is not an output array of region 6 holds at its exit what it held at its entry. -/
theorem keepR6 (b : Ref sig .tc) (hb : b ≠ main_v81) :
    W14 m ρ c (Proc.devRef .tc b) = W13 m ρ c (Proc.devRef .tc b) := by
  by_cases h : ∃ w, Pipeline.arrRef spec6 w = b
  · obtain ⟨w, rfl⟩ := h
    have hin : (cfg6.win w).isOut = false :=
      (by decide : ∀ w : Fin 6, Pipeline.arrRef spec6 w ≠ main_v81 → (cfg6.win w).isOut = false) w hb
    exact (W14_arr m ρ c w).trans (((dat6 (V13 m ρ) c).arrAt_in w hin _).trans (A_eq6 (V13 m ρ) c w))
  · exact W14_of_ne m ρ c b (fun w e => h ⟨w, e⟩)

/-- A buffer that is not an output array of region 7 holds at its exit what it held at its entry. -/
theorem keepR7 (b : Ref sig .tc) (hb : b ≠ main_v83) :
    W16 m ρ c (Proc.devRef .tc b) = W15 m ρ c (Proc.devRef .tc b) := by
  by_cases h : ∃ w, Pipeline.arrRef spec7 w = b
  · obtain ⟨w, rfl⟩ := h
    have hin : (cfg7.win w).isOut = false :=
      (by decide : ∀ w : Fin 3, Pipeline.arrRef spec7 w ≠ main_v83 → (cfg7.win w).isOut = false) w hb
    exact (W16_arr m ρ c w).trans (((dat7 (V15 m ρ) c).arrAt_in w hin _).trans (A_eq7 (V15 m ρ) c w))
  · exact W16_of_ne m ρ c b (fun w e => h ⟨w, e⟩)

/-- A buffer that is not an output array of region 8 holds at its exit what it held at its entry. -/
theorem keepR8 (b : Ref sig .tc) (hb : b ≠ main_v95) :
    W18 m ρ c (Proc.devRef .tc b) = W17 m ρ c (Proc.devRef .tc b) := by
  by_cases h : ∃ w, Pipeline.arrRef spec8 w = b
  · obtain ⟨w, rfl⟩ := h
    have hin : (cfg8.win w).isOut = false :=
      (by decide : ∀ w : Fin 6, Pipeline.arrRef spec8 w ≠ main_v95 → (cfg8.win w).isOut = false) w hb
    exact (W18_arr m ρ c w).trans (((dat8 (V17 m ρ) c).arrAt_in w hin _).trans (A_eq8 (V17 m ρ) c w))
  · exact W18_of_ne m ρ c b (fun w e => h ⟨w, e⟩)

/-- Carries a read of buffer `b` back across every segment that does not write it: at each step the one keep lemma
    whose segment is outermost applies, after the boundary's abbreviation is unfolded. -/
macro "carry_back" b:term : tactic =>
  `(tactic| repeat (first
      | rw [keepH9 _ $b (by decide)] | rw [keepR8 _ _ _ $b (by decide)]
      | rw [keepH8 _ $b (by decide)] | rw [keepR7 _ _ _ $b (by decide)]
      | rw [keepH7 _ $b (by decide)] | rw [keepR6 _ _ _ $b (by decide)]
      | rw [keepH6 _ $b (by decide)] | rw [keepR5 _ _ _ $b (by decide)]
      | rw [keepH5 _ $b (by decide)] | rw [keepR4 _ _ _ $b (by decide)]
      | rw [keepH4 _ $b (by decide)] | rw [keepR3 _ _ _ $b (by decide)]
      | rw [keepH3 _ $b (by decide)] | rw [keepR2 _ _ _ $b (by decide)]
      | rw [keepH2 _ $b (by decide)] | rw [keepR1 _ _ _ $b (by decide)]
      | rw [keepH1 _ $b (by decide)] | rw [keepR0 _ _ _ $b (by decide)]
      | rw [keepH0 _ $b (by decide)]
      | simp only [W1, W3, W5, W7, W9, W11, W13, W15, W17, W19]))

end Cert.KernelIdeal.Chain

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.Spec.lean ====
/-
  The mathematics of the network, index by index, on the extended reals.

  A node table is a matrix `[n, c]`; an edge list is two index columns `[e, 1]`: edge `e` READS the row
  `srcRow S e` (its start index clamped into the table) and LANDS on the row `n` with `Lands D e n`.
  * `dense x w`            : the matrix product, entry `(p, c)` is `Σ_q x[p, q] · w[q, c]`;
  * `agg S D t`            : the neighbour sum, entry `(n, k)` is `Σ_{e lands on n} t[srcRow e, k]`;
  * `deg D n`              : the in-degree of `n` as an extended real, `Σ_{e lands on n} 1`;
  * `mxCol D`, `invCol D`  : the columns `max (deg n) 1` and `1 / max (deg n) 1`.
  One graph-convolution layer is written twice, in the two orders of operations that are compared:
  * `scaledLayer`  : `act ((Σ_q (s[p,q] · ic[p]) · wl[q,c] + Σ_q x[p,q] · wr[q,c]) + b[c])`  — the sum scaled by the
                      inverse count, root term second, bias last;
  * `dividedLayer` : `act ((Σ_q (s[p,q] / mx[p]) · wl[q,c] + b[c]) + Σ_q x[p,q] · wr[q,c])` — the sum divided by the
                      clamped count, bias second, root term last;
  * `postLayer`    : `act ((Σ_q x[p,q] · wr[q,c] + s[p,c] · ic[p]) + b[c])` — the neighbour sum taken AFTER the
                      left weight was applied to every row;
  * `biased x w b`  : `Σ_q x[p,q] · w[q,c] + b[c]`.
-/
import Idealize.ShloMosaic.PureOps.Ideal
import Idealize.ShloMosaic.Lib.ValueIdx
import proofs.«102533_j14611478741197_2_alg».proof.Proof.LibRowGatherScatter

noncomputable section

open scoped BigOperators

namespace Cert.Net

open Idealize.ShloMosaic Idealize.ShloMosaic.ValueIdx

/-- A matrix of extended reals over the shape `[r, c]`. -/
abbrev Mat (r c : Nat) := (⟨2, ![r, c]⟩ : Shape).Idx → EReal
/-- A vector of extended reals over the shape `[c]`. -/
abbrev Vc (c : Nat) := (⟨1, ![c]⟩ : Shape).Idx → EReal
/-- A column of `e` integer indices. -/
abbrev ICol (e w : Nat) := IVec ⟨2, ![e, 1]⟩ w

variable {R K C N E w : Nat}

/-- The matrix product. -/
def dense (x : Mat R K) (wt : Mat K C) : Mat R C :=
  fun j => ∑ q : Fin K, x (ix2 (j 0) q) * wt (ix2 q (j 1))

theorem dense_apply (x : Mat R K) (wt : Mat K C) (p : Fin R) (c : Fin C) :
    dense x wt (ix2 p c) = ∑ q : Fin K, x (ix2 p q) * wt (ix2 q c) := rfl

/-- The product plus a bias row. -/
def biased (x : Mat R K) (wt : Mat K C) (b : Vc C) : Mat R C :=
  fun j => dense x wt j + b (ix1 (j 1))

/-- A matrix scaled row by row by a column. -/
def rowScale (s : Mat R K) (ic : Mat R 1) : Mat R K := fun i => s i * ic (ix2 (i 0) (0 : Fin 1))

/-- A matrix divided row by row by a column. -/
def rowDiv (s : Mat R K) (mx : Mat R 1) : Mat R K := fun i => Ideal.div (s i) (mx (ix2 (i 0) (0 : Fin 1)))

/-- A layer in the order: scaled neighbour sum through the left weight, root term, bias. -/
def scaledLayer (act : EReal → EReal) (x s : Mat R K) (ic : Mat R 1) (wl wr : Mat K C) (b : Vc C) : Mat R C :=
  fun j => act ((dense (rowScale s ic) wl j + dense x wr j) + b (ix1 (j 1)))

/-- A layer in the order: divided neighbour sum through the left weight, bias, root term. -/
def dividedLayer (act : EReal → EReal) (x s : Mat R K) (mx : Mat R 1) (wl wr : Mat K C) (b : Vc C) : Mat R C :=
  fun j => act ((dense (rowDiv s mx) wl j + b (ix1 (j 1))) + dense x wr j)

/-- A layer whose neighbour sum `s` was taken after the left weight: root term, scaled sum, bias. -/
def postLayer (act : EReal → EReal) (x : Mat R K) (s : Mat R C) (ic : Mat R 1) (wr : Mat K C) (b : Vc C) : Mat R C :=
  fun j => act ((dense x wr j + s j * ic (ix2 (j 0) (0 : Fin 1))) + b (ix1 (j 1)))

/-- The neighbour sum of a table. -/
def agg (hN : 0 < N) (S D : ICol E w) (t : Mat N C) : Mat N C :=
  fun j => ∑ e ∈ Finset.univ.filter (fun e : Fin E => RowGS.Lands D e (j 0)), t (ix2 (RowGS.srcRow hN S e) (j 1))

/-- The in-degree. -/
def deg (D : ICol E w) (n : Fin N) : EReal :=
  ∑ _e ∈ Finset.univ.filter (fun e : Fin E => RowGS.Lands D e n), (1 : EReal)

/-- The clamped in-degree, as a column. -/
def mxCol (D : ICol E w) : Mat N 1 := fun j => max (deg D (j 0)) 1

/-- The inverse of the clamped in-degree, as a column. -/
def invCol (D : ICol E w) : Mat N 1 := fun j => Ideal.div 1 (max (deg D (j 0)) 1)

/-- The slope-`a` rectifier: `v` where `v > z`, else `a · v` (with `z` the zero the comparison is made against). -/
def leaky (z a : EReal) (v : EReal) : EReal :=
  Scalar.select (FloatOps.cmpf (F := Ideal) (φ := .f32) .ogt v z) v (a * v)

end Cert.Net

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.Algebra.lean ====
/-
  The laws that join the two orders of operations of a layer, and the fact they rest on: every value the
  network computes from real inputs is a real number.

  * The clamped in-degree `max (deg n) 1` is a real number `r ≥ 1`, so dividing by it is multiplying by the real
    `1 / r`, on every extended real: `v · (1 / mx) = v / mx` (`scale_eq_div`). With commutativity of the sum this
    is all that separates `scaledLayer` from `dividedLayer` (`scaled_eq_divided`), with no finiteness needed.
  * Taking the neighbour sum AFTER the left weight — `(Σ_e Σ_q x[src e, q] · wl[q, c]) · (1/r)` — equals taking it
    before — `Σ_q ((Σ_e x[src e, q]) · (1/r)) · wl[q, c]` — when the entries are real: the two are the two orders of
    one finite double sum of reals (`sum_scale_comm`, `post_eq_divided`). On the extended reals this exchange needs
    the entries real: a product does not distribute over a sum that mixes the two infinities.
  * Sums, products, `tanh`, the slope rectifier and the inverse count keep real entries real.
-/
import proofs.«102533_j14611478741197_2_alg».proof.Proof.Spec
import proofs.«102533_j14611478741197_2_alg».proof.Proof.LibRealSum

noncomputable section

open scoped BigOperators

namespace Cert.Net

open Idealize.ShloMosaic Idealize.ShloMosaic.ValueIdx Cert.RealSum

variable {R K C N E w : Nat}

/-- Every entry of an array is a real number. -/
def AllReal {s : Shape} (f : s.Idx → EReal) : Prop := ∀ i, IsReal (f i)

/-- The image of a finite real sum is the sum of the images. -/
theorem coe_finsum {ι : Type} (s : Finset ι) (f : ι → ℝ) :
    ((∑ e ∈ s, f e : ℝ) : EReal) = ∑ e ∈ s, (f e : EReal) := by
  classical
  induction s using Finset.induction_on with
  | empty => rw [Finset.sum_empty, Finset.sum_empty, EReal.coe_zero]
  | insert b t hb ih => rw [Finset.sum_insert hb, Finset.sum_insert hb, EReal.coe_add, ih]

/-! ## The clamped in-degree -/

/-- The clamped in-degree is a nonzero real number. -/
theorem mx_real (D : ICol E w) (n : Fin N) : ∃ r : ℝ, r ≠ 0 ∧ max (deg D n) 1 = (r : EReal) := by
  have h1r : IsReal (1 : EReal) := ⟨1, EReal.coe_one.symm⟩
  have hd : IsReal (deg D n) := isReal_sum _ _ (fun _ _ => h1r)
  obtain ⟨r, hr⟩ := hd.max h1r
  refine ⟨r, ?_, hr⟩
  have h1 : (1 : EReal) ≤ max (deg D n) 1 := le_max_right _ _
  rw [hr, ← EReal.coe_one, EReal.coe_le_coe_iff] at h1
  intro h0
  rw [h0] at h1
  exact absurd h1 (by norm_num)

/-- Scaling by the inverse of the clamped in-degree is dividing by it. -/
theorem scale_eq_div (D : ICol E w) (n : Fin N) (v : EReal) :
    v * Ideal.div 1 (max (deg D n) 1) = Ideal.div v (max (deg D n) 1) := by
  obtain ⟨r, hr0, hr⟩ := mx_real D n
  rw [hr, Ideal.div_coe hr0, Ideal.div_coe hr0, one_mul]

/-- A layer that scales the neighbour sum is the layer that divides it. -/
theorem scaled_eq_divided (act : EReal → EReal) (x s : Mat N K) (D : ICol E w) (wl wr : Mat K C) (b : Vc C) :
    scaledLayer act x s (invCol D) wl wr b = dividedLayer act x s (mxCol D) wl wr b := by
  funext j
  have h : rowScale s (invCol D) = rowDiv s (mxCol D) := funext fun i => scale_eq_div D (i 0) (s i)
  show act ((dense (rowScale s (invCol D)) wl j + dense x wr j) + b (ix1 (j 1)))
    = act ((dense (rowDiv s (mxCol D)) wl j + b (ix1 (j 1))) + dense x wr j)
  rw [h, add_right_comm]

/-! ## The exchange of the neighbour sum and the left weight -/

/-- Over real entries, a scaled sum over edges of row-times-column products is the row of scaled edge sums times
    the column. -/
theorem sum_scale_comm {ι κ : Type} [Fintype κ] (s : Finset ι) (a : ι → κ → EReal) (wv : κ → EReal) (r : ℝ)
    (ha : ∀ e k, IsReal (a e k)) (hw : ∀ k, IsReal (wv k)) :
    (∑ e ∈ s, ∑ k, a e k * wv k) * (r : EReal) = ∑ k, ((∑ e ∈ s, a e k) * (r : EReal)) * wv k := by
  choose a' ha' using ha
  choose w' hw' using hw
  have hL : (∑ e ∈ s, ∑ k, a e k * wv k) * (r : EReal)
      = (((∑ e ∈ s, ∑ k, a' e k * w' k) * r : ℝ) : EReal) := by
    rw [EReal.coe_mul, coe_finsum]
    congr 1
    refine Finset.sum_congr rfl fun e _ => ?_
    rw [coe_finsum]
    refine Finset.sum_congr rfl fun k _ => ?_
    rw [EReal.coe_mul, ha' e k, hw' k]
  have hR : (∑ k, ((∑ e ∈ s, a e k) * (r : EReal)) * wv k)
      = ((∑ k, ((∑ e ∈ s, a' e k) * r) * w' k : ℝ) : EReal) := by
    rw [coe_finsum]
    refine Finset.sum_congr rfl fun k _ => ?_
    have hs : ∑ e ∈ s, a e k = ∑ e ∈ s, ((a' e k : ℝ) : EReal) := Finset.sum_congr rfl fun e _ => ha' e k
    rw [EReal.coe_mul, EReal.coe_mul, coe_finsum, hw' k, hs]
  rw [hL, hR]
  congr 1
  rw [Finset.sum_comm, Finset.sum_mul]
  refine Finset.sum_congr rfl fun k _ => ?_
  rw [← Finset.sum_mul]
  ring

/-- A layer whose neighbour sum is taken after the left weight is the layer that divides the neighbour sum of the
    rows themselves, when the rows and the left weight are real. -/
theorem post_eq_divided (act : EReal → EReal) (hN : 0 < N) (S D : ICol E w) (x : Mat N K) (wl wr : Mat K C) (b : Vc C)
    (hx : AllReal x) (hw : AllReal wl) :
    postLayer act x (agg hN S D (dense x wl)) (invCol D) wr b
      = dividedLayer act x (agg hN S D x) (mxCol D) wl wr b := by
  funext j
  obtain ⟨r, hr0, hr⟩ := mx_real D (j 0)
  have hic : invCol D (ix2 (j 0) (0 : Fin 1)) = ((1 / r : ℝ) : EReal) := by
    show Ideal.div 1 (max (deg D (j 0)) 1) = _
    rw [hr, Ideal.div_coe hr0, one_mul]
  have hdiv : ∀ q : Fin K, rowDiv (agg hN S D x) (mxCol D) (ix2 (j 0) q)
      = agg hN S D x (ix2 (j 0) q) * ((1 / r : ℝ) : EReal) := fun q => by
    show Ideal.div (agg hN S D x (ix2 (j 0) q)) (max (deg D (j 0)) 1) = _
    rw [hr, Ideal.div_coe hr0]
  have key : agg hN S D (dense x wl) j * invCol D (ix2 (j 0) (0 : Fin 1))
      = dense (rowDiv (agg hN S D x) (mxCol D)) wl j := by
    rw [hic]
    show (∑ e ∈ Finset.univ.filter (fun e : Fin E => RowGS.Lands D e (j 0)),
          ∑ q : Fin K, x (ix2 (RowGS.srcRow hN S e) q) * wl (ix2 q (j 1))) * ((1 / r : ℝ) : EReal)
        = ∑ q : Fin K, rowDiv (agg hN S D x) (mxCol D) (ix2 (j 0) q) * wl (ix2 q (j 1))
    rw [sum_scale_comm _ (fun e q => x (ix2 (RowGS.srcRow hN S e) q)) (fun q => wl (ix2 q (j 1))) (1 / r)
      (fun e q => hx _) (fun q => hw _)]
    refine Finset.sum_congr rfl fun q _ => ?_
    rw [hdiv q]
    rfl
  show act ((dense x wr j + agg hN S D (dense x wl) j * invCol D (ix2 (j 0) (0 : Fin 1))) + b (ix1 (j 1)))
    = act ((dense (rowDiv (agg hN S D x) (mxCol D)) wl j + b (ix1 (j 1))) + dense x wr j)
  rw [key, add_comm (dense x wr j), add_right_comm]

/-! ## Real entries stay real -/

theorem dense_real {x : Mat R K} {wt : Mat K C} (hx : AllReal x) (hw : AllReal wt) : AllReal (dense x wt) :=
  fun _ => isReal_sum _ _ fun _ _ => (hx _).mul (hw _)

theorem biased_real {x : Mat R K} {wt : Mat K C} {b : Vc C} (hx : AllReal x) (hw : AllReal wt) (hb : AllReal b) :
    AllReal (biased x wt b) :=
  fun j => (dense_real hx hw j).add (hb _)

theorem agg_real (hN : 0 < N) (S D : ICol E w) {t : Mat N C} (ht : AllReal t) : AllReal (agg hN S D t) :=
  fun _ => isReal_sum _ _ fun _ _ => ht _

theorem invCol_real (D : ICol E w) : AllReal (invCol (N := N) D) := fun j => by
  obtain ⟨r, hr0, hr⟩ := mx_real D (j 0)
  show IsReal (Ideal.div 1 (max (deg D (j 0)) 1))
  rw [hr, Ideal.div_coe hr0, one_mul]
  exact isReal_coe _

theorem rowScale_real {s : Mat R K} {ic : Mat R 1} (hs : AllReal s) (hi : AllReal ic) : AllReal (rowScale s ic) :=
  fun i => (hs i).mul (hi _)

theorem scaledLayer_real {act : EReal → EReal} (hact : ∀ v, IsReal v → IsReal (act v))
    {x s : Mat R K} {ic : Mat R 1} {wl wr : Mat K C} {b : Vc C}
    (hx : AllReal x) (hs : AllReal s) (hi : AllReal ic) (hwl : AllReal wl) (hwr : AllReal wr) (hb : AllReal b) :
    AllReal (scaledLayer act x s ic wl wr b) :=
  fun j => hact _ (((dense_real (rowScale_real hs hi) hwl j).add (dense_real hx hwr j)).add (hb _))

theorem postLayer_real {act : EReal → EReal} (hact : ∀ v, IsReal v → IsReal (act v))
    {x : Mat R K} {s : Mat R C} {ic : Mat R 1} {wr : Mat K C} {b : Vc C}
    (hx : AllReal x) (hs : AllReal s) (hi : AllReal ic) (hwr : AllReal wr) (hb : AllReal b) :
    AllReal (postLayer act x s ic wr b) :=
  fun j => hact _ (((dense_real hx hwr j).add ((hs j).mul (hi _))).add (hb _))

theorem tanh_real (v : EReal) (hv : IsReal v) : IsReal (Ideal.tanh v) := by
  obtain ⟨r, rfl⟩ := hv
  exact ⟨Real.tanh r, rfl⟩

theorem leaky_real (z : EReal) {a : EReal} (ha : IsReal a) (v : EReal) (hv : IsReal v) : IsReal (leaky z a v) := by
  unfold leaky Scalar.select
  split
  · exact hv
  · exact ha.mul hv

end Cert.Net

end
-- ==== Proof.Net.lean ====
/-
  The whole network, written twice over one record of parameters: once in the order of operations that scales
  every neighbour sum by the inverse count and, for the last two layers, applies the left weight BEFORE the
  neighbour sum (`scaledMu`, `scaledOut`), and once in the order that divides each neighbour sum by the clamped count
  and applies the left weight after it (`dividedMu`, `dividedOut`). Over real parameters the two agree, stage by stage:
  the first five layers by `scaled_eq_divided`, the last two by `post_eq_divided`, whose hypothesis — the layer's
  input is real — is carried down the chain.
-/
import proofs.«102533_j14611478741197_2_alg».proof.Proof.Algebra

noncomputable section

namespace Cert.Net

open Idealize.ShloMosaic Idealize.ShloMosaic.ValueIdx Cert.RealSum

/-- The network's parameters: the node features, the two index columns of the edge list (the column rows are read
    from, the column they land on), the weights already transposed to `[in, out]`, the biases, and the two constants
    of the slope rectifier (the zero it compares with and its slope). -/
structure Params (N E w : Nat) where
  hN : 0 < N
  x : Mat N 64
  S : ICol E w
  D : ICol E w
  w1l : Mat 64 128
  w1r : Mat 64 128
  b1 : Vc 128
  w2l : Mat 128 128
  w2r : Mat 128 128
  b2 : Vc 128
  w3l : Mat 128 128
  w3r : Mat 128 128
  b3 : Vc 128
  wt : Mat 128 64
  bt : Vc 64
  wd : Mat 64 128
  bd : Vc 128
  w4l : Mat 128 128
  w4r : Mat 128 128
  b4 : Vc 128
  w5l : Mat 128 64
  w5r : Mat 128 64
  b5 : Vc 64
  w6l : Mat 64 3
  w6r : Mat 64 3
  b6 : Vc 3
  z : EReal
  a : EReal

variable {N E w : Nat} (P : Params N E w)

/-- Every float parameter is real. -/
structure Params.Real : Prop where
  x : AllReal P.x
  w1l : AllReal P.w1l
  w1r : AllReal P.w1r
  b1 : AllReal P.b1
  w2l : AllReal P.w2l
  w2r : AllReal P.w2r
  b2 : AllReal P.b2
  w3l : AllReal P.w3l
  w3r : AllReal P.w3r
  b3 : AllReal P.b3
  wt : AllReal P.wt
  bt : AllReal P.bt
  wd : AllReal P.wd
  bd : AllReal P.bd
  w4l : AllReal P.w4l
  w4r : AllReal P.w4r
  b4 : AllReal P.b4
  w5l : AllReal P.w5l
  w5r : AllReal P.w5r
  b5 : AllReal P.b5
  w6l : AllReal P.w6l
  w6r : AllReal P.w6r
  b6 : AllReal P.b6
  a : IsReal P.a

namespace Params

/-- The neighbour sum over this graph. -/
abbrev nsum {C : Nat} (t : Mat N C) : Mat N C := agg P.hN P.S P.D t
/-- The inverse clamped in-degree column of this graph. -/
abbrev ic : Mat N 1 := invCol P.D
/-- The clamped in-degree column of this graph. -/
abbrev mx : Mat N 1 := mxCol P.D
/-- The slope rectifier with this record's constants. -/
abbrev rect : EReal → EReal := leaky P.z P.a

/-! ## The scaled order -/

def sh1 : Mat N 128 := scaledLayer Ideal.tanh P.x (P.nsum P.x) P.ic P.w1l P.w1r P.b1
def sh2 : Mat N 128 := scaledLayer Ideal.tanh P.sh1 (P.nsum P.sh1) P.ic P.w2l P.w2r P.b2
def sh3 : Mat N 128 := scaledLayer Ideal.tanh P.sh2 (P.nsum P.sh2) P.ic P.w3l P.w3r P.b3
def scaledMu : Mat N 64 := biased P.sh3 P.wt P.bt
def so1 : Mat N 128 := fun j => P.rect (biased P.scaledMu P.wd P.bd j)
def so2 : Mat N 128 := scaledLayer P.rect P.so1 (P.nsum P.so1) P.ic P.w4l P.w4r P.b4
def sy3 : Mat N 64 := dense P.so2 P.w5l
def so3 : Mat N 64 := postLayer Ideal.tanh P.so2 (P.nsum P.sy3) P.ic P.w5r P.b5
def sy4 : Mat N 3 := dense P.so3 P.w6l
def scaledOut : Mat N 3 := postLayer (fun v => v) P.so3 (P.nsum P.sy4) P.ic P.w6r P.b6

/-! ## The divided order -/

def dh1 : Mat N 128 := dividedLayer Ideal.tanh P.x (P.nsum P.x) P.mx P.w1l P.w1r P.b1
def dh2 : Mat N 128 := dividedLayer Ideal.tanh P.dh1 (P.nsum P.dh1) P.mx P.w2l P.w2r P.b2
def dh3 : Mat N 128 := dividedLayer Ideal.tanh P.dh2 (P.nsum P.dh2) P.mx P.w3l P.w3r P.b3
def dividedMu : Mat N 64 := biased P.dh3 P.wt P.bt
def do1 : Mat N 128 := fun j => P.rect (biased P.dividedMu P.wd P.bd j)
def do2 : Mat N 128 := dividedLayer P.rect P.do1 (P.nsum P.do1) P.mx P.w4l P.w4r P.b4
def do3 : Mat N 64 := dividedLayer Ideal.tanh P.do2 (P.nsum P.do2) P.mx P.w5l P.w5r P.b5
def dividedOut : Mat N 3 := dividedLayer (fun v => v) P.do3 (P.nsum P.do3) P.mx P.w6l P.w6r P.b6

/-! ## The two orders agree, and the scaled chain stays real -/

variable {P}

theorem sh1_eq : P.sh1 = P.dh1 := scaled_eq_divided _ _ _ _ _ _ _
theorem sh2_eq : P.sh2 = P.dh2 := by
  unfold sh2 dh2; rw [sh1_eq]; exact scaled_eq_divided _ _ _ _ _ _ _
theorem sh3_eq : P.sh3 = P.dh3 := by
  unfold sh3 dh3; rw [sh2_eq]; exact scaled_eq_divided _ _ _ _ _ _ _
theorem mu_eq : P.scaledMu = P.dividedMu := by
  unfold scaledMu dividedMu; rw [sh3_eq]
theorem so1_eq : P.so1 = P.do1 := by
  unfold so1 do1; rw [mu_eq]
theorem so2_eq : P.so2 = P.do2 := by
  unfold so2 do2; rw [so1_eq]; exact scaled_eq_divided _ _ _ _ _ _ _

theorem ic_real : AllReal P.ic := invCol_real P.D

theorem sh1_real (h : P.Real) : AllReal P.sh1 :=
  scaledLayer_real tanh_real h.x (agg_real _ _ _ h.x) ic_real h.w1l h.w1r h.b1
theorem sh2_real (h : P.Real) : AllReal P.sh2 :=
  scaledLayer_real tanh_real (sh1_real h) (agg_real _ _ _ (sh1_real h)) ic_real h.w2l h.w2r h.b2
theorem sh3_real (h : P.Real) : AllReal P.sh3 :=
  scaledLayer_real tanh_real (sh2_real h) (agg_real _ _ _ (sh2_real h)) ic_real h.w3l h.w3r h.b3
theorem mu_real (h : P.Real) : AllReal P.scaledMu := biased_real (sh3_real h) h.wt h.bt
theorem so1_real (h : P.Real) : AllReal P.so1 :=
  fun j => leaky_real P.z h.a _ (biased_real (mu_real h) h.wd h.bd j)
theorem so2_real (h : P.Real) : AllReal P.so2 :=
  scaledLayer_real (leaky_real P.z h.a) (so1_real h) (agg_real _ _ _ (so1_real h)) ic_real h.w4l h.w4r h.b4
theorem so3_real (h : P.Real) : AllReal P.so3 :=
  postLayer_real tanh_real (so2_real h) (agg_real _ _ _ (dense_real (so2_real h) h.w5l)) ic_real h.w5r h.b5

theorem so3_eq (h : P.Real) : P.so3 = P.do3 := by
  unfold so3 do3 sy3
  rw [post_eq_divided Ideal.tanh P.hN P.S P.D P.so2 P.w5l P.w5r P.b5 (so2_real h) h.w5l, so2_eq]

/-- THE LAST LAYER agrees in the two orders. -/
theorem out_eq (h : P.Real) : P.scaledOut = P.dividedOut := by
  unfold scaledOut dividedOut sy4
  rw [post_eq_divided (fun v => v) P.hN P.S P.D P.so3 P.w6l P.w6r P.b6 (so3_real h) h.w6l, so3_eq h]

end Params

end Cert.Net

end
-- ==== Proof.ParamsOf.lean ====
/-
  The network's parameters as both programs build them from the 24 argument arrays: the features, the edge list's
  two rows as index columns (the row that is read from, with a negative index wrapped once by the number of nodes, and
  the row that is landed on), every weight transposed to `[in, out]`, the biases, and the rectifier's two constants
  (the words of `0.0` and of the single-precision `0.01`).
-/
import proofs.«102533_j14611478741197_2_alg».proof.KernelIdeal
import proofs.«102533_j14611478741197_2_alg».proof.Proof.Gen.KernelIdeal
import proofs.«102533_j14611478741197_2_alg».proof.Proof.Net

noncomputable section

namespace Cert.Net

open Idealize.ShloMosaic Cert.KernelIdeal Cert.KernelIdeal.Gen

/-- Row `r` of the edge list as a vector. -/
def edgeRow (r : Nat) (h : S2x1600000.Slices ![r, 0] S1x1600000) (ei : IVec S2x1600000 32) : IVec S1600000 32 :=
  shapeCast S1600000 (extractStridedSlice S1x1600000 ![r, 0] ei h) shapeCasts_S1x1600000_S1600000

/-- The column of rows that are read: row 0 of the edge list, a negative index wrapped once by the number of nodes. -/
def srcCol (ei : IVec S2x1600000 32) : ICol 1600000 32 :=
  broadcastInDim S1600000x1 ![0] bcast_S1600000_S1600000x1_0
    (select (cmpi .slt (edgeRow 0 slices_S2x1600000_S1x1600000_0_0 ei) (broadcastInDim S1600000 ![] bcast_S_S1600000 (constantI S_ 32 0#32)))
      (addi (edgeRow 0 slices_S2x1600000_S1x1600000_0_0 ei) (broadcastInDim S1600000 ![] bcast_S_S1600000 (constantI S_ 32 100000#32)))
      (edgeRow 0 slices_S2x1600000_S1x1600000_0_0 ei))

/-- The column of rows that are landed on: row 1 of the edge list. -/
def dstCol (ei : IVec S2x1600000 32) : ICol 1600000 32 :=
  broadcastInDim S1600000x1 ![0] bcast_S1600000_S1600000x1_0 (edgeRow 1 slices_S2x1600000_S1x1600000_1_0 ei)

/-- The parameters, from the argument arrays in @main's order. -/
def paramsOf (a0 : FVec Ideal S100000x64 .f32) (a1 : IVec S2x1600000 32)
    (a2 : FVec Ideal S128x64 .f32) (a3 : FVec Ideal S128 .f32) (a4 : FVec Ideal S128x64 .f32)
    (a5 : FVec Ideal S128x128 .f32) (a6 : FVec Ideal S128 .f32) (a7 : FVec Ideal S128x128 .f32)
    (a8 : FVec Ideal S128x128 .f32) (a9 : FVec Ideal S128 .f32) (a10 : FVec Ideal S128x128 .f32)
    (a11 : FVec Ideal S64x128 .f32) (a12 : FVec Ideal S64 .f32)
    (a13 : FVec Ideal S128x64 .f32) (a14 : FVec Ideal S128 .f32)
    (a15 : FVec Ideal S128x128 .f32) (a16 : FVec Ideal S128 .f32) (a17 : FVec Ideal S128x128 .f32)
    (a18 : FVec Ideal S64x128 .f32) (a19 : FVec Ideal S64 .f32) (a20 : FVec Ideal S64x128 .f32)
    (a21 : FVec Ideal S3x64 .f32) (a22 : FVec Ideal S3 .f32) (a23 : FVec Ideal S3x64 .f32) :
    Params 100000 1600000 32 where
  hN := by norm_num
  x := a0
  S := srcCol a1
  D := dstCol a1
  w1l := transpose S64x128 [1, 0] a2 transposes_S128x64_S64x128_1_0
  w1r := transpose S64x128 [1, 0] a4 transposes_S128x64_S64x128_1_0
  b1 := a3
  w2l := transpose S128x128 [1, 0] a5 transposes_S128x128_S128x128_1_0
  w2r := transpose S128x128 [1, 0] a7 transposes_S128x128_S128x128_1_0
  b2 := a6
  w3l := transpose S128x128 [1, 0] a8 transposes_S128x128_S128x128_1_0
  w3r := transpose S128x128 [1, 0] a10 transposes_S128x128_S128x128_1_0
  b3 := a9
  wt := transpose S128x64 [1, 0] a11 transposes_S64x128_S128x64_1_0
  bt := a12
  wd := transpose S64x128 [1, 0] a13 transposes_S128x64_S64x128_1_0
  bd := a14
  w4l := transpose S128x128 [1, 0] a15 transposes_S128x128_S128x128_1_0
  w4r := transpose S128x128 [1, 0] a17 transposes_S128x128_S128x128_1_0
  b4 := a16
  w5l := transpose S128x64 [1, 0] a18 transposes_S64x128_S128x64_1_0
  w5r := transpose S128x64 [1, 0] a20 transposes_S64x128_S128x64_1_0
  b5 := a19
  w6l := transpose S64x3 [1, 0] a21 transposes_S3x64_S64x3_1_0
  w6r := transpose S64x3 [1, 0] a23 transposes_S3x64_S64x3_1_0
  b6 := a22
  z := Ideal.ofBits .f32 0x00000000#32
  a := Ideal.ofBits .f32 0x3C23D70A#32

end Cert.Net

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.HostRead.lean ====
/-
  Host operations read as the network's functions (general lemmas: any extents).

  * a row gather followed by a row scatter-add into zeros is the neighbour sum `agg`;
  * ones scatter-added into a zero column and clamped below by one is the column `mxCol`;
  * ones scatter-added into a zero vector, clamped below by one, inverted and laid out as a column is `invCol`;
  * a product with a divided left operand, plus a bias row, plus a second product is the inside of `dividedLayer`;
  * a product plus a bias row is `biased`.
  The constants are the words of `0.0` and `1.0`, which denote `0` and `1`.
-/
import Idealize.ShloMosaic.PureOps.Ideal.Laws
import Idealize.ShloMosaic.Lib.IdealHost
import proofs.«102533_j14611478741197_2_alg».proof.Proof.Spec
import proofs.«102533_j14611478741197_2_alg».proof.Proof.LibBroadcast
import proofs.«102533_j14611478741197_2_alg».proof.Proof.LibPlainDot

noncomputable section

open scoped BigOperators

namespace Cert.Net

open Idealize.ShloMosaic Idealize.ShloMosaic.ValueIdx

variable {N E C K w : Nat}

/-- Rows gathered at `S` and scatter-added at `D` into zeros: the neighbour sum. -/
theorem agg_read (hN : 0 < N) {g : GatherDims ⟨2, ![N, C]⟩ ⟨2, ![E, 1]⟩ ⟨2, ![E, C]⟩} (hg : RowGS.IsRowGather g)
    {d : ScatterDims ⟨2, ![N, C]⟩ ⟨2, ![E, 1]⟩ ⟨2, ![E, C]⟩} (hd : RowGS.IsRowScatter d)
    (hz : (⟨0, ![]⟩ : Shape).BroadcastsInDim ⟨2, ![N, C]⟩ ![]) (t : Mat N C) (S D : ICol E w) :
    Host.scatterAdd d (broadcastInDim ⟨2, ![N, C]⟩ ![] hz (constant (F := Ideal) ⟨0, ![]⟩ .f32 0x00000000#32)) D
        (Host.gather g t S)
      = agg hN S D t := by
  funext j
  obtain ⟨n, k, rfl⟩ : ∃ (n : Fin N) (k : Fin C), j = ix2 n k := ⟨j 0, j 1, eq_ix2 j⟩
  rw [RowGS.scatterAdd_row_apply hd, Bcast.scalar_apply, constant_apply, Ideal.ofBits_zero_f32, zero_add]
  show _ = ∑ e ∈ Finset.univ.filter (fun e : Fin E => RowGS.Lands D e n), t (ix2 (RowGS.srcRow hN S e) k)
  refine Finset.sum_congr rfl fun e _ => ?_
  exact RowGS.gather_row_apply hg hN t S e k

/-- Ones scatter-added at `D` into a zero column, clamped below by one. -/
theorem mxCol_read {d : ScatterDims ⟨2, ![N, 1]⟩ ⟨2, ![E, 1]⟩ ⟨2, ![E, 1]⟩} (hd : RowGS.IsRowScatter d)
    (hz : (⟨0, ![]⟩ : Shape).BroadcastsInDim ⟨2, ![N, 1]⟩ ![]) (ho : (⟨0, ![]⟩ : Shape).BroadcastsInDim ⟨2, ![E, 1]⟩ ![])
    (D : ICol E w) :
    maximumf (Host.scatterAdd d (broadcastInDim ⟨2, ![N, 1]⟩ ![] hz (constant (F := Ideal) ⟨0, ![]⟩ .f32 0x00000000#32)) D
          (broadcastInDim ⟨2, ![E, 1]⟩ ![] ho (constant (F := Ideal) ⟨0, ![]⟩ .f32 0x3F800000#32)))
        (broadcastInDim ⟨2, ![N, 1]⟩ ![] hz (constant (F := Ideal) ⟨0, ![]⟩ .f32 0x3F800000#32))
      = mxCol D := by
  funext j
  obtain ⟨n, u, rfl⟩ : ∃ (n : Fin N) (u : Fin 1), j = ix2 n u := ⟨j 0, j 1, eq_ix2 j⟩
  rw [maximumf_apply, RowGS.scatterAdd_row_apply hd]
  -- a broadcast constant reads its word at every entry
  show max (Ideal.ofBits .f32 0x00000000#32
        + ∑ _e ∈ Finset.univ.filter (fun e : Fin E => RowGS.Lands D e n), Ideal.ofBits .f32 0x3F800000#32)
      (Ideal.ofBits .f32 0x3F800000#32)
    = max (deg D n) 1
  rw [Ideal.ofBits_zero_f32, Ideal.ofBits_one_f32, zero_add]
  rfl

/-- Ones scatter-added at `D` into a zero vector, clamped below by one, inverted, laid out as a column. -/
theorem invCol_read (hN1 : N ≠ 1) {d : ScatterDims ⟨1, ![N]⟩ ⟨2, ![E, 1]⟩ ⟨1, ![E]⟩} (hd : RowGS.IsVecScatter d)
    (hc : (⟨1, ![N]⟩ : Shape).BroadcastsInDim ⟨2, ![N, 1]⟩ ![0])
    (hz : (⟨0, ![]⟩ : Shape).BroadcastsInDim ⟨1, ![N]⟩ ![]) (ho : (⟨0, ![]⟩ : Shape).BroadcastsInDim ⟨1, ![E]⟩ ![])
    (D : ICol E w) :
    broadcastInDim ⟨2, ![N, 1]⟩ ![0] hc
        (Host.divf (broadcastInDim ⟨1, ![N]⟩ ![] hz (constant (F := Ideal) ⟨0, ![]⟩ .f32 0x3F800000#32))
          (maximumf (Host.scatterAdd d (broadcastInDim ⟨1, ![N]⟩ ![] hz (constant (F := Ideal) ⟨0, ![]⟩ .f32 0x00000000#32)) D
              (broadcastInDim ⟨1, ![E]⟩ ![] ho (constant (F := Ideal) ⟨0, ![]⟩ .f32 0x3F800000#32)))
            (broadcastInDim ⟨1, ![N]⟩ ![] hz (constant (F := Ideal) ⟨0, ![]⟩ .f32 0x3F800000#32))))
      = invCol D := by
  funext j
  obtain ⟨n, u, rfl⟩ : ∃ (n : Fin N) (u : Fin 1), j = ix2 n u := ⟨j 0, j 1, eq_ix2 j⟩
  rw [Bcast.col_apply hN1]
  show Ideal.div (broadcastInDim ⟨1, ![N]⟩ ![] hz (constant (F := Ideal) ⟨0, ![]⟩ .f32 0x3F800000#32) (ix1 n))
      (maximumf (Host.scatterAdd d (broadcastInDim ⟨1, ![N]⟩ ![] hz (constant (F := Ideal) ⟨0, ![]⟩ .f32 0x00000000#32)) D
            (broadcastInDim ⟨1, ![E]⟩ ![] ho (constant (F := Ideal) ⟨0, ![]⟩ .f32 0x3F800000#32)))
          (broadcastInDim ⟨1, ![N]⟩ ![] hz (constant (F := Ideal) ⟨0, ![]⟩ .f32 0x3F800000#32)) (ix1 n))
    = Ideal.div 1 (max (deg D n) 1)
  rw [maximumf_apply, RowGS.scatterAdd_vec_apply hd]
  -- a broadcast constant reads its word at every entry
  show Ideal.div (Ideal.ofBits .f32 0x3F800000#32)
      (max (Ideal.ofBits .f32 0x00000000#32
          + ∑ _e ∈ Finset.univ.filter (fun e : Fin E => RowGS.Lands D e n), Ideal.ofBits .f32 0x3F800000#32)
        (Ideal.ofBits .f32 0x3F800000#32))
    = Ideal.div 1 (max (deg D n) 1)
  rw [Ideal.ofBits_zero_f32, Ideal.ofBits_one_f32, zero_add]
  rfl

/-- The inside of a layer that divides its neighbour sum: divided sum through the left weight, bias row, root term. -/
theorem dividedPre_read (hN1 : N ≠ 1) (hC1 : C ≠ 1)
    {dl dr : DotDims ⟨2, ![N, K]⟩ ⟨2, ![K, C]⟩ ⟨2, ![N, C]⟩} (hdl : PlainDot.IsPlain dl) (hdr : PlainDot.IsPlain dr)
    (hm : (⟨2, ![N, 1]⟩ : Shape).BroadcastsInDim ⟨2, ![N, K]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (x s : Mat N K) (mx : Mat N 1) (wl wr : Mat K C) (b : Vc C) (j : (⟨2, ![N, C]⟩ : Shape).Idx) :
    addf (F := Ideal) (φ := .f32)
        (addf (F := Ideal) (φ := .f32)
          (Host.dotGeneral dl none (φ₁ := .f32) (φ₂ := .f32) (Host.divf (F := Ideal) (φ := .f32) s (broadcastInDim ⟨2, ![N, K]⟩ ![0, 1] hm mx)) wl)
          (broadcastInDim ⟨2, ![N, C]⟩ ![0, 1] hb2 (broadcastInDim ⟨2, ![1, C]⟩ ![1] hb1 b)))
        (Host.dotGeneral dr none (φ₁ := .f32) (φ₂ := .f32) x wr) j
      = (dense (rowDiv s mx) wl j + b (ix1 (j 1))) + dense x wr j := by
  obtain ⟨p, c, rfl⟩ : ∃ (p : Fin N) (c : Fin C), j = ix2 p c := ⟨j 0, j 1, eq_ix2 j⟩
  rw [addf_apply, addf_apply, PlainDot.dotGeneral_apply hdl, PlainDot.dotGeneral_apply hdr, Bcast.bias_rows_apply hC1]
  show (∑ q : Fin K, Ideal.div (s (ix2 p q)) (broadcastInDim ⟨2, ![N, K]⟩ ![0, 1] hm mx (ix2 p q)) * wl (ix2 q c)) + b (ix1 c)
      + ∑ q : Fin K, x (ix2 p q) * wr (ix2 q c)
    = (∑ q : Fin K, Ideal.div (s (ix2 p q)) (mx (ix2 p (0 : Fin 1))) * wl (ix2 q c)) + b (ix1 c)
      + ∑ q : Fin K, x (ix2 p q) * wr (ix2 q c)
  simp only [Bcast.rows_of_col_apply hN1]

/-- A product plus a bias row. -/
theorem biased_read (hC1 : C ≠ 1) {d : DotDims ⟨2, ![N, K]⟩ ⟨2, ![K, C]⟩ ⟨2, ![N, C]⟩} (hd : PlainDot.IsPlain d)
    (hb1 : (⟨1, ![C]⟩ : Shape).BroadcastsInDim ⟨2, ![1, C]⟩ ![1])
    (hb2 : (⟨2, ![1, C]⟩ : Shape).BroadcastsInDim ⟨2, ![N, C]⟩ ![0, 1])
    (x : Mat N K) (wt : Mat K C) (b : Vc C) :
    addf (F := Ideal) (φ := .f32) (Host.dotGeneral d none (φ₁ := .f32) (φ₂ := .f32) x wt)
        (broadcastInDim ⟨2, ![N, C]⟩ ![0, 1] hb2 (broadcastInDim ⟨2, ![1, C]⟩ ![1] hb1 b))
      = biased x wt b := by
  funext j
  obtain ⟨p, c, rfl⟩ : ∃ (p : Fin N) (c : Fin C), j = ix2 p c := ⟨j 0, j 1, eq_ix2 j⟩
  rw [addf_apply, PlainDot.dotGeneral_apply hd, Bcast.bias_rows_apply hC1]
  rfl

end Cert.Net

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.ScaledLayerEntry.lean ====
/-
  One graph-convolution layer, read at one entry of a block of rows.

  A layer's body sees a block of rows of three row-indexed arrays — the node features `x`, the neighbour sums `s` and
  the column `ic` of inverse neighbour counts — and the whole of two weight matrices `wl`, `wr` and a bias `b`. It scales
  row `p` of `s` by `ic[p]`, multiplies the scaled rows by `wl` and the rows of `x` by `wr`, adds the two products, adds
  the bias to every row and applies the activation. On the extended reals a change of float format is the identity, so
  entry `(p, c)` of the result is

      act ((Σ_q (s[p,q] · ic[p]) · wl[q,c] + Σ_q x[p,q] · wr[q,c]) + b[c]),

  which is `Cert.Net.scaledLayer` of the blocks at `(p, c)`. Stated here for the three bodies of this form (64 input
  features with tanh; 128 input features with tanh, twice; 128 input features with the slope rectifier), and then
  lifted from a block to the arrays it is cut from: when the three row blocks are rows `5000·t + p` of their arrays and
  the other three blocks are whole arrays, the block's entry `(p, c)` is the layer of the ARRAYS at `(5000·t + p, c)`.
-/
import proofs.«102533_j14611478741197_2_alg».proof.Proof.Gen.KernelIdeal.Skeleton
import proofs.«102533_j14611478741197_2_alg».proof.Proof.Spec
import proofs.«102533_j14611478741197_2_alg».proof.Proof.LibPlainDot
import proofs.«102533_j14611478741197_2_alg».proof.Proof.LibRowBias
import Idealize.ShloMosaic.Lib.Pipeline.Value
import Idealize.ShloMosaic.Lib.ValueIdx

noncomputable section

open scoped BigOperators

namespace Cert.KernelIdeal.Regions.ScaledLayer

open Cert.KernelIdeal Cert.KernelIdeal.Gen Idealize.ShloMosaic Idealize.ShloMosaic.ValueIdx

/-- A column `[R, 1]` repeated across `K` columns holds, at `(p, q)`, the column's entry of row `p`. -/
theorem col_across {α : Type} {R K : Nat} (hR : R ≠ 1) (v : (⟨2, ![R, 1]⟩ : Shape).Idx → α)
    (h : (⟨2, ![R, 1]⟩ : Shape).Broadcasts ⟨2, ![R, K]⟩) (p : Fin R) (q : Fin K) :
    broadcastTo ⟨2, ![R, K]⟩ v h (ix2 p q) = v (ix2 p (0 : Fin 1)) :=
  broadcastTo_apply v h (ix2 p q) (ix2 p (0 : Fin 1)) (fun a => by
    match a with
    | ⟨0, _⟩ => show p.val = if R = 1 then 0 else p.val; rw [if_neg hR]
    | ⟨1, _⟩ => show (0 : ℕ) = if (1 : ℕ) = 1 then 0 else q.val; rw [if_pos rfl])

/-- The two products' dimension numbers are those of a plain matrix product. -/
theorem plain64 : Cert.PlainDot.IsPlain dot_S5000x64_S64x128_S5000x128_1_0_0_1_n_n := ⟨rfl, rfl, rfl, rfl, rfl, rfl⟩
theorem plain128 : Cert.PlainDot.IsPlain dot_S5000x128_S128x128_S5000x128_1_0_0_1_n_n := ⟨rfl, rfl, rfl, rfl, rfl, rfl⟩

/-- The rectifier of the last layer of this form: `v` where `v > 0`, else `0x3C23D70A · v` (the float nearest 0.01). -/
abbrev slope : EReal → EReal :=
  Cert.Net.leaky (Ideal.ofBits .f32 0x00000000#32) (Ideal.ofBits .f32 0x3C23D70A#32)

/-! ## A block's entry -/

/-- The 64-feature tanh layer's body at entry `(p, c)` of its block. -/
theorem k0_pay1_entry (s : Vec Ideal S5000x64 .f32) (ic : Vec Ideal S5000x1 .f32) (x : Vec Ideal S5000x64 .f32)
    (wl wr : Vec Ideal S64x128 .f32) (b : Vec Ideal S128 .f32) (p : Fin 5000) (c : Fin 128) :
    k0_pay1 (F := Ideal) s ic x wl wr b (ix2 p c) = Cert.Net.scaledLayer Ideal.tanh x s ic wl wr b (ix2 p c) := by
  unfold k0_pay1
  simp only [shapeCast_self]
  show Ideal.tanh ((matmul (F := Ideal) _ none _ _ _ (ix2 p c) + matmul (F := Ideal) _ none _ _ _ (ix2 p c)) + broadcastTo _ _ _ (ix2 p c)) = _
  rw [Cert.PlainDot.matmul_zero_apply plain64 none _ _ p c, Cert.PlainDot.matmul_zero_apply plain64 none _ _ p c,
    Cert.RowBias.bias_rows (by decide) b _ _ p c]
  show Ideal.tanh ((∑ q : Fin 64, s (ix2 p q) * broadcastTo S5000x64 ic _ (ix2 p q) * wl (ix2 q c)
      + ∑ q : Fin 64, x (ix2 p q) * wr (ix2 q c)) + b (ix1 c)) = _
  simp only [col_across (by decide) ic _ p]
  rfl

/-- The 128-feature tanh layer's body at entry `(p, c)` of its block. -/
theorem k1_pay1_entry (s : Vec Ideal S5000x128 .f32) (ic : Vec Ideal S5000x1 .f32) (x : Vec Ideal S5000x128 .f32)
    (wl wr : Vec Ideal S128x128 .f32) (b : Vec Ideal S128 .f32) (p : Fin 5000) (c : Fin 128) :
    k1_pay1 (F := Ideal) s ic x wl wr b (ix2 p c) = Cert.Net.scaledLayer Ideal.tanh x s ic wl wr b (ix2 p c) := by
  unfold k1_pay1
  simp only [shapeCast_self]
  show Ideal.tanh ((matmul (F := Ideal) _ none _ _ _ (ix2 p c) + matmul (F := Ideal) _ none _ _ _ (ix2 p c)) + broadcastTo _ _ _ (ix2 p c)) = _
  rw [Cert.PlainDot.matmul_zero_apply plain128 none _ _ p c, Cert.PlainDot.matmul_zero_apply plain128 none _ _ p c,
    Cert.RowBias.bias_rows (by decide) b _ _ p c]
  show Ideal.tanh ((∑ q : Fin 128, s (ix2 p q) * broadcastTo S5000x128 ic _ (ix2 p q) * wl (ix2 q c)
      + ∑ q : Fin 128, x (ix2 p q) * wr (ix2 q c)) + b (ix1 c)) = _
  simp only [col_across (by decide) ic _ p]
  rfl

/-- The second 128-feature tanh layer's body is the first one's, term for term. -/
theorem k2_pay1_eq : @k2_pay1 Ideal _ = @k1_pay1 Ideal _ := rfl

/-- The 128-feature rectified layer's body at entry `(p, c)` of its block. -/
theorem k4_pay1_entry (s : Vec Ideal S5000x128 .f32) (ic : Vec Ideal S5000x1 .f32) (x : Vec Ideal S5000x128 .f32)
    (wl wr : Vec Ideal S128x128 .f32) (b : Vec Ideal S128 .f32) (p : Fin 5000) (c : Fin 128) :
    k4_pay1 (F := Ideal) s ic x wl wr b (ix2 p c) = Cert.Net.scaledLayer slope x s ic wl wr b (ix2 p c) := by
  unfold k4_pay1
  simp only [shapeCast_self]
  show slope ((matmul (F := Ideal) _ none _ _ _ (ix2 p c) + matmul (F := Ideal) _ none _ _ _ (ix2 p c)) + broadcastTo _ _ _ (ix2 p c)) = _
  rw [Cert.PlainDot.matmul_zero_apply plain128 none _ _ p c, Cert.PlainDot.matmul_zero_apply plain128 none _ _ p c,
    Cert.RowBias.bias_rows (by decide) b _ _ p c]
  show slope ((∑ q : Fin 128, s (ix2 p q) * broadcastTo S5000x128 ic _ (ix2 p q) * wl (ix2 q c)
      + ∑ q : Fin 128, x (ix2 p q) * wr (ix2 q c)) + b (ix1 c)) = _
  simp only [col_across (by decide) ic _ p]
  rfl

/-! ## From a block to the arrays -/

/-- Entry `y` of the 64-feature tanh layer's block at row block `t` is the layer of the arrays at the array index `i`
    with row `5000·t + (row of y)` and the same column: the row blocks are rows of their arrays, the weights and the
    bias are whole. -/
theorem k0_pay1_rows (t : Nat) (s : Vec Ideal S5000x64 .f32) (ic : Vec Ideal S5000x1 .f32) (x : Vec Ideal S5000x64 .f32)
    (wl wr : Vec Ideal S64x128 .f32) (b : Vec Ideal S128 .f32)
    (X S : Cert.Net.Mat 100000 64) (IC : Cert.Net.Mat 100000 1) (WL WR : Cert.Net.Mat 64 128) (B : Cert.Net.Vc 128)
    (hx : ∀ (y : S5000x64.Idx) (i : S100000x64.Idx), (i 0).val = 5000 * t + (y 0).val → (i 1).val = (y 1).val → x y = X i)
    (hs : ∀ (y : S5000x64.Idx) (i : S100000x64.Idx), (i 0).val = 5000 * t + (y 0).val → (i 1).val = (y 1).val → s y = S i)
    (hic : ∀ (y : S5000x1.Idx) (i : S100000x1.Idx), (i 0).val = 5000 * t + (y 0).val → ic y = IC i)
    (hwl : wl = WL) (hwr : wr = WR) (hb : b = B)
    (y : S5000x128.Idx) (i : S100000x128.Idx) (h0 : (i 0).val = 5000 * t + (y 0).val) (h1 : (i 1).val = (y 1).val) :
    k0_pay1 (F := Ideal) s ic x wl wr b y = Cert.Net.scaledLayer Ideal.tanh X S IC WL WR B i := by
  obtain ⟨p, c, rfl⟩ : ∃ (p : Fin 5000) (c : Fin 128), y = ix2 p c := ⟨y 0, y 1, eq_ix2 y⟩
  obtain ⟨r, c', rfl⟩ : ∃ (r : Fin 100000) (c' : Fin 128), i = ix2 r c' := ⟨i 0, i 1, eq_ix2 i⟩
  obtain rfl : c' = c := Fin.ext h1
  subst hwl hwr hb
  rw [k0_pay1_entry]
  show Ideal.tanh ((∑ q : Fin 64, s (ix2 p q) * ic (ix2 p (0 : Fin 1)) * wl (ix2 q c') + ∑ q : Fin 64, x (ix2 p q) * wr (ix2 q c')) + b (ix1 c'))
    = Ideal.tanh ((∑ q : Fin 64, S (ix2 r q) * IC (ix2 r (0 : Fin 1)) * wl (ix2 q c') + ∑ q : Fin 64, X (ix2 r q) * wr (ix2 q c')) + b (ix1 c'))
  rw [hic (ix2 p (0 : Fin 1)) (ix2 r (0 : Fin 1)) h0]
  simp only [fun q : Fin 64 => hx (ix2 p q) (ix2 r q) h0 rfl, fun q : Fin 64 => hs (ix2 p q) (ix2 r q) h0 rfl]

/-- Entry `y` of the 128-feature tanh layer's block at row block `t` is the layer of the arrays at the array index `i`
    with row `5000·t + (row of y)` and the same column: the row blocks are rows of their arrays, the weights and the
    bias are whole. -/
theorem k1_pay1_rows (t : Nat) (s : Vec Ideal S5000x128 .f32) (ic : Vec Ideal S5000x1 .f32) (x : Vec Ideal S5000x128 .f32)
    (wl wr : Vec Ideal S128x128 .f32) (b : Vec Ideal S128 .f32)
    (X S : Cert.Net.Mat 100000 128) (IC : Cert.Net.Mat 100000 1) (WL WR : Cert.Net.Mat 128 128) (B : Cert.Net.Vc 128)
    (hx : ∀ (y : S5000x128.Idx) (i : S100000x128.Idx), (i 0).val = 5000 * t + (y 0).val → (i 1).val = (y 1).val → x y = X i)
    (hs : ∀ (y : S5000x128.Idx) (i : S100000x128.Idx), (i 0).val = 5000 * t + (y 0).val → (i 1).val = (y 1).val → s y = S i)
    (hic : ∀ (y : S5000x1.Idx) (i : S100000x1.Idx), (i 0).val = 5000 * t + (y 0).val → ic y = IC i)
    (hwl : wl = WL) (hwr : wr = WR) (hb : b = B)
    (y : S5000x128.Idx) (i : S100000x128.Idx) (h0 : (i 0).val = 5000 * t + (y 0).val) (h1 : (i 1).val = (y 1).val) :
    k1_pay1 (F := Ideal) s ic x wl wr b y = Cert.Net.scaledLayer Ideal.tanh X S IC WL WR B i := by
  obtain ⟨p, c, rfl⟩ : ∃ (p : Fin 5000) (c : Fin 128), y = ix2 p c := ⟨y 0, y 1, eq_ix2 y⟩
  obtain ⟨r, c', rfl⟩ : ∃ (r : Fin 100000) (c' : Fin 128), i = ix2 r c' := ⟨i 0, i 1, eq_ix2 i⟩
  obtain rfl : c' = c := Fin.ext h1
  subst hwl hwr hb
  rw [k1_pay1_entry]
  show Ideal.tanh ((∑ q : Fin 128, s (ix2 p q) * ic (ix2 p (0 : Fin 1)) * wl (ix2 q c') + ∑ q : Fin 128, x (ix2 p q) * wr (ix2 q c')) + b (ix1 c'))
    = Ideal.tanh ((∑ q : Fin 128, S (ix2 r q) * IC (ix2 r (0 : Fin 1)) * wl (ix2 q c') + ∑ q : Fin 128, X (ix2 r q) * wr (ix2 q c')) + b (ix1 c'))
  rw [hic (ix2 p (0 : Fin 1)) (ix2 r (0 : Fin 1)) h0]
  simp only [fun q : Fin 128 => hx (ix2 p q) (ix2 r q) h0 rfl, fun q : Fin 128 => hs (ix2 p q) (ix2 r q) h0 rfl]

/-- Entry `y` of the 128-feature rectified layer's block at row block `t` is the layer of the arrays at the array index `i`
    with row `5000·t + (row of y)` and the same column: the row blocks are rows of their arrays, the weights and the
    bias are whole. -/
theorem k4_pay1_rows (t : Nat) (s : Vec Ideal S5000x128 .f32) (ic : Vec Ideal S5000x1 .f32) (x : Vec Ideal S5000x128 .f32)
    (wl wr : Vec Ideal S128x128 .f32) (b : Vec Ideal S128 .f32)
    (X S : Cert.Net.Mat 100000 128) (IC : Cert.Net.Mat 100000 1) (WL WR : Cert.Net.Mat 128 128) (B : Cert.Net.Vc 128)
    (hx : ∀ (y : S5000x128.Idx) (i : S100000x128.Idx), (i 0).val = 5000 * t + (y 0).val → (i 1).val = (y 1).val → x y = X i)
    (hs : ∀ (y : S5000x128.Idx) (i : S100000x128.Idx), (i 0).val = 5000 * t + (y 0).val → (i 1).val = (y 1).val → s y = S i)
    (hic : ∀ (y : S5000x1.Idx) (i : S100000x1.Idx), (i 0).val = 5000 * t + (y 0).val → ic y = IC i)
    (hwl : wl = WL) (hwr : wr = WR) (hb : b = B)
    (y : S5000x128.Idx) (i : S100000x128.Idx) (h0 : (i 0).val = 5000 * t + (y 0).val) (h1 : (i 1).val = (y 1).val) :
    k4_pay1 (F := Ideal) s ic x wl wr b y = Cert.Net.scaledLayer slope X S IC WL WR B i := by
  obtain ⟨p, c, rfl⟩ : ∃ (p : Fin 5000) (c : Fin 128), y = ix2 p c := ⟨y 0, y 1, eq_ix2 y⟩
  obtain ⟨r, c', rfl⟩ : ∃ (r : Fin 100000) (c' : Fin 128), i = ix2 r c' := ⟨i 0, i 1, eq_ix2 i⟩
  obtain rfl : c' = c := Fin.ext h1
  subst hwl hwr hb
  rw [k4_pay1_entry]
  show slope ((∑ q : Fin 128, s (ix2 p q) * ic (ix2 p (0 : Fin 1)) * wl (ix2 q c') + ∑ q : Fin 128, x (ix2 p q) * wr (ix2 q c')) + b (ix1 c'))
    = slope ((∑ q : Fin 128, S (ix2 r q) * IC (ix2 r (0 : Fin 1)) * wl (ix2 q c') + ∑ q : Fin 128, X (ix2 r q) * wr (ix2 q c')) + b (ix1 c'))
  rw [hic (ix2 p (0 : Fin 1)) (ix2 r (0 : Fin 1)) h0]
  simp only [fun q : Fin 128 => hx (ix2 p q) (ix2 r q) h0 rfl, fun q : Fin 128 => hs (ix2 p q) (ix2 r q) h0 rfl]

end Cert.KernelIdeal.Regions.ScaledLayer

end
-- ==== Proof.ScaledLayerRegion0.lean ====
/-
  The first (64-feature, tanh) layer's output array after its region has run, as one function of the region's input arrays.

  The region's grid has 20 points; point `t` stages rows `5000·t … 5000·t + 4999` of the node features, of the neighbour
  sums and of the inverse-count column, the whole of the two weight matrices and of the bias, and writes back rows
  `5000·t … 5000·t + 4999` of the output. What a point writes back is therefore the same rows of ONE array, the layer
  `Cert.Net.scaledLayer` of the input arrays; the 20 row blocks tile the `100000` rows, so that array is what the
  output holds at the end, whatever it held before.
-/
import proofs.«102533_j14611478741197_2_alg».proof.Proof.Gen.KernelIdeal.Frame
import proofs.«102533_j14611478741197_2_alg».proof.Proof.ScaledLayerEntry
import Idealize.ShloMosaic.Lib.Pipeline.Value
import Idealize.ShloMosaic.Lib.ValueIdx

noncomputable section

namespace Cert.KernelIdeal.Regions.ScaledLayer0

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Regions.ScaledLayer

variable (V : (c : Dev nD) → (b : Ref sig .tc) → Buf (Elt Ideal) ((c : Thread nD τ).loc b))

/-- The offsets of a whole-block access, all zero. -/
theorem zero_offsets2 : (![0, 0] : Fin 2 → Nat) = fun _ => 0 := funext fun a => by fin_cases a <;> rfl
theorem zero_offsets1 : (![0] : Fin 1 → Nat) = fun _ => 0 := funext fun a => by fin_cases a; rfl

/-- The layer of the region's input arrays as the region finds them. -/
abbrev layer0 (c : Dev nD) : S100000x128.Idx → EReal :=
  Cert.Net.scaledLayer Ideal.tanh
    (V c (Pipeline.arrRef spec0 0) : S100000x64.Idx → EReal) (V c (Pipeline.arrRef spec0 1) : S100000x64.Idx → EReal)
    (V c (Pipeline.arrRef spec0 2) : S100000x1.Idx → EReal) (V c (Pipeline.arrRef spec0 3) : S64x128.Idx → EReal)
    (V c (Pipeline.arrRef spec0 4) : S64x128.Idx → EReal) (V c (Pipeline.arrRef spec0 5) : S128.Idx → EReal)

/-- The block indices, decided over the grid: the three row-blocked inputs and the output sit at row block `t`, column
    block 0; the weights and the bias at block 0. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## Each input block as a part of its array -/

/-- The node features' block at point `t` is rows `5000·t …` of their array. -/
theorem features_rows0 (c : Dev nD) (t : Fin cfg0.N) (y : S5000x64.Idx) (i : S100000x64.Idx)
    (h0 : (i 0).val = 5000 * t.val + (y 0).val) (h1 : (i 1).val = (y 1).val) :
    (iblk0 V c 0 t : Vec Ideal S5000x64 .f32) y = (V c (Pipeline.arrRef spec0 0) : S100000x64.Idx → EReal) i := by
  obtain ⟨e00, e01, e10, e11, e20, e21, e30, e31, e40, e41, e50, e60, e61⟩ := block_indices0 t
  show V c (Pipeline.arrRef spec0 0) (((cfg0.win 0).blk t).view.emb y) = V c (Pipeline.arrRef spec0 0) i
  refine congrArg (V c (Pipeline.arrRef spec0 0)) (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- So is the neighbour sums' block. -/
theorem sums_rows0 (c : Dev nD) (t : Fin cfg0.N) (y : S5000x64.Idx) (i : S100000x64.Idx)
    (h0 : (i 0).val = 5000 * t.val + (y 0).val) (h1 : (i 1).val = (y 1).val) :
    (iblk0 V c 1 t : Vec Ideal S5000x64 .f32) y = (V c (Pipeline.arrRef spec0 1) : S100000x64.Idx → EReal) i := by
  obtain ⟨e00, e01, e10, e11, e20, e21, e30, e31, e40, e41, e50, e60, e61⟩ := block_indices0 t
  show V c (Pipeline.arrRef spec0 1) (((cfg0.win 1).blk t).view.emb y) = V c (Pipeline.arrRef spec0 1) i
  refine congrArg (V c (Pipeline.arrRef spec0 1)) (funext fun a => Fin.ext ?_)
  match a with
  | ⟨0, _⟩ => show win0_1.index t (0 : Fin 2) * 5000 + 1 * (y 0).val = (i 0).val; omega
  | ⟨1, _⟩ => show win0_1.index t (1 : Fin 2) * 64 + 1 * (y 1).val = (i 1).val; omega

/-- And the inverse-count column's (its one column is column 0 on both sides). -/
theorem counts_rows0 (c : Dev nD) (t : Fin cfg0.N) (y : S5000x1.Idx) (i : S100000x1.Idx)
    (h0 : (i 0).val = 5000 * t.val + (y 0).val) :
    (iblk0 V c 2 t : Vec Ideal S5000x1 .f32) y = (V c (Pipeline.arrRef spec0 2) : S100000x1.Idx → EReal) i := by
  obtain ⟨e00, e01, e10, e11, e20, e21, e30, e31, e40, e41, e50, e60, e61⟩ := block_indices0 t
  have hy : (y 1).val < 1 := (y 1).isLt
  have hi : (i 1).val < 1 := (i 1).isLt
  show V c (Pipeline.arrRef spec0 2) (((cfg0.win 2).blk t).view.emb y) = V c (Pipeline.arrRef spec0 2) i
  refine congrArg (V c (Pipeline.arrRef spec0 2)) (funext fun a => Fin.ext ?_)
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- The left weight's block is the whole matrix at every point. -/
theorem left_weight_whole0 (c : Dev nD) (t : Fin cfg0.N) :
    (iblk0 V c 3 t : Vec Ideal S64x128 .f32) = (V c (Pipeline.arrRef spec0 3) : S64x128.Idx → EReal) := by
  obtain ⟨e00, e01, e10, e11, e20, e21, e30, e31, e40, e41, e50, e60, e61⟩ := block_indices0 t
  funext y
  show V c (Pipeline.arrRef spec0 3) (((cfg0.win 3).blk t).view.emb y) = V c (Pipeline.arrRef spec0 3) y
  refine congrArg (V c (Pipeline.arrRef spec0 3)) (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- So is the right weight's. -/
theorem right_weight_whole0 (c : Dev nD) (t : Fin cfg0.N) :
    (iblk0 V c 4 t : Vec Ideal S64x128 .f32) = (V c (Pipeline.arrRef spec0 4) : S64x128.Idx → EReal) := by
  obtain ⟨e00, e01, e10, e11, e20, e21, e30, e31, e40, e41, e50, e60, e61⟩ := block_indices0 t
  funext y
  show V c (Pipeline.arrRef spec0 4) (((cfg0.win 4).blk t).view.emb y) = V c (Pipeline.arrRef spec0 4) y
  refine congrArg (V c (Pipeline.arrRef spec0 4)) (funext fun a => Fin.ext ?_)
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- And the bias's block is the whole vector. -/
theorem bias_whole0 (c : Dev nD) (t : Fin cfg0.N) :
    (iblk0 V c 5 t : Vec Ideal S128 .f32) = (V c (Pipeline.arrRef spec0 5) : S128.Idx → EReal) := by
  obtain ⟨e00, e01, e10, e11, e20, e21, e30, e31, e40, e41, e50, e60, e61⟩ := block_indices0 t
  funext y
  show V c (Pipeline.arrRef spec0 5) (((cfg0.win 5).blk t).view.emb y) = V c (Pipeline.arrRef spec0 5) y
  refine congrArg (V c (Pipeline.arrRef spec0 5)) (funext fun a => Fin.ext ?_)
  match a with
  | ⟨0, _⟩ => show win0_5.index t (0 : Fin 1) * 128 + 1 * (y 0).val = (y 0).val; omega

/-! ## What a point writes back, and the array at the end -/

/-- The body's result at point `t`, entry `y` of the block, is the layer of the arrays at the array index `i` with row
    `5000·t + (row of y)` and the same column. -/
theorem body_entry0 (c : Dev nD) (t : Fin cfg0.N) (y : S5000x128.Idx) (i : S100000x128.Idx)
    (h0 : (i 0).val = 5000 * t.val + (y 0).val) (h1 : (i 1).val = (y 1).val) :
    k0_pay1 (F := Ideal) (iblk0 V c 1 t) (iblk0 V c 2 t) (iblk0 V c 0 t) (iblk0 V c 3 t) (iblk0 V c 4 t) (iblk0 V c 5 t) y
      = layer0 V c i :=
  k0_pay1_rows t.val _ _ _ _ _ _ _ _ _ _ _ _ (features_rows0 V c t) (sums_rows0 V c t) (counts_rows0 V c t)
    (left_weight_whole0 V c t) (right_weight_whole0 V c t) (bias_whole0 V c t) y i h0 h1

/-- What point `t` writes back is block `t` of the layer of the input arrays. -/
theorem written0 (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6]
  unfold out0_6
  rw [View.canon_unit_zero zero_offsets2]
  simp only [View.ld_unit_zero (S := S5000x64) zero_offsets2, View.ld_unit_zero (S := S5000x1) zero_offsets2,
    View.ld_unit_zero (S := S64x128) zero_offsets2, View.ld_unit_zero (S := S128) zero_offsets1]
  obtain ⟨e00, e01, e10, e11, e20, e21, e30, e31, e40, e41, e50, e60, e61⟩ := block_indices0 t
  funext j
  refine body_entry0 V c t j _ ?_ ?_
  · show win0_6.index t (0 : Fin 2) * 5000 + 1 * (j 0).val = 5000 * t.val + (j 0).val; omega
  · show win0_6.index t (1 : Fin 2) * 128 + 1 * (j 1).val = (j 1).val; omega

/-- An index of the output array is in point `t`'s block iff each coordinate is in the block's range on its axis. -/
theorem mem_block0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25).slice (win0_6.rect t)).set ↔ _
  rw [View.set_slice_whole, Rect.mem_set_unit]
  exact Iff.rfl

/-- Every row of the output is in the block of the point `row / 5000`, which writes back. -/
theorem tiled0 (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨e00, e01, e10, e11, e20, e21, e30, e31, e40, e41, e50, e60, e61⟩ := block_indices0 t
  refine ⟨t, flush0_6 t, ?_⟩
  rw [mem_block0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

end Cert.KernelIdeal.Regions.ScaledLayer0

namespace Cert.KernelIdeal.Regions

open Cert.KernelIdeal Cert.KernelIdeal.Gen Idealize.ShloMosaic Idealize.ShloMosaic.TcCoe Idealize.SL.Sem
open Idealize.ShloMosaic.Pipeline (Dat)

/-- THE OUTPUT ARRAY after the region: the layer of the input arrays as the region finds them. -/
theorem region0_array (V : (c : Dev nD) → (b : Ref sig .tc) → Buf (Elt Ideal) ((c : Thread nD τ).loc b)) (c : Dev nD) :
    ((dat0 (F := Ideal) V c).arrAt 6 cfg0.N : S100000x128.Idx → EReal)
      = Cert.Net.scaledLayer Ideal.tanh
          (V c (Pipeline.arrRef spec0 0) : S100000x64.Idx → EReal) (V c (Pipeline.arrRef spec0 1) : S100000x64.Idx → EReal)
          (V c (Pipeline.arrRef spec0 2) : S100000x1.Idx → EReal) (V c (Pipeline.arrRef spec0 3) : S64x128.Idx → EReal)
          (V c (Pipeline.arrRef spec0 4) : S64x128.Idx → EReal) (V c (Pipeline.arrRef spec0 5) : S128.Idx → EReal) :=
  (dat0 (F := Ideal) V c).arrAt_eq_of_cover 6 (ScaledLayer0.layer0 V c) (fun t _ => ScaledLayer0.written0 V c t) ScaledLayer0.tiled0

end Cert.KernelIdeal.Regions

end
-- ==== Proof.ScaledLayerRegion1.lean ====
/-
  The second (128-feature, tanh) layer's output array after its region has run, as one function of the region's input arrays.

  The region's grid has 20 points; point `t` stages rows `5000·t … 5000·t + 4999` of the node features, of the neighbour
  sums and of the inverse-count column, the whole of the two weight matrices and of the bias, and writes back rows
  `5000·t … 5000·t + 4999` of the output. What a point writes back is therefore the same rows of ONE array, the layer
  `Cert.Net.scaledLayer` of the input arrays; the 20 row blocks tile the `100000` rows, so that array is what the
  output holds at the end, whatever it held before.
-/
import proofs.«102533_j14611478741197_2_alg».proof.Proof.Gen.KernelIdeal.Frame
import proofs.«102533_j14611478741197_2_alg».proof.Proof.ScaledLayerEntry
import Idealize.ShloMosaic.Lib.Pipeline.Value
import Idealize.ShloMosaic.Lib.ValueIdx

noncomputable section

namespace Cert.KernelIdeal.Regions.ScaledLayer1

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Regions.ScaledLayer

variable (V : (c : Dev nD) → (b : Ref sig .tc) → Buf (Elt Ideal) ((c : Thread nD τ).loc b))

/-- The offsets of a whole-block access, all zero. -/
theorem zero_offsets2 : (![0, 0] : Fin 2 → Nat) = fun _ => 0 := funext fun a => by fin_cases a <;> rfl
theorem zero_offsets1 : (![0] : Fin 1 → Nat) = fun _ => 0 := funext fun a => by fin_cases a; rfl

/-- The layer of the region's input arrays as the region finds them. -/
abbrev layer1 (c : Dev nD) : S100000x128.Idx → EReal :=
  Cert.Net.scaledLayer Ideal.tanh
    (V c (Pipeline.arrRef spec1 0) : S100000x128.Idx → EReal) (V c (Pipeline.arrRef spec1 1) : S100000x128.Idx → EReal)
    (V c (Pipeline.arrRef spec1 2) : S100000x1.Idx → EReal) (V c (Pipeline.arrRef spec1 3) : S128x128.Idx → EReal)
    (V c (Pipeline.arrRef spec1 4) : S128x128.Idx → EReal) (V c (Pipeline.arrRef spec1 5) : S128.Idx → EReal)

/-- The block indices, decided over the grid: the three row-blocked inputs and the output sit at row block `t`, column
    block 0; the weights and the bias at block 0. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-! ## Each input block as a part of its array -/

/-- The node features' block at point `t` is rows `5000·t …` of their array. -/
theorem features_rows1 (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c (Pipeline.arrRef spec1 0) : S100000x128.Idx → EReal) i := by
  obtain ⟨e00, e01, e10, e11, e20, e21, e30, e31, e40, e41, e50, e60, e61⟩ := block_indices1 t
  show V c (Pipeline.arrRef spec1 0) (((cfg1.win 0).blk t).view.emb y) = V c (Pipeline.arrRef spec1 0) i
  refine congrArg (V c (Pipeline.arrRef spec1 0)) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- So is the neighbour sums' block. -/
theorem sums_rows1 (c : Dev nD) (t : Fin cfg1.N) (y : S5000x128.Idx) (i : S100000x128.Idx)
    (h0 : (i 0).val = 5000 * t.val + (y 0).val) (h1 : (i 1).val = (y 1).val) :
    (iblk1 V c 1 t : Vec Ideal S5000x128 .f32) y = (V c (Pipeline.arrRef spec1 1) : S100000x128.Idx → EReal) i := by
  obtain ⟨e00, e01, e10, e11, e20, e21, e30, e31, e40, e41, e50, e60, e61⟩ := block_indices1 t
  show V c (Pipeline.arrRef spec1 1) (((cfg1.win 1).blk t).view.emb y) = V c (Pipeline.arrRef spec1 1) i
  refine congrArg (V c (Pipeline.arrRef spec1 1)) (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- And the inverse-count column's (its one column is column 0 on both sides). -/
theorem counts_rows1 (c : Dev nD) (t : Fin cfg1.N) (y : S5000x1.Idx) (i : S100000x1.Idx)
    (h0 : (i 0).val = 5000 * t.val + (y 0).val) :
    (iblk1 V c 2 t : Vec Ideal S5000x1 .f32) y = (V c (Pipeline.arrRef spec1 2) : S100000x1.Idx → EReal) i := by
  obtain ⟨e00, e01, e10, e11, e20, e21, e30, e31, e40, e41, e50, e60, e61⟩ := block_indices1 t
  have hy : (y 1).val < 1 := (y 1).isLt
  have hi : (i 1).val < 1 := (i 1).isLt
  show V c (Pipeline.arrRef spec1 2) (((cfg1.win 2).blk t).view.emb y) = V c (Pipeline.arrRef spec1 2) i
  refine congrArg (V c (Pipeline.arrRef spec1 2)) (funext fun a => Fin.ext ?_)
  match a with
  | ⟨0, _⟩ => show win1_2.index t (0 : Fin 2) * 5000 + 1 * (y 0).val = (i 0).val; omega
  | ⟨1, _⟩ => show win1_2.index t (1 : Fin 2) * 1 + 1 * (y 1).val = (i 1).val; omega

/-- The left weight's block is the whole matrix at every point. -/
theorem left_weight_whole1 (c : Dev nD) (t : Fin cfg1.N) :
    (iblk1 V c 3 t : Vec Ideal S128x128 .f32) = (V c (Pipeline.arrRef spec1 3) : S128x128.Idx → EReal) := by
  obtain ⟨e00, e01, e10, e11, e20, e21, e30, e31, e40, e41, e50, e60, e61⟩ := block_indices1 t
  funext y
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- So is the right weight's. -/
theorem right_weight_whole1 (c : Dev nD) (t : Fin cfg1.N) :
    (iblk1 V c 4 t : Vec Ideal S128x128 .f32) = (V c (Pipeline.arrRef spec1 4) : S128x128.Idx → EReal) := by
  obtain ⟨e00, e01, e10, e11, e20, e21, e30, e31, e40, e41, e50, e60, e61⟩ := block_indices1 t
  funext y
  show V c (Pipeline.arrRef spec1 4) (((cfg1.win 4).blk t).view.emb y) = V c (Pipeline.arrRef spec1 4) y
  refine congrArg (V c (Pipeline.arrRef spec1 4)) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- And the bias's block is the whole vector. -/
theorem bias_whole1 (c : Dev nD) (t : Fin cfg1.N) :
    (iblk1 V c 5 t : Vec Ideal S128 .f32) = (V c (Pipeline.arrRef spec1 5) : S128.Idx → EReal) := by
  obtain ⟨e00, e01, e10, e11, e20, e21, e30, e31, e40, e41, e50, e60, e61⟩ := block_indices1 t
  funext y
  show V c (Pipeline.arrRef spec1 5) (((cfg1.win 5).blk t).view.emb y) = V c (Pipeline.arrRef spec1 5) y
  refine congrArg (V c (Pipeline.arrRef spec1 5)) (funext fun a => Fin.ext ?_)
  match a with
  | ⟨0, _⟩ => show win1_5.index t (0 : Fin 1) * 128 + 1 * (y 0).val = (y 0).val; omega

/-! ## What a point writes back, and the array at the end -/

/-- The body's result at point `t`, entry `y` of the block, is the layer of the arrays at the array index `i` with row
    `5000·t + (row of y)` and the same column. -/
theorem body_entry1 (c : Dev nD) (t : Fin cfg1.N) (y : S5000x128.Idx) (i : S100000x128.Idx)
    (h0 : (i 0).val = 5000 * t.val + (y 0).val) (h1 : (i 1).val = (y 1).val) :
    k1_pay1 (F := Ideal) (iblk1 V c 1 t) (iblk1 V c 2 t) (iblk1 V c 0 t) (iblk1 V c 3 t) (iblk1 V c 4 t) (iblk1 V c 5 t) y
      = layer1 V c i :=
  k1_pay1_rows t.val _ _ _ _ _ _ _ _ _ _ _ _ (features_rows1 V c t) (sums_rows1 V c t) (counts_rows1 V c t)
    (left_weight_whole1 V c t) (right_weight_whole1 V c t) (bias_whole1 V c t) y i h0 h1

/-- What point `t` writes back is block `t` of the layer of the input arrays. -/
theorem written1 (c : Dev nD) (t : Fin cfg1.N) :
    (dat1 (F := Ideal) V c).flushed 6 t = ((cfg1.win 6).blk t).view.read (Elt Ideal) (layer1 V c) := by
  show (cfg1.win 6).cut (grid1.coords t) ((dat1 V c).after 6 t) = _
  rw [after1_6]
  unfold out1_6
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  obtain ⟨e00, e01, e10, e11, e20, e21, e30, e31, e40, e41, e50, e60, e61⟩ := block_indices1 t
  funext j
  refine body_entry1 V c t j _ ?_ ?_
  · show win1_6.index t (0 : Fin 2) * 5000 + 1 * (j 0).val = 5000 * t.val + (j 0).val; omega
  · show win1_6.index t (1 : Fin 2) * 128 + 1 * (j 1).val = (j 1).val; omega

/-- An index of the output array is in point `t`'s block iff each coordinate is in the block's range on its axis. -/
theorem mem_block1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v38).slice (win1_6.rect t)).set ↔ _
  rw [View.set_slice_whole, Rect.mem_set_unit]
  exact Iff.rfl

/-- Every row of the output is in the block of the point `row / 5000`, which writes back. -/
theorem tiled1 (i : S100000x128.Idx) :
    ∃ t : Fin cfg1.N, (cfg1.win 6).flush t = true ∧ i ∈ ((cfg1.win 6).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨e00, e01, e10, e11, e20, e21, e30, e31, e40, e41, e50, e60, e61⟩ := block_indices1 t
  refine ⟨t, flush1_6 t, ?_⟩
  rw [mem_block1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

end Cert.KernelIdeal.Regions.ScaledLayer1

namespace Cert.KernelIdeal.Regions

open Cert.KernelIdeal Cert.KernelIdeal.Gen Idealize.ShloMosaic Idealize.ShloMosaic.TcCoe Idealize.SL.Sem
open Idealize.ShloMosaic.Pipeline (Dat)

/-- THE OUTPUT ARRAY after the region: the layer of the input arrays as the region finds them. -/
theorem region1_array (V : (c : Dev nD) → (b : Ref sig .tc) → Buf (Elt Ideal) ((c : Thread nD τ).loc b)) (c : Dev nD) :
    ((dat1 (F := Ideal) V c).arrAt 6 cfg1.N : S100000x128.Idx → EReal)
      = Cert.Net.scaledLayer Ideal.tanh
          (V c (Pipeline.arrRef spec1 0) : S100000x128.Idx → EReal) (V c (Pipeline.arrRef spec1 1) : S100000x128.Idx → EReal)
          (V c (Pipeline.arrRef spec1 2) : S100000x1.Idx → EReal) (V c (Pipeline.arrRef spec1 3) : S128x128.Idx → EReal)
          (V c (Pipeline.arrRef spec1 4) : S128x128.Idx → EReal) (V c (Pipeline.arrRef spec1 5) : S128.Idx → EReal) :=
  (dat1 (F := Ideal) V c).arrAt_eq_of_cover 6 (ScaledLayer1.layer1 V c) (fun t _ => ScaledLayer1.written1 V c t) ScaledLayer1.tiled1

end Cert.KernelIdeal.Regions

end
-- ==== Proof.ScaledLayerRegion2.lean ====
/-
  The third (128-feature, tanh) layer's output array after its region has run, as one function of the region's input arrays.

  The region's grid has 20 points; point `t` stages rows `5000·t … 5000·t + 4999` of the node features, of the neighbour
  sums and of the inverse-count column, the whole of the two weight matrices and of the bias, and writes back rows
  `5000·t … 5000·t + 4999` of the output. What a point writes back is therefore the same rows of ONE array, the layer
  `Cert.Net.scaledLayer` of the input arrays; the 20 row blocks tile the `100000` rows, so that array is what the
  output holds at the end, whatever it held before.
-/
import proofs.«102533_j14611478741197_2_alg».proof.Proof.Gen.KernelIdeal.Frame
import proofs.«102533_j14611478741197_2_alg».proof.Proof.ScaledLayerEntry
import Idealize.ShloMosaic.Lib.Pipeline.Value
import Idealize.ShloMosaic.Lib.ValueIdx

noncomputable section

namespace Cert.KernelIdeal.Regions.ScaledLayer2

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Regions.ScaledLayer

variable (V : (c : Dev nD) → (b : Ref sig .tc) → Buf (Elt Ideal) ((c : Thread nD τ).loc b))

/-- The offsets of a whole-block access, all zero. -/
theorem zero_offsets2 : (![0, 0] : Fin 2 → Nat) = fun _ => 0 := funext fun a => by fin_cases a <;> rfl
theorem zero_offsets1 : (![0] : Fin 1 → Nat) = fun _ => 0 := funext fun a => by fin_cases a; rfl

/-- The layer of the region's input arrays as the region finds them. -/
abbrev layer2 (c : Dev nD) : S100000x128.Idx → EReal :=
  Cert.Net.scaledLayer Ideal.tanh
    (V c (Pipeline.arrRef spec2 0) : S100000x128.Idx → EReal) (V c (Pipeline.arrRef spec2 1) : S100000x128.Idx → EReal)
    (V c (Pipeline.arrRef spec2 2) : S100000x1.Idx → EReal) (V c (Pipeline.arrRef spec2 3) : S128x128.Idx → EReal)
    (V c (Pipeline.arrRef spec2 4) : S128x128.Idx → EReal) (V c (Pipeline.arrRef spec2 5) : S128.Idx → EReal)

/-- The block indices, decided over the grid: the three row-blocked inputs and the output sit at row block `t`, column
    block 0; the weights and the bias at block 0. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-! ## Each input block as a part of its array -/

/-- The node features' block at point `t` is rows `5000·t …` of their array. -/
theorem features_rows2 (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c (Pipeline.arrRef spec2 0) : S100000x128.Idx → EReal) i := by
  obtain ⟨e00, e01, e10, e11, e20, e21, e30, e31, e40, e41, e50, e60, e61⟩ := block_indices2 t
  show V c (Pipeline.arrRef spec2 0) (((cfg2.win 0).blk t).view.emb y) = V c (Pipeline.arrRef spec2 0) i
  refine congrArg (V c (Pipeline.arrRef spec2 0)) (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- So is the neighbour sums' block. -/
theorem sums_rows2 (c : Dev nD) (t : Fin cfg2.N) (y : S5000x128.Idx) (i : S100000x128.Idx)
    (h0 : (i 0).val = 5000 * t.val + (y 0).val) (h1 : (i 1).val = (y 1).val) :
    (iblk2 V c 1 t : Vec Ideal S5000x128 .f32) y = (V c (Pipeline.arrRef spec2 1) : S100000x128.Idx → EReal) i := by
  obtain ⟨e00, e01, e10, e11, e20, e21, e30, e31, e40, e41, e50, e60, e61⟩ := block_indices2 t
  show V c (Pipeline.arrRef spec2 1) (((cfg2.win 1).blk t).view.emb y) = V c (Pipeline.arrRef spec2 1) i
  refine congrArg (V c (Pipeline.arrRef spec2 1)) (funext fun a => Fin.ext ?_)
  match a with
  | ⟨0, _⟩ => show win2_1.index t (0 : Fin 2) * 5000 + 1 * (y 0).val = (i 0).val; omega
  | ⟨1, _⟩ => show win2_1.index t (1 : Fin 2) * 128 + 1 * (y 1).val = (i 1).val; omega

/-- And the inverse-count column's (its one column is column 0 on both sides). -/
theorem counts_rows2 (c : Dev nD) (t : Fin cfg2.N) (y : S5000x1.Idx) (i : S100000x1.Idx)
    (h0 : (i 0).val = 5000 * t.val + (y 0).val) :
    (iblk2 V c 2 t : Vec Ideal S5000x1 .f32) y = (V c (Pipeline.arrRef spec2 2) : S100000x1.Idx → EReal) i := by
  obtain ⟨e00, e01, e10, e11, e20, e21, e30, e31, e40, e41, e50, e60, e61⟩ := block_indices2 t
  have hy : (y 1).val < 1 := (y 1).isLt
  have hi : (i 1).val < 1 := (i 1).isLt
  show V c (Pipeline.arrRef spec2 2) (((cfg2.win 2).blk t).view.emb y) = V c (Pipeline.arrRef spec2 2) i
  refine congrArg (V c (Pipeline.arrRef spec2 2)) (funext fun a => Fin.ext ?_)
  match a with
  | ⟨0, _⟩ => show win2_2.index t (0 : Fin 2) * 5000 + 1 * (y 0).val = (i 0).val; omega
  | ⟨1, _⟩ => show win2_2.index t (1 : Fin 2) * 1 + 1 * (y 1).val = (i 1).val; omega

/-- The left weight's block is the whole matrix at every point. -/
theorem left_weight_whole2 (c : Dev nD) (t : Fin cfg2.N) :
    (iblk2 V c 3 t : Vec Ideal S128x128 .f32) = (V c (Pipeline.arrRef spec2 3) : S128x128.Idx → EReal) := by
  obtain ⟨e00, e01, e10, e11, e20, e21, e30, e31, e40, e41, e50, e60, e61⟩ := block_indices2 t
  funext y
  show V c (Pipeline.arrRef spec2 3) (((cfg2.win 3).blk t).view.emb y) = V c (Pipeline.arrRef spec2 3) y
  refine congrArg (V c (Pipeline.arrRef spec2 3)) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- So is the right weight's. -/
theorem right_weight_whole2 (c : Dev nD) (t : Fin cfg2.N) :
    (iblk2 V c 4 t : Vec Ideal S128x128 .f32) = (V c (Pipeline.arrRef spec2 4) : S128x128.Idx → EReal) := by
  obtain ⟨e00, e01, e10, e11, e20, e21, e30, e31, e40, e41, e50, e60, e61⟩ := block_indices2 t
  funext y
  show V c (Pipeline.arrRef spec2 4) (((cfg2.win 4).blk t).view.emb y) = V c (Pipeline.arrRef spec2 4) y
  refine congrArg (V c (Pipeline.arrRef spec2 4)) (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- And the bias's block is the whole vector. -/
theorem bias_whole2 (c : Dev nD) (t : Fin cfg2.N) :
    (iblk2 V c 5 t : Vec Ideal S128 .f32) = (V c (Pipeline.arrRef spec2 5) : S128.Idx → EReal) := by
  obtain ⟨e00, e01, e10, e11, e20, e21, e30, e31, e40, e41, e50, e60, e61⟩ := block_indices2 t
  funext y
  show V c (Pipeline.arrRef spec2 5) (((cfg2.win 5).blk t).view.emb y) = V c (Pipeline.arrRef spec2 5) y
  refine congrArg (V c (Pipeline.arrRef spec2 5)) (funext fun a => Fin.ext ?_)
  match a with
  | ⟨0, _⟩ => show win2_5.index t (0 : Fin 1) * 128 + 1 * (y 0).val = (y 0).val; omega

/-! ## What a point writes back, and the array at the end -/

/-- The body's result at point `t`, entry `y` of the block, is the layer of the arrays at the array index `i` with row
    `5000·t + (row of y)` and the same column. -/
theorem body_entry2 (c : Dev nD) (t : Fin cfg2.N) (y : S5000x128.Idx) (i : S100000x128.Idx)
    (h0 : (i 0).val = 5000 * t.val + (y 0).val) (h1 : (i 1).val = (y 1).val) :
    k1_pay1 (F := Ideal) (iblk2 V c 1 t) (iblk2 V c 2 t) (iblk2 V c 0 t) (iblk2 V c 3 t) (iblk2 V c 4 t) (iblk2 V c 5 t) y
      = layer2 V c i :=
  k1_pay1_rows t.val _ _ _ _ _ _ _ _ _ _ _ _ (features_rows2 V c t) (sums_rows2 V c t) (counts_rows2 V c t)
    (left_weight_whole2 V c t) (right_weight_whole2 V c t) (bias_whole2 V c t) y i h0 h1

/-- What point `t` writes back is block `t` of the layer of the input arrays. -/
theorem written2 (c : Dev nD) (t : Fin cfg2.N) :
    (dat2 (F := Ideal) V c).flushed 6 t = ((cfg2.win 6).blk t).view.read (Elt Ideal) (layer2 V c) := by
  show (cfg2.win 6).cut (grid2.coords t) ((dat2 V c).after 6 t) = _
  rw [after2_6]
  unfold out2_6
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  rw [k2_pay1_eq]
  obtain ⟨e00, e01, e10, e11, e20, e21, e30, e31, e40, e41, e50, e60, e61⟩ := block_indices2 t
  funext j
  refine body_entry2 V c t j _ ?_ ?_
  · show win2_6.index t (0 : Fin 2) * 5000 + 1 * (j 0).val = 5000 * t.val + (j 0).val; omega
  · show win2_6.index t (1 : Fin 2) * 128 + 1 * (j 1).val = (j 1).val; omega

/-- An index of the output array is in point `t`'s block iff each coordinate is in the block's range on its axis. -/
theorem mem_block2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v51).slice (win2_6.rect t)).set ↔ _
  rw [View.set_slice_whole, Rect.mem_set_unit]
  exact Iff.rfl

/-- Every row of the output is in the block of the point `row / 5000`, which writes back. -/
theorem tiled2 (i : S100000x128.Idx) :
    ∃ t : Fin cfg2.N, (cfg2.win 6).flush t = true ∧ i ∈ ((cfg2.win 6).blk t).view.set := by
  have hN : cfg2.N = 20 := N_2
  have hi0 : (i 0).val < 100000 := (i 0).isLt
  have hi1 : (i 1).val < 128 := (i 1).isLt
  obtain ⟨t, ht⟩ : ∃ t : Fin cfg2.N, t.val = (i 0).val / 5000 := ⟨⟨(i 0).val / 5000, by omega⟩, rfl⟩
  obtain ⟨e00, e01, e10, e11, e20, e21, e30, e31, e40, e41, e50, e60, e61⟩ := block_indices2 t
  refine ⟨t, flush2_6 t, ?_⟩
  rw [mem_block2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

end Cert.KernelIdeal.Regions.ScaledLayer2

namespace Cert.KernelIdeal.Regions

open Cert.KernelIdeal Cert.KernelIdeal.Gen Idealize.ShloMosaic Idealize.ShloMosaic.TcCoe Idealize.SL.Sem
open Idealize.ShloMosaic.Pipeline (Dat)

/-- THE OUTPUT ARRAY after the region: the layer of the input arrays as the region finds them. -/
theorem region2_array (V : (c : Dev nD) → (b : Ref sig .tc) → Buf (Elt Ideal) ((c : Thread nD τ).loc b)) (c : Dev nD) :
    ((dat2 (F := Ideal) V c).arrAt 6 cfg2.N : S100000x128.Idx → EReal)
      = Cert.Net.scaledLayer Ideal.tanh
          (V c (Pipeline.arrRef spec2 0) : S100000x128.Idx → EReal) (V c (Pipeline.arrRef spec2 1) : S100000x128.Idx → EReal)
          (V c (Pipeline.arrRef spec2 2) : S100000x1.Idx → EReal) (V c (Pipeline.arrRef spec2 3) : S128x128.Idx → EReal)
          (V c (Pipeline.arrRef spec2 4) : S128x128.Idx → EReal) (V c (Pipeline.arrRef spec2 5) : S128.Idx → EReal) :=
  (dat2 (F := Ideal) V c).arrAt_eq_of_cover 6 (ScaledLayer2.layer2 V c) (fun t _ => ScaledLayer2.written2 V c t) ScaledLayer2.tiled2

end Cert.KernelIdeal.Regions

end
-- ==== Proof.ScaledLayerRegion4.lean ====
/-
  The rectified (128-feature, slope rectifier) layer's output array after its region has run, as one function of the region's input arrays.

  The region's grid has 20 points; point `t` stages rows `5000·t … 5000·t + 4999` of the node features, of the neighbour
  sums and of the inverse-count column, the whole of the two weight matrices and of the bias, and writes back rows
  `5000·t … 5000·t + 4999` of the output. What a point writes back is therefore the same rows of ONE array, the layer
  `Cert.Net.scaledLayer` of the input arrays; the 20 row blocks tile the `100000` rows, so that array is what the
  output holds at the end, whatever it held before.
-/
import proofs.«102533_j14611478741197_2_alg».proof.Proof.Gen.KernelIdeal.Frame
import proofs.«102533_j14611478741197_2_alg».proof.Proof.ScaledLayerEntry
import Idealize.ShloMosaic.Lib.Pipeline.Value
import Idealize.ShloMosaic.Lib.ValueIdx

noncomputable section

namespace Cert.KernelIdeal.Regions.ScaledLayer4

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Regions.ScaledLayer

variable (V : (c : Dev nD) → (b : Ref sig .tc) → Buf (Elt Ideal) ((c : Thread nD τ).loc b))

/-- The offsets of a whole-block access, all zero. -/
theorem zero_offsets2 : (![0, 0] : Fin 2 → Nat) = fun _ => 0 := funext fun a => by fin_cases a <;> rfl
theorem zero_offsets1 : (![0] : Fin 1 → Nat) = fun _ => 0 := funext fun a => by fin_cases a; rfl

/-- The layer of the region's input arrays as the region finds them. -/
abbrev layer4 (c : Dev nD) : S100000x128.Idx → EReal :=
  Cert.Net.scaledLayer slope
    (V c (Pipeline.arrRef spec4 0) : S100000x128.Idx → EReal) (V c (Pipeline.arrRef spec4 1) : S100000x128.Idx → EReal)
    (V c (Pipeline.arrRef spec4 2) : S100000x1.Idx → EReal) (V c (Pipeline.arrRef spec4 3) : S128x128.Idx → EReal)
    (V c (Pipeline.arrRef spec4 4) : S128x128.Idx → EReal) (V c (Pipeline.arrRef spec4 5) : S128.Idx → EReal)

/-- The block indices, decided over the grid: the three row-blocked inputs and the output sit at row block `t`, column
    block 0; the weights and the bias at block 0. -/
theorem block_indices4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-! ## Each input block as a part of its array -/

/-- The node features' block at point `t` is rows `5000·t …` of their array. -/
theorem features_rows4 (c : Dev nD) (t : Fin cfg4.N) (y : S5000x128.Idx) (i : S100000x128.Idx)
    (h0 : (i 0).val = 5000 * t.val + (y 0).val) (h1 : (i 1).val = (y 1).val) :
    (iblk4 V c 0 t : Vec Ideal S5000x128 .f32) y = (V c (Pipeline.arrRef spec4 0) : S100000x128.Idx → EReal) i := by
  obtain ⟨e00, e01, e10, e11, e20, e21, e30, e31, e40, e41, e50, e60, e61⟩ := block_indices4 t
  show V c (Pipeline.arrRef spec4 0) (((cfg4.win 0).blk t).view.emb y) = V c (Pipeline.arrRef spec4 0) i
  refine congrArg (V c (Pipeline.arrRef spec4 0)) (funext fun a => Fin.ext ?_)
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- So is the neighbour sums' block. -/
theorem sums_rows4 (c : Dev nD) (t : Fin cfg4.N) (y : S5000x128.Idx) (i : S100000x128.Idx)
    (h0 : (i 0).val = 5000 * t.val + (y 0).val) (h1 : (i 1).val = (y 1).val) :
    (iblk4 V c 1 t : Vec Ideal S5000x128 .f32) y = (V c (Pipeline.arrRef spec4 1) : S100000x128.Idx → EReal) i := by
  obtain ⟨e00, e01, e10, e11, e20, e21, e30, e31, e40, e41, e50, e60, e61⟩ := block_indices4 t
  show V c (Pipeline.arrRef spec4 1) (((cfg4.win 1).blk t).view.emb y) = V c (Pipeline.arrRef spec4 1) i
  refine congrArg (V c (Pipeline.arrRef spec4 1)) (funext fun a => Fin.ext ?_)
  match a with
  | ⟨0, _⟩ => show win4_1.index t (0 : Fin 2) * 5000 + 1 * (y 0).val = (i 0).val; omega
  | ⟨1, _⟩ => show win4_1.index t (1 : Fin 2) * 128 + 1 * (y 1).val = (i 1).val; omega

/-- And the inverse-count column's (its one column is column 0 on both sides). -/
theorem counts_rows4 (c : Dev nD) (t : Fin cfg4.N) (y : S5000x1.Idx) (i : S100000x1.Idx)
    (h0 : (i 0).val = 5000 * t.val + (y 0).val) :
    (iblk4 V c 2 t : Vec Ideal S5000x1 .f32) y = (V c (Pipeline.arrRef spec4 2) : S100000x1.Idx → EReal) i := by
  obtain ⟨e00, e01, e10, e11, e20, e21, e30, e31, e40, e41, e50, e60, e61⟩ := block_indices4 t
  have hy : (y 1).val < 1 := (y 1).isLt
  have hi : (i 1).val < 1 := (i 1).isLt
  show V c (Pipeline.arrRef spec4 2) (((cfg4.win 2).blk t).view.emb y) = V c (Pipeline.arrRef spec4 2) i
  refine congrArg (V c (Pipeline.arrRef spec4 2)) (funext fun a => Fin.ext ?_)
  match a with
  | ⟨0, _⟩ => show win4_2.index t (0 : Fin 2) * 5000 + 1 * (y 0).val = (i 0).val; omega
  | ⟨1, _⟩ => show win4_2.index t (1 : Fin 2) * 1 + 1 * (y 1).val = (i 1).val; omega

/-- The left weight's block is the whole matrix at every point. -/
theorem left_weight_whole4 (c : Dev nD) (t : Fin cfg4.N) :
    (iblk4 V c 3 t : Vec Ideal S128x128 .f32) = (V c (Pipeline.arrRef spec4 3) : S128x128.Idx → EReal) := by
  obtain ⟨e00, e01, e10, e11, e20, e21, e30, e31, e40, e41, e50, e60, e61⟩ := block_indices4 t
  funext y
  show V c (Pipeline.arrRef spec4 3) (((cfg4.win 3).blk t).view.emb y) = V c (Pipeline.arrRef spec4 3) y
  refine congrArg (V c (Pipeline.arrRef spec4 3)) (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- So is the right weight's. -/
theorem right_weight_whole4 (c : Dev nD) (t : Fin cfg4.N) :
    (iblk4 V c 4 t : Vec Ideal S128x128 .f32) = (V c (Pipeline.arrRef spec4 4) : S128x128.Idx → EReal) := by
  obtain ⟨e00, e01, e10, e11, e20, e21, e30, e31, e40, e41, e50, e60, e61⟩ := block_indices4 t
  funext y
  show V c (Pipeline.arrRef spec4 4) (((cfg4.win 4).blk t).view.emb y) = V c (Pipeline.arrRef spec4 4) y
  refine congrArg (V c (Pipeline.arrRef spec4 4)) (funext fun a => Fin.ext ?_)
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- And the bias's block is the whole vector. -/
theorem bias_whole4 (c : Dev nD) (t : Fin cfg4.N) :
    (iblk4 V c 5 t : Vec Ideal S128 .f32) = (V c (Pipeline.arrRef spec4 5) : S128.Idx → EReal) := by
  obtain ⟨e00, e01, e10, e11, e20, e21, e30, e31, e40, e41, e50, e60, e61⟩ := block_indices4 t
  funext y
  show V c (Pipeline.arrRef spec4 5) (((cfg4.win 5).blk t).view.emb y) = V c (Pipeline.arrRef spec4 5) y
  refine congrArg (V c (Pipeline.arrRef spec4 5)) (funext fun a => Fin.ext ?_)
  match a with
  | ⟨0, _⟩ => show win4_5.index t (0 : Fin 1) * 128 + 1 * (y 0).val = (y 0).val; omega

/-! ## What a point writes back, and the array at the end -/

/-- The body's result at point `t`, entry `y` of the block, is the layer of the arrays at the array index `i` with row
    `5000·t + (row of y)` and the same column. -/
theorem body_entry4 (c : Dev nD) (t : Fin cfg4.N) (y : S5000x128.Idx) (i : S100000x128.Idx)
    (h0 : (i 0).val = 5000 * t.val + (y 0).val) (h1 : (i 1).val = (y 1).val) :
    k4_pay1 (F := Ideal) (iblk4 V c 1 t) (iblk4 V c 2 t) (iblk4 V c 0 t) (iblk4 V c 3 t) (iblk4 V c 4 t) (iblk4 V c 5 t) y
      = layer4 V c i :=
  k4_pay1_rows t.val _ _ _ _ _ _ _ _ _ _ _ _ (features_rows4 V c t) (sums_rows4 V c t) (counts_rows4 V c t)
    (left_weight_whole4 V c t) (right_weight_whole4 V c t) (bias_whole4 V c t) y i h0 h1

/-- What point `t` writes back is block `t` of the layer of the input arrays. -/
theorem written4 (c : Dev nD) (t : Fin cfg4.N) :
    (dat4 (F := Ideal) V c).flushed 6 t = ((cfg4.win 6).blk t).view.read (Elt Ideal) (layer4 V c) := by
  show (cfg4.win 6).cut (grid4.coords t) ((dat4 V c).after 6 t) = _
  rw [after4_6]
  unfold out4_6
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  obtain ⟨e00, e01, e10, e11, e20, e21, e30, e31, e40, e41, e50, e60, e61⟩ := block_indices4 t
  funext j
  refine body_entry4 V c t j _ ?_ ?_
  · show win4_6.index t (0 : Fin 2) * 5000 + 1 * (j 0).val = 5000 * t.val + (j 0).val; omega
  · show win4_6.index t (1 : Fin 2) * 128 + 1 * (j 1).val = (j 1).val; omega

/-- An index of the output array is in point `t`'s block iff each coordinate is in the block's range on its axis. -/
theorem mem_block4 (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v67).slice (win4_6.rect t)).set ↔ _
  rw [View.set_slice_whole, Rect.mem_set_unit]
  exact Iff.rfl

/-- Every row of the output is in the block of the point `row / 5000`, which writes back. -/
theorem tiled4 (i : S100000x128.Idx) :
    ∃ t : Fin cfg4.N, (cfg4.win 6).flush t = true ∧ i ∈ ((cfg4.win 6).blk t).view.set := by
  have hN : cfg4.N = 20 := N_4
  have hi0 : (i 0).val < 100000 := (i 0).isLt
  have hi1 : (i 1).val < 128 := (i 1).isLt
  obtain ⟨t, ht⟩ : ∃ t : Fin cfg4.N, t.val = (i 0).val / 5000 := ⟨⟨(i 0).val / 5000, by omega⟩, rfl⟩
  obtain ⟨e00, e01, e10, e11, e20, e21, e30, e31, e40, e41, e50, e60, e61⟩ := block_indices4 t
  refine ⟨t, flush4_6 t, ?_⟩
  rw [mem_block4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

end Cert.KernelIdeal.Regions.ScaledLayer4

namespace Cert.KernelIdeal.Regions

open Cert.KernelIdeal Cert.KernelIdeal.Gen Idealize.ShloMosaic Idealize.ShloMosaic.TcCoe Idealize.SL.Sem
open Idealize.ShloMosaic.Pipeline (Dat)

/-- THE OUTPUT ARRAY after the region: the layer of the input arrays as the region finds them. -/
theorem region4_array (V : (c : Dev nD) → (b : Ref sig .tc) → Buf (Elt Ideal) ((c : Thread nD τ).loc b)) (c : Dev nD) :
    ((dat4 (F := Ideal) V c).arrAt 6 cfg4.N : S100000x128.Idx → EReal)
      = Cert.Net.scaledLayer (Cert.Net.leaky (Ideal.ofBits .f32 0x00000000#32) (Ideal.ofBits .f32 0x3C23D70A#32))
          (V c (Pipeline.arrRef spec4 0) : S100000x128.Idx → EReal) (V c (Pipeline.arrRef spec4 1) : S100000x128.Idx → EReal)
          (V c (Pipeline.arrRef spec4 2) : S100000x1.Idx → EReal) (V c (Pipeline.arrRef spec4 3) : S128x128.Idx → EReal)
          (V c (Pipeline.arrRef spec4 4) : S128x128.Idx → EReal) (V c (Pipeline.arrRef spec4 5) : S128.Idx → EReal) :=
  (dat4 (F := Ideal) V c).arrAt_eq_of_cover 6 (ScaledLayer4.layer4 V c) (fun t _ => ScaledLayer4.written4 V c t) ScaledLayer4.tiled4

end Cert.KernelIdeal.Regions

end
-- ==== Proof.TransformDecodePayload.lean ====
/-
  What the transform-and-decode kernel stores, entry by entry.

  It loads a block `h` of 5000 rows of the hidden table, two weight matrices `wt` (128×64), `wd` (64×128) and two
  bias vectors `bt` (64), `bd` (128). Its first store is the latent block `z = h · wt + bt`; its second store is the
  rectified decoder layer of THAT block, `leaky (z · wd + bd)`, where `leaky v` is `v` for `v > 0` and
  `0.01 · v` otherwise. On the extended reals a change of float format is the identity, a cast of a shape to itself
  is the identity, a product accumulated from zero is the sum over the shared axis, and a bias vector viewed as one
  row and repeated down the rows reads the vector's entry at the column.
-/
import proofs.«102533_j14611478741197_2_alg».proof.Proof.Gen.KernelIdeal.Skeleton
import proofs.«102533_j14611478741197_2_alg».proof.Proof.Spec
import proofs.«102533_j14611478741197_2_alg».proof.Proof.LibPlainDot
import proofs.«102533_j14611478741197_2_alg».proof.Proof.LibRowBias
import Idealize.ShloMosaic.Lib.Pipeline.Value
import Idealize.ShloMosaic.Lib.ValueIdx

noncomputable section

open scoped BigOperators

namespace Cert.KernelIdeal.Regions

open Idealize.ShloMosaic Idealize.ShloMosaic.ValueIdx Cert.KernelIdeal Cert.KernelIdeal.Gen

/-- The first store: the latent block is the product of the hidden block with the first weight, plus its bias row. -/
theorem k3_pay1_eq (h : Vec Ideal S5000x128 .f32) (wt : Vec Ideal S128x64 .f32) (bt : Vec Ideal S64 .f32) :
    k3_pay1 (F := Ideal) h wt bt = Cert.Net.biased h wt bt := by
  funext j
  obtain ⟨p, c, rfl⟩ : ∃ (p : Fin 5000) (c : Fin 64), j = ix2 p c := ⟨j 0, j 1, eq_ix2 j⟩
  unfold k3_pay1
  rw [addf_apply, Cert.PlainDot.matmul_zero_apply ⟨rfl, rfl, rfl, rfl, rfl, rfl⟩, Cert.RowBias.bias_rows (by decide)]
  simp only [truncf_apply, shapeCast_self]
  rfl

/-- The second store: the rectified decoder layer of the latent block. -/
theorem k3_pay2_eq (h : Vec Ideal S5000x128 .f32) (wt : Vec Ideal S128x64 .f32) (bt : Vec Ideal S64 .f32)
    (wd : Vec Ideal S64x128 .f32) (bd : Vec Ideal S128 .f32) :
    k3_pay2 (F := Ideal) h wt bt wd bd = fun j => Cert.Net.leaky (Ideal.ofBits .f32 0x00000000#32) (Ideal.ofBits .f32 0x3C23D70A#32)
      (Cert.Net.biased (Cert.Net.biased h wt bt) wd bd j) := by
  funext j
  obtain ⟨p, c, rfl⟩ : ∃ (p : Fin 5000) (c : Fin 128), j = ix2 p c := ⟨j 0, j 1, eq_ix2 j⟩
  unfold k3_pay2
  rw [select_apply, cmpf_apply, mulf_apply, broadcast_apply, broadcast_apply, addf_apply,
    Cert.PlainDot.matmul_zero_apply ⟨rfl, rfl, rfl, rfl, rfl, rfl⟩, Cert.RowBias.bias_rows (by decide)]
  simp only [truncf_apply, shapeCast_self, k3_pay1_eq]
  rfl

end Cert.KernelIdeal.Regions

end
-- ==== Proof.RowBlocks.lean ====
/-
  The network's row-wise functions read one row of the table.

  Entry `(p, c)` of a matrix product `x · w` reads row `p` of `x` and column `c` of `w`, and nothing else of `x`;
  adding a bias row, composing two such layers, or applying a function entry by entry does not change that. So
  if row `p` of a table `a` is row `p'` of a taller table `x` (a block of consecutive rows cut out of it), then
  entry `(p, c)` of the function of `a` is entry `(p', c)` of the same function of `x`.
-/
import proofs.«102533_j14611478741197_2_alg».proof.Proof.Spec

noncomputable section

open scoped BigOperators

namespace Cert.Net

open Idealize.ShloMosaic Idealize.ShloMosaic.ValueIdx

variable {R R' K C D : Nat}

/-- A product's entry, through the one row of the left operand it reads. -/
theorem dense_row_congr (a : Mat R K) (x : Mat R' K) (wt : Mat K C)
    (j : (⟨2, ![R, C]⟩ : Shape).Idx) (i : (⟨2, ![R', C]⟩ : Shape).Idx)
    (hrow : ∀ q : Fin K, a (ix2 (j 0) q) = x (ix2 (i 0) q)) (hcol : (j 1).val = (i 1).val) :
    dense a wt j = dense x wt i := by
  have hc : j 1 = i 1 := Fin.ext hcol
  show ∑ q : Fin K, a (ix2 (j 0) q) * wt (ix2 q (j 1)) = ∑ q : Fin K, x (ix2 (i 0) q) * wt (ix2 q (i 1))
  refine Finset.sum_congr rfl fun q _ => ?_
  rw [hrow q, hc]

/-- The same with a bias row added. -/
theorem biased_row_congr (a : Mat R K) (x : Mat R' K) (wt : Mat K C) (b : Vc C)
    (j : (⟨2, ![R, C]⟩ : Shape).Idx) (i : (⟨2, ![R', C]⟩ : Shape).Idx)
    (hrow : ∀ q : Fin K, a (ix2 (j 0) q) = x (ix2 (i 0) q)) (hcol : (j 1).val = (i 1).val) :
    biased a wt b j = biased x wt b i := by
  have hc : j 1 = i 1 := Fin.ext hcol
  show dense a wt j + b (ix1 (j 1)) = dense x wt i + b (ix1 (i 1))
  rw [dense_row_congr a x wt j i hrow hcol, hc]

/-- Two such layers, the second taken of the first one's values. -/
theorem biased_biased_row_congr (a : Mat R K) (x : Mat R' K) (wt : Mat K C) (b : Vc C) (wd : Mat C D) (bd : Vc D)
    (j : (⟨2, ![R, D]⟩ : Shape).Idx) (i : (⟨2, ![R', D]⟩ : Shape).Idx)
    (hrow : ∀ q : Fin K, a (ix2 (j 0) q) = x (ix2 (i 0) q)) (hcol : (j 1).val = (i 1).val) :
    biased (biased a wt b) wd bd j = biased (biased x wt b) wd bd i :=
  biased_row_congr (biased a wt b) (biased x wt b) wd bd j i
    (fun q => biased_row_congr a x wt b (ix2 (j 0) q) (ix2 (i 0) q) hrow rfl) hcol

end Cert.Net

end
-- ==== Proof.RegionTransformDecode.lean ====
/-
  The transform-and-decode region: the two arrays it leaves, as functions of the arrays it finds.

  The grid has twenty points. Point `t` fetches rows `5000·t … 5000·t + 4999` of the hidden table and the whole of
  two weight matrices and two bias vectors, and writes back two blocks of the same rows: the latent block
  `z = h · wt + bt` and the rectified decoder layer `leaky (z · wd + bd)` of that block. Row `p` of the table's block
  at `t` is row `5000·t + p` of the table, and each entry of either result reads one row of the table, so what point
  `t` writes is block `t` of the same formulas taken of the WHOLE table. The twenty blocks tile each result (row
  `r` lies in block `r / 5000`), so each result array ends as its formula, entry by entry.
-/
import proofs.«102533_j14611478741197_2_alg».proof.Proof.Gen.KernelIdeal.Frame
import proofs.«102533_j14611478741197_2_alg».proof.Proof.TransformDecodePayload
import proofs.«102533_j14611478741197_2_alg».proof.Proof.RowBlocks
import Idealize.ShloMosaic.Lib.Pipeline.Value
import Idealize.ShloMosaic.Lib.ValueIdx

noncomputable section

open scoped BigOperators

namespace Cert.KernelIdeal.Regions.TransformDecode

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The zero offsets of a whole-buffer access of a matrix, as a constant function. -/
theorem zeros2 : (![0, 0] : Fin 2 → Nat) = fun _ => 0 := funext fun a => by fin_cases a <;> rfl

/-- The zero offset of a whole-buffer access of a vector, as a constant function. -/
theorem zeros1 : (![0] : Fin 1 → Nat) = fun _ => 0 := funext fun a => by fin_cases a; rfl

/-- The block indices, decided over the twenty points: the table's and the two results' windows sit at row block
    `t`, column block 0; the weights' and the biases' at block 0. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

theorem table_row (t : Fin cfg3.N) : win3_0.index t (0 : Fin 2) = t.val := (block_index t).1
theorem table_col (t : Fin cfg3.N) : win3_0.index t (1 : Fin 2) = 0 := (block_index t).2.1
theorem weight1_row (t : Fin cfg3.N) : win3_1.index t (0 : Fin 2) = 0 := (block_index t).2.2.1
theorem weight1_col (t : Fin cfg3.N) : win3_1.index t (1 : Fin 2) = 0 := (block_index t).2.2.2.1
theorem bias1_at (t : Fin cfg3.N) : win3_2.index t (0 : Fin 1) = 0 := (block_index t).2.2.2.2.1
theorem weight2_row (t : Fin cfg3.N) : win3_3.index t (0 : Fin 2) = 0 := (block_index t).2.2.2.2.2.1
theorem weight2_col (t : Fin cfg3.N) : win3_3.index t (1 : Fin 2) = 0 := (block_index t).2.2.2.2.2.2.1
theorem bias2_at (t : Fin cfg3.N) : win3_4.index t (0 : Fin 1) = 0 := (block_index t).2.2.2.2.2.2.2.1
theorem latent_row (t : Fin cfg3.N) : win3_5.index t (0 : Fin 2) = t.val := (block_index t).2.2.2.2.2.2.2.2.1
theorem latent_col (t : Fin cfg3.N) : win3_5.index t (1 : Fin 2) = 0 := (block_index t).2.2.2.2.2.2.2.2.2.1
theorem decoded_row (t : Fin cfg3.N) : win3_6.index t (0 : Fin 2) = t.val := (block_index t).2.2.2.2.2.2.2.2.2.2.1
theorem decoded_col (t : Fin cfg3.N) : win3_6.index t (1 : Fin 2) = 0 := (block_index t).2.2.2.2.2.2.2.2.2.2.2

/-- Entry `y` of the table's block at point `t` is the table's entry in row `5000·t + y₀`, column `y₁`. -/
theorem table_block (t : Fin cfg3.N) (y : S5000x128.Idx) (k : S100000x128.Idx)
    (hk0 : (k 0).val = 5000 * t.val + (y 0).val) (hk1 : (k 1).val = (y 1).val) :
    (iblk3 V c 0 t : Vec Ideal S5000x128 .f32) y = (V c (Pipeline.arrRef spec3 0) : S100000x128.Idx → EReal) k := by
  unfold iblk3
  rw [View.read_apply]
  show (V c (Pipeline.arrRef spec3 0) : S100000x128.Idx → EReal) _ = (V c (Pipeline.arrRef spec3 0) : S100000x128.Idx → EReal) k
  refine congrArg (V c (Pipeline.arrRef spec3 0) : S100000x128.Idx → EReal) (funext fun a => Fin.ext ?_)
  match a with
  | ⟨0, _⟩ => show win3_0.index t (0 : Fin 2) * 5000 + 1 * (y 0).val = (k 0).val; rw [table_row t, hk0]; omega
  | ⟨1, _⟩ => show win3_0.index t (1 : Fin 2) * 128 + 1 * (y 1).val = (k 1).val; rw [table_col t, hk1]; omega

/-- The first weight's block at every point is the whole matrix. -/
theorem weight1_block (t : Fin cfg3.N) :
    (iblk3 V c 1 t : Vec Ideal S128x64 .f32) = (V c (Pipeline.arrRef spec3 1) : S128x64.Idx → EReal) := by
  funext y
  unfold iblk3
  rw [View.read_apply]
  show (V c (Pipeline.arrRef spec3 1) : S128x64.Idx → EReal) _ = (V c (Pipeline.arrRef spec3 1) : S128x64.Idx → EReal) y
  refine congrArg (V c (Pipeline.arrRef spec3 1) : S128x64.Idx → EReal) (funext fun a => Fin.ext ?_)
  match a with
  | ⟨0, _⟩ => show win3_1.index t (0 : Fin 2) * 128 + 1 * (y 0).val = (y 0).val; rw [weight1_row t]; omega
  | ⟨1, _⟩ => show win3_1.index t (1 : Fin 2) * 64 + 1 * (y 1).val = (y 1).val; rw [weight1_col t]; omega

/-- The first bias's block at every point is the whole vector. -/
theorem bias1_block (t : Fin cfg3.N) :
    (iblk3 V c 2 t : Vec Ideal S64 .f32) = (V c (Pipeline.arrRef spec3 2) : S64.Idx → EReal) := by
  funext y
  unfold iblk3
  rw [View.read_apply]
  show (V c (Pipeline.arrRef spec3 2) : S64.Idx → EReal) _ = (V c (Pipeline.arrRef spec3 2) : S64.Idx → EReal) y
  refine congrArg (V c (Pipeline.arrRef spec3 2) : S64.Idx → EReal) (funext fun a => Fin.ext ?_)
  match a with
  | ⟨0, _⟩ => show win3_2.index t (0 : Fin 1) * 64 + 1 * (y 0).val = (y 0).val; rw [bias1_at t]; omega

/-- The second weight's block at every point is the whole matrix. -/
theorem weight2_block (t : Fin cfg3.N) :
    (iblk3 V c 3 t : Vec Ideal S64x128 .f32) = (V c (Pipeline.arrRef spec3 3) : S64x128.Idx → EReal) := by
  funext y
  unfold iblk3
  rw [View.read_apply]
  show (V c (Pipeline.arrRef spec3 3) : S64x128.Idx → EReal) _ = (V c (Pipeline.arrRef spec3 3) : S64x128.Idx → EReal) y
  refine congrArg (V c (Pipeline.arrRef spec3 3) : S64x128.Idx → EReal) (funext fun a => Fin.ext ?_)
  match a with
  | ⟨0, _⟩ => show win3_3.index t (0 : Fin 2) * 64 + 1 * (y 0).val = (y 0).val; rw [weight2_row t]; omega
  | ⟨1, _⟩ => show win3_3.index t (1 : Fin 2) * 128 + 1 * (y 1).val = (y 1).val; rw [weight2_col t]; omega

/-- The second bias's block at every point is the whole vector. -/
theorem bias2_block (t : Fin cfg3.N) :
    (iblk3 V c 4 t : Vec Ideal S128 .f32) = (V c (Pipeline.arrRef spec3 4) : S128.Idx → EReal) := by
  funext y
  unfold iblk3
  rw [View.read_apply]
  show (V c (Pipeline.arrRef spec3 4) : S128.Idx → EReal) _ = (V c (Pipeline.arrRef spec3 4) : S128.Idx → EReal) y
  refine congrArg (V c (Pipeline.arrRef spec3 4) : S128.Idx → EReal) (funext fun a => Fin.ext ?_)
  match a with
  | ⟨0, _⟩ => show win3_4.index t (0 : Fin 1) * 128 + 1 * (y 0).val = (y 0).val; rw [bias2_at t]; omega

/-- What the body leaves in the latent result's buffer at point `t`: `h · wt + bt` of the table's block at `t`,
    with the whole first weight and bias. -/
theorem latent_left (t : Fin cfg3.N) :
    (dat3 V c).after 5 t = (Cert.Net.biased (iblk3 V c 0 t : Vec Ideal S5000x128 .f32) (V c (Pipeline.arrRef spec3 1) : S128x64.Idx → EReal) (V c (Pipeline.arrRef spec3 2) : S64.Idx → EReal) : Vec Ideal S5000x64 .f32) := by
  rw [after3_5]
  unfold out3_5
  rw [View.canon_unit_zero zeros2]
  simp only [View.ld_unit_zero (S := S5000x128) zeros2, View.ld_unit_zero (S := S128x64) zeros2, View.ld_unit_zero (S := S64) zeros1]
  rw [k3_pay1_eq, weight1_block V c t, bias1_block V c t]

/-- What point `t` writes back to the latent result is block `t` of `h · wt + bt` taken of the whole table. -/
theorem latent_written_block (t : Fin cfg3.N) :
    (dat3 V c).flushed 5 t = ((cfg3.win 5).blk t).view.read (Elt Ideal) (Cert.Net.biased (V c (Pipeline.arrRef spec3 0) : S100000x128.Idx → EReal) (V c (Pipeline.arrRef spec3 1) : S128x64.Idx → EReal) (V c (Pipeline.arrRef spec3 2) : S64.Idx → EReal)) := by
  show (cfg3.win 5).cut (grid3.coords t) ((dat3 V c).after 5 t) = _
  rw [latent_left V c t]
  funext j
  show Cert.Net.biased (iblk3 V c 0 t : Vec Ideal S5000x128 .f32) (V c (Pipeline.arrRef spec3 1) : S128x64.Idx → EReal) (V c (Pipeline.arrRef spec3 2) : S64.Idx → EReal) ((cfg3.win 5).xinj (grid3.coords t) j)
    = Cert.Net.biased (V c (Pipeline.arrRef spec3 0) : S100000x128.Idx → EReal) (V c (Pipeline.arrRef spec3 1) : S128x64.Idx → EReal) (V c (Pipeline.arrRef spec3 2) : S64.Idx → EReal) (((cfg3.win 5).blk t).view.emb j)
  refine Cert.Net.biased_row_congr _ _ _ _ _ _ (fun q => table_block V c t _ _ ?_ rfl) ?_
  · show win3_5.index t (0 : Fin 2) * 5000 + 1 * (j 0).val = 5000 * t.val + (j 0).val
    rw [latent_row t]; omega
  · show (j 1).val = win3_5.index t (1 : Fin 2) * 64 + 1 * (j 1).val
    rw [latent_col t]; omega

/-- What the body leaves in the decoded result's buffer at point `t`: the rectified decoder layer of the latent
    values of the table's block at `t`, with the whole weights and biases. -/
theorem decoded_left (t : Fin cfg3.N) :
    (dat3 V c).after 6 t = (fun j => Cert.Net.leaky (Ideal.ofBits .f32 0x00000000#32) (Ideal.ofBits .f32 0x3C23D70A#32)
        (Cert.Net.biased (Cert.Net.biased (iblk3 V c 0 t : Vec Ideal S5000x128 .f32) (V c (Pipeline.arrRef spec3 1) : S128x64.Idx → EReal) (V c (Pipeline.arrRef spec3 2) : S64.Idx → EReal)) (V c (Pipeline.arrRef spec3 3) : S64x128.Idx → EReal) (V c (Pipeline.arrRef spec3 4) : S128.Idx → EReal) j) : Vec Ideal S5000x128 .f32) := by
  rw [after3_6]
  unfold out3_6
  rw [View.canon_unit_zero zeros2]
  simp only [View.ld_unit_zero (S := S5000x128) zeros2, View.ld_unit_zero (S := S128x64) zeros2, View.ld_unit_zero (S := S64) zeros1,
    View.ld_unit_zero (S := S64x128) zeros2, View.ld_unit_zero (S := S128) zeros1]
  rw [k3_pay2_eq, weight1_block V c t, bias1_block V c t, weight2_block V c t, bias2_block V c t]

/-- What point `t` writes back to the decoded result is block `t` of the rectified decoder layer of the latent
    values, taken of the whole table. -/
theorem decoded_written_block (t : Fin cfg3.N) :
    (dat3 V c).flushed 6 t = ((cfg3.win 6).blk t).view.read (Elt Ideal)
      (fun j => Cert.Net.leaky (Ideal.ofBits .f32 0x00000000#32) (Ideal.ofBits .f32 0x3C23D70A#32)
        (Cert.Net.biased (Cert.Net.biased (V c (Pipeline.arrRef spec3 0) : S100000x128.Idx → EReal) (V c (Pipeline.arrRef spec3 1) : S128x64.Idx → EReal) (V c (Pipeline.arrRef spec3 2) : S64.Idx → EReal)) (V c (Pipeline.arrRef spec3 3) : S64x128.Idx → EReal) (V c (Pipeline.arrRef spec3 4) : S128.Idx → EReal) j)) := by
  show (cfg3.win 6).cut (grid3.coords t) ((dat3 V c).after 6 t) = _
  rw [decoded_left V c t]
  funext j
  show Cert.Net.leaky (Ideal.ofBits .f32 0x00000000#32) (Ideal.ofBits .f32 0x3C23D70A#32)
      (Cert.Net.biased (Cert.Net.biased (iblk3 V c 0 t : Vec Ideal S5000x128 .f32) (V c (Pipeline.arrRef spec3 1) : S128x64.Idx → EReal) (V c (Pipeline.arrRef spec3 2) : S64.Idx → EReal)) (V c (Pipeline.arrRef spec3 3) : S64x128.Idx → EReal) (V c (Pipeline.arrRef spec3 4) : S128.Idx → EReal) ((cfg3.win 6).xinj (grid3.coords t) j))
    = Cert.Net.leaky (Ideal.ofBits .f32 0x00000000#32) (Ideal.ofBits .f32 0x3C23D70A#32)
      (Cert.Net.biased (Cert.Net.biased (V c (Pipeline.arrRef spec3 0) : S100000x128.Idx → EReal) (V c (Pipeline.arrRef spec3 1) : S128x64.Idx → EReal) (V c (Pipeline.arrRef spec3 2) : S64.Idx → EReal)) (V c (Pipeline.arrRef spec3 3) : S64x128.Idx → EReal) (V c (Pipeline.arrRef spec3 4) : S128.Idx → EReal) (((cfg3.win 6).blk t).view.emb j))
  refine congrArg (Cert.Net.leaky (Ideal.ofBits .f32 0x00000000#32) (Ideal.ofBits .f32 0x3C23D70A#32))
    (Cert.Net.biased_biased_row_congr _ _ _ _ _ _ _ _ (fun q => table_block V c t _ _ ?_ rfl) ?_)
  · show win3_6.index t (0 : Fin 2) * 5000 + 1 * (j 0).val = 5000 * t.val + (j 0).val
    rw [decoded_row t]; omega
  · show (j 1).val = win3_6.index t (1 : Fin 2) * 128 + 1 * (j 1).val
    rw [decoded_col t]; omega

/-- An entry of the latent result lies in point `t`'s block iff each coordinate lies in the block's range on its axis. -/
theorem mem_block_latent (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v54_0).slice (win3_5.rect t)).set ↔ _
  rw [View.set_slice_whole, Rect.mem_set_unit]
  exact Iff.rfl

/-- Every entry of the latent result lies in the block of the point its row's block number names. -/
theorem covered_latent (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have ht : (i 0).val / 5000 < cfg3.N := by show _ < grid3.N; rw [N_3]; omega
  have er : win3_5.index ⟨(i 0).val / 5000, ht⟩ (0 : Fin 2) = (i 0).val / 5000 := latent_row ⟨(i 0).val / 5000, ht⟩
  have ec : win3_5.index ⟨(i 0).val / 5000, ht⟩ (1 : Fin 2) = 0 := latent_col ⟨(i 0).val / 5000, ht⟩
  refine ⟨⟨(i 0).val / 5000, ht⟩, flush3_5 _, ?_⟩
  rw [mem_block_latent]
  intro a
  match a with
  | ⟨0, _⟩ => show win3_5.index ⟨(i 0).val / 5000, ht⟩ (0 : Fin 2) * 5000 ≤ (i 0).val ∧ (i 0).val < win3_5.index ⟨(i 0).val / 5000, ht⟩ (0 : Fin 2) * 5000 + 5000; rw [er]; omega
  | ⟨1, _⟩ => show win3_5.index ⟨(i 0).val / 5000, ht⟩ (1 : Fin 2) * 64 ≤ (i 1).val ∧ (i 1).val < win3_5.index ⟨(i 0).val / 5000, ht⟩ (1 : Fin 2) * 64 + 64; rw [ec]; omega

/-- An entry of the decoded result lies in point `t`'s block iff each coordinate lies in the block's range on its axis. -/
theorem mem_block_decoded (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v54_1).slice (win3_6.rect t)).set ↔ _
  rw [View.set_slice_whole, Rect.mem_set_unit]
  exact Iff.rfl

/-- Every entry of the decoded result lies in the block of the point its row's block number names. -/
theorem covered_decoded (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have ht : (i 0).val / 5000 < cfg3.N := by show _ < grid3.N; rw [N_3]; omega
  have er : win3_6.index ⟨(i 0).val / 5000, ht⟩ (0 : Fin 2) = (i 0).val / 5000 := decoded_row ⟨(i 0).val / 5000, ht⟩
  have ec : win3_6.index ⟨(i 0).val / 5000, ht⟩ (1 : Fin 2) = 0 := decoded_col ⟨(i 0).val / 5000, ht⟩
  refine ⟨⟨(i 0).val / 5000, ht⟩, flush3_6 _, ?_⟩
  rw [mem_block_decoded]
  intro a
  match a with
  | ⟨0, _⟩ => show win3_6.index ⟨(i 0).val / 5000, ht⟩ (0 : Fin 2) * 5000 ≤ (i 0).val ∧ (i 0).val < win3_6.index ⟨(i 0).val / 5000, ht⟩ (0 : Fin 2) * 5000 + 5000; rw [er]; omega
  | ⟨1, _⟩ => show win3_6.index ⟨(i 0).val / 5000, ht⟩ (1 : Fin 2) * 128 ≤ (i 1).val ∧ (i 1).val < win3_6.index ⟨(i 0).val / 5000, ht⟩ (1 : Fin 2) * 128 + 128; rw [ec]; omega

end Cert.KernelIdeal.Regions.TransformDecode

namespace Cert.KernelIdeal.Regions

open Cert.KernelIdeal Cert.KernelIdeal.Gen Idealize.ShloMosaic Idealize.ShloMosaic.TcCoe

/-- THE LATENT ARRAY after the region: the hidden table times the first weight, plus the first bias row. -/
theorem transformDecode_latent_array (V : (c : Dev nD) → (b : Ref sig .tc) → Buf (Elt Ideal) ((c : Thread nD τ).loc b)) (c : Dev nD) :
    ((dat3 (F := Ideal) V c).arrAt 5 cfg3.N : S100000x64.Idx → EReal)
      = Cert.Net.biased (V c (Pipeline.arrRef spec3 0) : S100000x128.Idx → EReal) (V c (Pipeline.arrRef spec3 1) : S128x64.Idx → EReal) (V c (Pipeline.arrRef spec3 2) : S64.Idx → EReal) :=
  (dat3 V c).arrAt_eq_of_cover 5 _ (fun t _ => TransformDecode.latent_written_block V c t) TransformDecode.covered_latent

/-- THE DECODED ARRAY after the region: the rectified decoder layer of the latent values. -/
theorem transformDecode_decoded_array (V : (c : Dev nD) → (b : Ref sig .tc) → Buf (Elt Ideal) ((c : Thread nD τ).loc b)) (c : Dev nD) :
    ((dat3 (F := Ideal) V c).arrAt 6 cfg3.N : S100000x128.Idx → EReal)
      = fun j => Cert.Net.leaky (Ideal.ofBits .f32 0x00000000#32) (Ideal.ofBits .f32 0x3C23D70A#32)
          (Cert.Net.biased (Cert.Net.biased (V c (Pipeline.arrRef spec3 0) : S100000x128.Idx → EReal) (V c (Pipeline.arrRef spec3 1) : S128x64.Idx → EReal) (V c (Pipeline.arrRef spec3 2) : S64.Idx → EReal)) (V c (Pipeline.arrRef spec3 3) : S64x128.Idx → EReal) (V c (Pipeline.arrRef spec3 4) : S128.Idx → EReal) j) :=
  (dat3 V c).arrAt_eq_of_cover 6 _ (fun t _ => TransformDecode.decoded_written_block V c t) TransformDecode.covered_decoded

end Cert.KernelIdeal.Regions

end
-- ==== Proof.LinearPayload.lean ====
/-
  What the two bias-free product kernels store, entry by entry.

  Each of them loads a block of 5000 rows of a node table and a whole weight matrix, narrows both to
  the short float format, and stores their product accumulated from zero. On the extended reals a
  change of float format is the identity and a cast of a shape to itself is the identity, so the
  stored block is the matrix product of the two loaded blocks: entry `(p, c)` is
  `Σ_q x[p, q] · w[q, c]`.
-/
import proofs.«102533_j14611478741197_2_alg».proof.Proof.Gen.KernelIdeal.Skeleton
import proofs.«102533_j14611478741197_2_alg».proof.Proof.Spec
import proofs.«102533_j14611478741197_2_alg».proof.Proof.LibPlainDot
import Idealize.ShloMosaic.Lib.Pipeline.Value
import Idealize.ShloMosaic.Lib.ValueIdx

noncomputable section

open scoped BigOperators

namespace Cert.KernelIdeal.Regions

open Idealize.ShloMosaic Idealize.ShloMosaic.ValueIdx Cert.KernelIdeal Cert.KernelIdeal.Gen

/-- The 128-to-64 product: the stored block is the product of the loaded row block and weight. -/
theorem k5_pay1_eq (x : Vec Ideal S5000x128 .f32) (wt : Vec Ideal S128x64 .f32) :
    k5_pay1 (F := Ideal) x wt = Cert.Net.dense x wt := by
  funext j
  obtain ⟨p, c, rfl⟩ : ∃ (p : Fin 5000) (c : Fin 64), j = ix2 p c := ⟨j 0, j 1, eq_ix2 j⟩
  unfold k5_pay1
  rw [Cert.PlainDot.matmul_zero_apply ⟨rfl, rfl, rfl, rfl, rfl, rfl⟩]
  simp only [truncf_apply, shapeCast_self]
  rfl

/-- The 64-to-3 product: the stored block is the product of the loaded row block and weight. -/
theorem k7_pay1_eq (x : Vec Ideal S5000x64 .f32) (wt : Vec Ideal S64x3 .f32) :
    k7_pay1 (F := Ideal) x wt = Cert.Net.dense x wt := by
  funext j
  obtain ⟨p, c, rfl⟩ : ∃ (p : Fin 5000) (c : Fin 3), j = ix2 p c := ⟨j 0, j 1, eq_ix2 j⟩
  unfold k7_pay1
  rw [Cert.PlainDot.matmul_zero_apply ⟨rfl, rfl, rfl, rfl, rfl, rfl⟩]
  simp only [truncf_apply, shapeCast_self]
  rfl

end Cert.KernelIdeal.Regions

end
-- ==== Proof.RegionLinear128x64.lean ====
/-
  The 128-to-64 bias-free product region: the array it leaves, as one function of the arrays it finds.

  The grid has twenty points. Point `t` fetches rows `5000·t … 5000·t + 4999` of the node table and the whole
  weight matrix, and writes back the product of the two as rows `5000·t … 5000·t + 4999` of the result. Row `p` of the
  table's block at `t` is row `5000·t + p` of the table, and a product's entry reads one row of its left operand, so
  what point `t` writes is block `t` of the product of the WHOLE table with the weight. The twenty blocks tile the
  result (row `r` lies in block `r / 5000`), so the result array ends as that product, entry by entry.
-/
import proofs.«102533_j14611478741197_2_alg».proof.Proof.Gen.KernelIdeal.Frame
import proofs.«102533_j14611478741197_2_alg».proof.Proof.LinearPayload
import proofs.«102533_j14611478741197_2_alg».proof.Proof.RowBlocks
import Idealize.ShloMosaic.Lib.Pipeline.Value
import Idealize.ShloMosaic.Lib.ValueIdx

noncomputable section

open scoped BigOperators

namespace Cert.KernelIdeal.Regions.Linear128x64

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The zero offsets of a whole-buffer access, as a constant function. -/
theorem zeros2 : (![0, 0] : Fin 2 → Nat) = fun _ => 0 := funext fun a => by fin_cases a <;> rfl

/-- The block indices, decided over the twenty points: the table's and the result's windows sit at row block `t`,
    column block 0; the weight's at block (0, 0). -/
theorem block_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem table_row (t : Fin cfg5.N) : win5_0.index t (0 : Fin 2) = t.val := (block_index t).1
theorem table_col (t : Fin cfg5.N) : win5_0.index t (1 : Fin 2) = 0 := (block_index t).2.1
theorem weight_row (t : Fin cfg5.N) : win5_1.index t (0 : Fin 2) = 0 := (block_index t).2.2.1
theorem weight_col (t : Fin cfg5.N) : win5_1.index t (1 : Fin 2) = 0 := (block_index t).2.2.2.1
theorem result_row (t : Fin cfg5.N) : win5_2.index t (0 : Fin 2) = t.val := (block_index t).2.2.2.2.1
theorem result_col (t : Fin cfg5.N) : win5_2.index t (1 : Fin 2) = 0 := (block_index t).2.2.2.2.2

/-- Entry `y` of the table's block at point `t` is the table's entry in row `5000·t + y₀`, column `y₁`. -/
theorem table_block (t : Fin cfg5.N) (y : S5000x128.Idx) (k : S100000x128.Idx)
    (hk0 : (k 0).val = 5000 * t.val + (y 0).val) (hk1 : (k 1).val = (y 1).val) :
    (iblk5 V c 0 t : Vec Ideal S5000x128 .f32) y = (V c (Pipeline.arrRef spec5 0) : S100000x128.Idx → EReal) k := by
  unfold iblk5
  rw [View.read_apply]
  show (V c (Pipeline.arrRef spec5 0) : S100000x128.Idx → EReal) _ = (V c (Pipeline.arrRef spec5 0) : S100000x128.Idx → EReal) k
  refine congrArg (V c (Pipeline.arrRef spec5 0) : S100000x128.Idx → EReal) (funext fun a => Fin.ext ?_)
  match a with
  | ⟨0, _⟩ => show win5_0.index t (0 : Fin 2) * 5000 + 1 * (y 0).val = (k 0).val; rw [table_row t, hk0]; omega
  | ⟨1, _⟩ => show win5_0.index t (1 : Fin 2) * 128 + 1 * (y 1).val = (k 1).val; rw [table_col t, hk1]; omega

/-- The weight's block at every point is the whole weight matrix. -/
theorem weight_block (t : Fin cfg5.N) :
    (iblk5 V c 1 t : Vec Ideal S128x64 .f32) = (V c (Pipeline.arrRef spec5 1) : S128x64.Idx → EReal) := by
  funext y
  unfold iblk5
  rw [View.read_apply]
  show (V c (Pipeline.arrRef spec5 1) : S128x64.Idx → EReal) _ = (V c (Pipeline.arrRef spec5 1) : S128x64.Idx → EReal) y
  refine congrArg (V c (Pipeline.arrRef spec5 1) : S128x64.Idx → EReal) (funext fun a => Fin.ext ?_)
  match a with
  | ⟨0, _⟩ => show win5_1.index t (0 : Fin 2) * 128 + 1 * (y 0).val = (y 0).val; rw [weight_row t]; omega
  | ⟨1, _⟩ => show win5_1.index t (1 : Fin 2) * 64 + 1 * (y 1).val = (y 1).val; rw [weight_col t]; omega

/-- What the body leaves in the result's buffer at point `t`: the product of the table's block at `t` with the
    whole weight. -/
theorem left_block (t : Fin cfg5.N) :
    (dat5 V c).after 2 t = (Cert.Net.dense (iblk5 V c 0 t : Vec Ideal S5000x128 .f32) (V c (Pipeline.arrRef spec5 1) : S128x64.Idx → EReal) : Vec Ideal S5000x64 .f32) := by
  rw [after5_2]
  unfold out5_2
  rw [View.canon_unit_zero zeros2]
  simp only [View.ld_unit_zero (S := S5000x128) zeros2, View.ld_unit_zero (S := S128x64) zeros2]
  rw [k5_pay1_eq, weight_block V c t]

/-- What point `t` writes back is block `t` of the product of the whole table with the weight. -/
theorem written_block (t : Fin cfg5.N) :
    (dat5 V c).flushed 2 t = ((cfg5.win 2).blk t).view.read (Elt Ideal) (Cert.Net.dense (V c (Pipeline.arrRef spec5 0) : S100000x128.Idx → EReal) (V c (Pipeline.arrRef spec5 1) : S128x64.Idx → EReal)) := by
  show (cfg5.win 2).cut (grid5.coords t) ((dat5 V c).after 2 t) = _
  rw [left_block V c t]
  funext j
  show Cert.Net.dense (iblk5 V c 0 t : Vec Ideal S5000x128 .f32) (V c (Pipeline.arrRef spec5 1) : S128x64.Idx → EReal) ((cfg5.win 2).xinj (grid5.coords t) j)
    = Cert.Net.dense (V c (Pipeline.arrRef spec5 0) : S100000x128.Idx → EReal) (V c (Pipeline.arrRef spec5 1) : S128x64.Idx → EReal) (((cfg5.win 2).blk t).view.emb j)
  refine Cert.Net.dense_row_congr _ _ _ _ _ (fun q => table_block V c t _ _ ?_ rfl) ?_
  · show win5_2.index t (0 : Fin 2) * 5000 + 1 * (j 0).val = 5000 * t.val + (j 0).val
    rw [result_row t]; omega
  · show (j 1).val = win5_2.index t (1 : Fin 2) * 64 + 1 * (j 1).val
    rw [result_col t]; omega

/-- An entry of the result lies in point `t`'s block iff each coordinate lies in the block's range on its axis. -/
theorem mem_block (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v69).slice (win5_2.rect t)).set ↔ _
  rw [View.set_slice_whole, Rect.mem_set_unit]
  exact Iff.rfl

/-- Every entry of the result lies in the block of the point its row's block number names. -/
theorem covered (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have ht : (i 0).val / 5000 < cfg5.N := by show _ < grid5.N; rw [N_5]; omega
  have er : win5_2.index ⟨(i 0).val / 5000, ht⟩ (0 : Fin 2) = (i 0).val / 5000 := result_row ⟨(i 0).val / 5000, ht⟩
  have ec : win5_2.index ⟨(i 0).val / 5000, ht⟩ (1 : Fin 2) = 0 := result_col ⟨(i 0).val / 5000, ht⟩
  refine ⟨⟨(i 0).val / 5000, ht⟩, flush5_2 _, ?_⟩
  rw [mem_block]
  intro a
  match a with
  | ⟨0, _⟩ => show win5_2.index ⟨(i 0).val / 5000, ht⟩ (0 : Fin 2) * 5000 ≤ (i 0).val ∧ (i 0).val < win5_2.index ⟨(i 0).val / 5000, ht⟩ (0 : Fin 2) * 5000 + 5000; rw [er]; omega
  | ⟨1, _⟩ => show win5_2.index ⟨(i 0).val / 5000, ht⟩ (1 : Fin 2) * 64 ≤ (i 1).val ∧ (i 1).val < win5_2.index ⟨(i 0).val / 5000, ht⟩ (1 : Fin 2) * 64 + 64; rw [ec]; omega

end Cert.KernelIdeal.Regions.Linear128x64

namespace Cert.KernelIdeal.Regions

open Cert.KernelIdeal Cert.KernelIdeal.Gen Idealize.ShloMosaic Idealize.ShloMosaic.TcCoe

/-- THE RESULT ARRAY after the region: the product of the node table and the weight matrix the region found. -/
theorem linear128x64_array (V : (c : Dev nD) → (b : Ref sig .tc) → Buf (Elt Ideal) ((c : Thread nD τ).loc b)) (c : Dev nD) :
    ((dat5 (F := Ideal) V c).arrAt 2 cfg5.N : S100000x64.Idx → EReal)
      = Cert.Net.dense (V c (Pipeline.arrRef spec5 0) : S100000x128.Idx → EReal) (V c (Pipeline.arrRef spec5 1) : S128x64.Idx → EReal) :=
  (dat5 V c).arrAt_eq_of_cover 2 _ (fun t _ => Linear128x64.written_block V c t) Linear128x64.covered

end Cert.KernelIdeal.Regions

end
-- ==== Proof.RegionLinear64x3.lean ====
/-
  The 64-to-3 bias-free product region: the array it leaves, as one function of the arrays it finds.

  The grid has twenty points. Point `t` fetches rows `5000·t … 5000·t + 4999` of the node table and the whole
  weight matrix, and writes back the product of the two as rows `5000·t … 5000·t + 4999` of the result. Row `p` of the
  table's block at `t` is row `5000·t + p` of the table, and a product's entry reads one row of its left operand, so
  what point `t` writes is block `t` of the product of the WHOLE table with the weight. The twenty blocks tile the
  result (row `r` lies in block `r / 5000`), so the result array ends as that product, entry by entry.
-/
import proofs.«102533_j14611478741197_2_alg».proof.Proof.Gen.KernelIdeal.Frame
import proofs.«102533_j14611478741197_2_alg».proof.Proof.LinearPayload
import proofs.«102533_j14611478741197_2_alg».proof.Proof.RowBlocks
import Idealize.ShloMosaic.Lib.Pipeline.Value
import Idealize.ShloMosaic.Lib.ValueIdx

noncomputable section

open scoped BigOperators

namespace Cert.KernelIdeal.Regions.Linear64x3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The zero offsets of a whole-buffer access, as a constant function. -/
theorem zeros2 : (![0, 0] : Fin 2 → Nat) = fun _ => 0 := funext fun a => by fin_cases a <;> rfl

/-- The block indices, decided over the twenty points: the table's and the result's windows sit at row block `t`,
    column block 0; the weight's at block (0, 0). -/
theorem block_index : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

theorem table_row (t : Fin cfg7.N) : win7_0.index t (0 : Fin 2) = t.val := (block_index t).1
theorem table_col (t : Fin cfg7.N) : win7_0.index t (1 : Fin 2) = 0 := (block_index t).2.1
theorem weight_row (t : Fin cfg7.N) : win7_1.index t (0 : Fin 2) = 0 := (block_index t).2.2.1
theorem weight_col (t : Fin cfg7.N) : win7_1.index t (1 : Fin 2) = 0 := (block_index t).2.2.2.1
theorem result_row (t : Fin cfg7.N) : win7_2.index t (0 : Fin 2) = t.val := (block_index t).2.2.2.2.1
theorem result_col (t : Fin cfg7.N) : win7_2.index t (1 : Fin 2) = 0 := (block_index t).2.2.2.2.2

/-- Entry `y` of the table's block at point `t` is the table's entry in row `5000·t + y₀`, column `y₁`. -/
theorem table_block (t : Fin cfg7.N) (y : S5000x64.Idx) (k : S100000x64.Idx)
    (hk0 : (k 0).val = 5000 * t.val + (y 0).val) (hk1 : (k 1).val = (y 1).val) :
    (iblk7 V c 0 t : Vec Ideal S5000x64 .f32) y = (V c (Pipeline.arrRef spec7 0) : S100000x64.Idx → EReal) k := by
  unfold iblk7
  rw [View.read_apply]
  show (V c (Pipeline.arrRef spec7 0) : S100000x64.Idx → EReal) _ = (V c (Pipeline.arrRef spec7 0) : S100000x64.Idx → EReal) k
  refine congrArg (V c (Pipeline.arrRef spec7 0) : S100000x64.Idx → EReal) (funext fun a => Fin.ext ?_)
  match a with
  | ⟨0, _⟩ => show win7_0.index t (0 : Fin 2) * 5000 + 1 * (y 0).val = (k 0).val; rw [table_row t, hk0]; omega
  | ⟨1, _⟩ => show win7_0.index t (1 : Fin 2) * 64 + 1 * (y 1).val = (k 1).val; rw [table_col t, hk1]; omega

/-- The weight's block at every point is the whole weight matrix. -/
theorem weight_block (t : Fin cfg7.N) :
    (iblk7 V c 1 t : Vec Ideal S64x3 .f32) = (V c (Pipeline.arrRef spec7 1) : S64x3.Idx → EReal) := by
  funext y
  unfold iblk7
  rw [View.read_apply]
  show (V c (Pipeline.arrRef spec7 1) : S64x3.Idx → EReal) _ = (V c (Pipeline.arrRef spec7 1) : S64x3.Idx → EReal) y
  refine congrArg (V c (Pipeline.arrRef spec7 1) : S64x3.Idx → EReal) (funext fun a => Fin.ext ?_)
  match a with
  | ⟨0, _⟩ => show win7_1.index t (0 : Fin 2) * 64 + 1 * (y 0).val = (y 0).val; rw [weight_row t]; omega
  | ⟨1, _⟩ => show win7_1.index t (1 : Fin 2) * 3 + 1 * (y 1).val = (y 1).val; rw [weight_col t]; omega

/-- What the body leaves in the result's buffer at point `t`: the product of the table's block at `t` with the
    whole weight. -/
theorem left_block (t : Fin cfg7.N) :
    (dat7 V c).after 2 t = (Cert.Net.dense (iblk7 V c 0 t : Vec Ideal S5000x64 .f32) (V c (Pipeline.arrRef spec7 1) : S64x3.Idx → EReal) : Vec Ideal S5000x3 .f32) := by
  rw [after7_2]
  unfold out7_2
  rw [View.canon_unit_zero zeros2]
  simp only [View.ld_unit_zero (S := S5000x64) zeros2, View.ld_unit_zero (S := S64x3) zeros2]
  rw [k7_pay1_eq, weight_block V c t]

/-- What point `t` writes back is block `t` of the product of the whole table with the weight. -/
theorem written_block (t : Fin cfg7.N) :
    (dat7 V c).flushed 2 t = ((cfg7.win 2).blk t).view.read (Elt Ideal) (Cert.Net.dense (V c (Pipeline.arrRef spec7 0) : S100000x64.Idx → EReal) (V c (Pipeline.arrRef spec7 1) : S64x3.Idx → EReal)) := by
  show (cfg7.win 2).cut (grid7.coords t) ((dat7 V c).after 2 t) = _
  rw [left_block V c t]
  funext j
  show Cert.Net.dense (iblk7 V c 0 t : Vec Ideal S5000x64 .f32) (V c (Pipeline.arrRef spec7 1) : S64x3.Idx → EReal) ((cfg7.win 2).xinj (grid7.coords t) j)
    = Cert.Net.dense (V c (Pipeline.arrRef spec7 0) : S100000x64.Idx → EReal) (V c (Pipeline.arrRef spec7 1) : S64x3.Idx → EReal) (((cfg7.win 2).blk t).view.emb j)
  refine Cert.Net.dense_row_congr _ _ _ _ _ (fun q => table_block V c t _ _ ?_ rfl) ?_
  · show win7_2.index t (0 : Fin 2) * 5000 + 1 * (j 0).val = 5000 * t.val + (j 0).val
    rw [result_row t]; omega
  · show (j 1).val = win7_2.index t (1 : Fin 2) * 3 + 1 * (j 1).val
    rw [result_col t]; omega

/-- An entry of the result lies in point `t`'s block iff each coordinate lies in the block's range on its axis. -/
theorem mem_block (t : Fin cfg7.N) (i : S100000x3.Idx) :
    i ∈ ((cfg7.win 2).blk t).view.set ↔ ∀ a : Fin 2, win7_2.index t a * S5000x3.size a ≤ (i a).val ∧ (i a).val < win7_2.index t a * S5000x3.size a + S5000x3.size a := by
  show i ∈ ((View.whole main_v83).slice (win7_2.rect t)).set ↔ _
  rw [View.set_slice_whole, Rect.mem_set_unit]
  exact Iff.rfl

/-- Every entry of the result lies in the block of the point its row's block number names. -/
theorem covered (i : S100000x3.Idx) : ∃ t : Fin cfg7.N, (cfg7.win 2).flush t = true ∧ i ∈ ((cfg7.win 2).blk t).view.set := by
  have hi0 : (i 0).val < 100000 := (i 0).isLt
  have hi1 : (i 1).val < 3 := (i 1).isLt
  have ht : (i 0).val / 5000 < cfg7.N := by show _ < grid7.N; rw [N_7]; omega
  have er : win7_2.index ⟨(i 0).val / 5000, ht⟩ (0 : Fin 2) = (i 0).val / 5000 := result_row ⟨(i 0).val / 5000, ht⟩
  have ec : win7_2.index ⟨(i 0).val / 5000, ht⟩ (1 : Fin 2) = 0 := result_col ⟨(i 0).val / 5000, ht⟩
  refine ⟨⟨(i 0).val / 5000, ht⟩, flush7_2 _, ?_⟩
  rw [mem_block]
  intro a
  match a with
  | ⟨0, _⟩ => show win7_2.index ⟨(i 0).val / 5000, ht⟩ (0 : Fin 2) * 5000 ≤ (i 0).val ∧ (i 0).val < win7_2.index ⟨(i 0).val / 5000, ht⟩ (0 : Fin 2) * 5000 + 5000; rw [er]; omega
  | ⟨1, _⟩ => show win7_2.index ⟨(i 0).val / 5000, ht⟩ (1 : Fin 2) * 3 ≤ (i 1).val ∧ (i 1).val < win7_2.index ⟨(i 0).val / 5000, ht⟩ (1 : Fin 2) * 3 + 3; rw [ec]; omega

end Cert.KernelIdeal.Regions.Linear64x3

namespace Cert.KernelIdeal.Regions

open Cert.KernelIdeal Cert.KernelIdeal.Gen Idealize.ShloMosaic Idealize.ShloMosaic.TcCoe

/-- THE RESULT ARRAY after the region: the product of the node table and the weight matrix the region found. -/
theorem linear64x3_array (V : (c : Dev nD) → (b : Ref sig .tc) → Buf (Elt Ideal) ((c : Thread nD τ).loc b)) (c : Dev nD) :
    ((dat7 (F := Ideal) V c).arrAt 2 cfg7.N : S100000x3.Idx → EReal)
      = Cert.Net.dense (V c (Pipeline.arrRef spec7 0) : S100000x64.Idx → EReal) (V c (Pipeline.arrRef spec7 1) : S64x3.Idx → EReal) :=
  (dat7 V c).arrAt_eq_of_cover 2 _ (fun t _ => Linear64x3.written_block V c t) Linear64x3.covered

end Cert.KernelIdeal.Regions

end
-- ==== Proof.PostLayerPayload.lean ====
/-
  The body of a layer whose neighbour sum is taken after the left weight, read at one entry.

  On a block of rows the body computes `act ((x · wr + s ⊙ ic) + b)`: the block `x` of node features times the root
  weight `wr`; plus the block `s` of neighbour sums (of rows the left weight was already applied to) scaled row by
  row by the column `ic` of inverse counts; plus the bias `b` laid out as a row and repeated down the block; through
  the activation `act` (the hyperbolic tangent in the hidden layer, nothing in the last one). At entry `(p, c)` that
  is `act ((Σ_q x[p, q] · wr[q, c] + s[p, c] · ic[p, 0]) + b[c])`, which is `Cert.Net.postLayer act x s ic wr b` there.
  The product's operands are first narrowed to a shorter float format: on the extended reals that is the identity.

  Also here: `postLayer` at a row depends on its matrix arguments only through that row of `x`, `s` and `ic` (and
  through the whole weight and bias), which is what lets a block of rows stand for the rows of the whole table.
-/
import proofs.«102533_j14611478741197_2_alg».proof.Proof.Gen.KernelIdeal.Skeleton
import proofs.«102533_j14611478741197_2_alg».proof.Proof.LibPlainDot
import proofs.«102533_j14611478741197_2_alg».proof.Proof.LibRowBias
import proofs.«102533_j14611478741197_2_alg».proof.Proof.Spec
import Idealize.ShloMosaic.Lib.Pipeline.Value
import Idealize.ShloMosaic.Lib.ValueIdx

noncomputable section

open scoped BigOperators

namespace Cert.Net

open Idealize.ShloMosaic Idealize.ShloMosaic.ValueIdx

variable {R R' K C : Nat}

/-- `postLayer` at entry `j` of one table and at entry `j'` of another agree as soon as the two tables agree on
    what the entry reads: row `j 0` of `x` against row `j' 0` of `x'`, the entry of `s`, the row's entry of `ic`,
    column `j 1` of the weight, entry `j 1` of the bias. -/
theorem postLayer_congr (act : EReal → EReal)
    (x : Mat R K) (s : Mat R C) (ic : Mat R 1) (wr : Mat K C) (b : Vc C)
    (x' : Mat R' K) (s' : Mat R' C) (ic' : Mat R' 1) (wr' : Mat K C) (b' : Vc C)
    (j : (⟨2, ![R, C]⟩ : Shape).Idx) (j' : (⟨2, ![R', C]⟩ : Shape).Idx)
    (hx : ∀ q : Fin K, x (ix2 (j 0) q) = x' (ix2 (j' 0) q))
    (hs : s j = s' j')
    (hic : ic (ix2 (j 0) (0 : Fin 1)) = ic' (ix2 (j' 0) (0 : Fin 1)))
    (hwr : ∀ q : Fin K, wr (ix2 q (j 1)) = wr' (ix2 q (j' 1)))
    (hb : b (ix1 (j 1)) = b' (ix1 (j' 1))) :
    postLayer act x s ic wr b j = postLayer act x' s' ic' wr' b' j' := by
  unfold postLayer dense
  rw [hs, hic, hb]
  exact congrArg act (congrArg (· + b' (ix1 (j' 1))) (congrArg (· + s' j' * ic' (ix2 (j' 0) (0 : Fin 1)))
    (Finset.sum_congr rfl fun q _ => by rw [hx q, hwr q])))

end Cert.Net

namespace Cert.KernelIdeal.Regions

open Cert.KernelIdeal Cert.KernelIdeal.Gen Idealize.ShloMosaic Idealize.ShloMosaic.ValueIdx

/-- The zero offsets of a whole rank-2 buffer, as the function the library's whole-buffer lemmas name. -/
theorem post_zero2 : (![0, 0] : Fin 2 → Nat) = fun _ => 0 := funext fun a => by fin_cases a <;> rfl

/-- The zero offset of a whole rank-1 buffer. -/
theorem post_zero1 : (![0] : Fin 1 → Nat) = fun _ => 0 := funext fun a => by fin_cases a; rfl

/-- A column `[R, 1]` repeated across `K` columns holds, at `(p, q)`, the column's entry of row `p`. -/
theorem post_col_across {α : Type} {R K : Nat} (hR : R ≠ 1) (v : (⟨2, ![R, 1]⟩ : Shape).Idx → α)
    (hb : (⟨2, ![R, 1]⟩ : Shape).Broadcasts ⟨2, ![R, K]⟩) (p : Fin R) (q : Fin K) :
    broadcastTo ⟨2, ![R, K]⟩ v hb (ix2 p q) = v (ix2 p (0 : Fin 1)) :=
  broadcastTo_apply v hb (ix2 p q) (ix2 p (0 : Fin 1)) (fun a => by
    match a with
    | ⟨0, _⟩ => show p.val = if R = 1 then 0 else p.val; rw [if_neg hR]
    | ⟨1, _⟩ => show (0 : ℕ) = if (1 : ℕ) = 1 then 0 else q.val; rw [if_pos rfl])

/-- The hidden layer's product contracts the 128 features of a row against the rows of the weight. -/
theorem post_plain_128_64 : Cert.PlainDot.IsPlain dot_S5000x128_S128x64_S5000x64_1_0_0_1_n_n := ⟨rfl, rfl, rfl, rfl, rfl, rfl⟩

/-- The last layer's product contracts the 64 features of a row against the rows of the weight. -/
theorem post_plain_64_3 : Cert.PlainDot.IsPlain dot_S5000x64_S64x3_S5000x3_1_0_0_1_n_n := ⟨rfl, rfl, rfl, rfl, rfl, rfl⟩

/-- The hidden layer's body at entry `(p, c)` of a block: `tanh ((Σ_q x[p,q] · wr[q,c] + s[p,c] · ic[p,0]) + b[c])`. -/
theorem hidden_payload_apply (s : Vec Ideal S5000x64 .f32) (ic : Vec Ideal S5000x1 .f32) (x : Vec Ideal S5000x128 .f32)
    (wr : Vec Ideal S128x64 .f32) (b : Vec Ideal S64 .f32) (p : Fin 5000) (c : Fin 64) :
    k6_pay1 s ic x wr b (ix2 p c) = Cert.Net.postLayer Ideal.tanh x s ic wr b (ix2 p c) := by
  unfold k6_pay1
  simp only [shapeCast_self]
  show Ideal.tanh ((matmul (F := Ideal) dot_S5000x128_S128x64_S5000x64_1_0_0_1_n_n none (truncf (F := Ideal) .bf16 x bitsLt_bf16_f32) (truncf (F := Ideal) .bf16 wr bitsLt_bf16_f32)
        (constant (F := Ideal) S5000x64 .f32 0x00000000#32) (ix2 p c)
      + s (ix2 p c) * broadcastTo S5000x64 ic broadcasts_S5000x1_S5000x64 (ix2 p c))
      + broadcastTo S5000x64 (shapeCast S1x64 b shapeCasts_S64_S1x64) broadcasts_S1x64_S5000x64 (ix2 p c)) = _
  rw [Cert.PlainDot.matmul_zero_apply post_plain_128_64, post_col_across (by decide), Cert.RowBias.bias_rows (by decide)]
  rfl

/-- The same as an equation of functions on the block. -/
theorem hidden_payload_eq (s : Vec Ideal S5000x64 .f32) (ic : Vec Ideal S5000x1 .f32) (x : Vec Ideal S5000x128 .f32)
    (wr : Vec Ideal S128x64 .f32) (b : Vec Ideal S64 .f32) :
    k6_pay1 s ic x wr b = Cert.Net.postLayer Ideal.tanh x s ic wr b := by
  funext j
  obtain ⟨p, c, rfl⟩ : ∃ (p : Fin 5000) (c : Fin 64), j = ix2 p c := ⟨j 0, j 1, eq_ix2 j⟩
  exact hidden_payload_apply s ic x wr b p c

/-- The last layer's body at entry `(p, c)` of a block: `(Σ_q x[p,q] · wr[q,c] + s[p,c] · ic[p,0]) + b[c]`, no activation. -/
theorem last_payload_apply (s : Vec Ideal S5000x3 .f32) (ic : Vec Ideal S5000x1 .f32) (x : Vec Ideal S5000x64 .f32)
    (wr : Vec Ideal S64x3 .f32) (b : Vec Ideal S3 .f32) (p : Fin 5000) (c : Fin 3) :
    k8_pay1 s ic x wr b (ix2 p c) = Cert.Net.postLayer (fun v => v) x s ic wr b (ix2 p c) := by
  unfold k8_pay1
  simp only [shapeCast_self]
  show (matmul (F := Ideal) dot_S5000x64_S64x3_S5000x3_1_0_0_1_n_n none (truncf (F := Ideal) .bf16 x bitsLt_bf16_f32) (truncf (F := Ideal) .bf16 wr bitsLt_bf16_f32)
        (constant (F := Ideal) S5000x3 .f32 0x00000000#32) (ix2 p c)
      + s (ix2 p c) * broadcastTo S5000x3 ic broadcasts_S5000x1_S5000x3 (ix2 p c))
      + broadcastTo S5000x3 (shapeCast S1x3 b shapeCasts_S3_S1x3) broadcasts_S1x3_S5000x3 (ix2 p c) = _
  rw [Cert.PlainDot.matmul_zero_apply post_plain_64_3, post_col_across (by decide), Cert.RowBias.bias_rows (by decide)]
  rfl

/-- The same as an equation of functions on the block. -/
theorem last_payload_eq (s : Vec Ideal S5000x3 .f32) (ic : Vec Ideal S5000x1 .f32) (x : Vec Ideal S5000x64 .f32)
    (wr : Vec Ideal S64x3 .f32) (b : Vec Ideal S3 .f32) :
    k8_pay1 s ic x wr b = Cert.Net.postLayer (fun v => v) x s ic wr b := by
  funext j
  obtain ⟨p, c, rfl⟩ : ∃ (p : Fin 5000) (c : Fin 3), j = ix2 p c := ⟨j 0, j 1, eq_ix2 j⟩
  exact last_payload_apply s ic x wr b p c

end Cert.KernelIdeal.Regions

end
-- ==== Proof.HiddenPostLayerArray.lean ====
/-
  The hidden layer's output table, as one function of the tables the region is entered with.

  The region runs over 20 grid points; point `t` stages rows `5000 t … 5000 t + 4999` of the node features
  `x : [100000, 128]`, of the neighbour sums `s : [100000, 64]` and of the inverse counts `ic : [100000, 1]`, together
  with the whole root weight `wr : [128, 64]` and bias `b : [64]`, and writes back the same rows of the output
  `[100000, 64]`. The body's value on a block is `Cert.Net.postLayer tanh` of the blocks (the payload module); the
  layer at a row reads only that row of `x`, `s`, `ic`, so block `t` of the output is block `t` of the layer over the
  whole tables; the 20 blocks tile the table, so after the region it IS that layer.
-/
import proofs.«102533_j14611478741197_2_alg».proof.Proof.Gen.KernelIdeal.Frame
import proofs.«102533_j14611478741197_2_alg».proof.Proof.PostLayerPayload
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at grid point `t`, decided over the 20 points: the three row-blocked inputs and the output sit at
    row block `t`, column block 0; the weight and the bias sit at block 0. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 1) = 0
    ∧ win6_5.index t (0 : Fin 2) = t.val ∧ win6_5.index t (1 : Fin 2) = 0 :=
  (by decide +kernel : ∀ t : Fin grid6.N, _)

/-- The block of node features at point `t`: entry `y` is the table's entry `k` of row `5000 t + y 0`, same column. -/
theorem iblk6_0_apply (c : Dev nD) (t : Fin cfg6.N) (y : S5000x128.Idx) (k : S100000x128.Idx)
    (hk0 : (k 0).val = t.val * 5000 + (y 0).val) (hk1 : (k 1).val = (y 1).val) :
    (iblk6 V c 0 t : Vec Ideal S5000x128 .f32) y = (V c (Pipeline.arrRef spec6 0) : S100000x128.Idx → EReal) k := by
  obtain ⟨e0, e1, -⟩ := idx_facts6 t
  unfold iblk6
  rw [View.read_apply]
  show V c (Pipeline.arrRef spec6 0) _ = V c (Pipeline.arrRef spec6 0) k
  congr 1
  funext a
  apply Fin.ext
  match a with
  | ⟨0, _⟩ => show win6_0.index t (0 : Fin 2) * 5000 + 1 * (y 0).val = (k 0).val; rw [e0, hk0]; omega
  | ⟨1, _⟩ => show win6_0.index t (1 : Fin 2) * 128 + 1 * (y 1).val = (k 1).val; rw [e1, hk1]; omega

/-- The block of neighbour sums at point `t`, likewise. -/
theorem iblk6_1_apply (c : Dev nD) (t : Fin cfg6.N) (y : S5000x64.Idx) (k : S100000x64.Idx)
    (hk0 : (k 0).val = t.val * 5000 + (y 0).val) (hk1 : (k 1).val = (y 1).val) :
    (iblk6 V c 1 t : Vec Ideal S5000x64 .f32) y = (V c (Pipeline.arrRef spec6 1) : S100000x64.Idx → EReal) k := by
  obtain ⟨-, -, e0, e1, -⟩ := idx_facts6 t
  unfold iblk6
  rw [View.read_apply]
  show V c (Pipeline.arrRef spec6 1) _ = V c (Pipeline.arrRef spec6 1) k
  congr 1
  funext a
  apply Fin.ext
  match a with
  | ⟨0, _⟩ => show win6_1.index t (0 : Fin 2) * 5000 + 1 * (y 0).val = (k 0).val; rw [e0, hk0]; omega
  | ⟨1, _⟩ => show win6_1.index t (1 : Fin 2) * 64 + 1 * (y 1).val = (k 1).val; rw [e1, hk1]; omega

/-- The block of the inverse-count column at point `t`, likewise. -/
theorem iblk6_2_apply (c : Dev nD) (t : Fin cfg6.N) (y : S5000x1.Idx) (k : S100000x1.Idx)
    (hk0 : (k 0).val = t.val * 5000 + (y 0).val) (hk1 : (k 1).val = (y 1).val) :
    (iblk6 V c 2 t : Vec Ideal S5000x1 .f32) y = (V c (Pipeline.arrRef spec6 2) : S100000x1.Idx → EReal) k := by
  obtain ⟨-, -, -, -, e0, e1, -⟩ := idx_facts6 t
  unfold iblk6
  rw [View.read_apply]
  show V c (Pipeline.arrRef spec6 2) _ = V c (Pipeline.arrRef spec6 2) k
  congr 1
  funext a
  apply Fin.ext
  match a with
  | ⟨0, _⟩ => show win6_2.index t (0 : Fin 2) * 5000 + 1 * (y 0).val = (k 0).val; rw [e0, hk0]; omega
  | ⟨1, _⟩ => show win6_2.index t (1 : Fin 2) * 1 + 1 * (y 1).val = (k 1).val; rw [e1, hk1]; omega

/-- The weight's one block is the whole weight, at every point. -/
theorem iblk6_3_eq (c : Dev nD) (t : Fin cfg6.N) :
    (iblk6 V c 3 t : Vec Ideal S128x64 .f32) = (V c (Pipeline.arrRef spec6 3) : S128x64.Idx → EReal) := by
  obtain ⟨-, -, -, -, -, -, e0, e1, -⟩ := idx_facts6 t
  funext y
  unfold iblk6
  rw [View.read_apply]
  show V c (Pipeline.arrRef spec6 3) _ = V c (Pipeline.arrRef spec6 3) y
  congr 1
  funext a
  apply Fin.ext
  match a with
  | ⟨0, _⟩ => show win6_3.index t (0 : Fin 2) * 128 + 1 * (y 0).val = (y 0).val; rw [e0]; omega
  | ⟨1, _⟩ => show win6_3.index t (1 : Fin 2) * 64 + 1 * (y 1).val = (y 1).val; rw [e1]; omega

/-- The bias's one block is the whole bias, at every point. -/
theorem iblk6_4_eq (c : Dev nD) (t : Fin cfg6.N) :
    (iblk6 V c 4 t : Vec Ideal S64 .f32) = (V c (Pipeline.arrRef spec6 4) : S64.Idx → EReal) := by
  obtain ⟨-, -, -, -, -, -, -, -, e0, -⟩ := idx_facts6 t
  funext y
  unfold iblk6
  rw [View.read_apply]
  show V c (Pipeline.arrRef spec6 4) _ = V c (Pipeline.arrRef spec6 4) y
  congr 1
  funext a
  apply Fin.ext
  match a with
  | ⟨0, _⟩ => show win6_4.index t (0 : Fin 1) * 64 + 1 * (y 0).val = (y 0).val; rw [e0]; omega

/-- The hidden layer over the whole tables the region is entered with: node features `[100000, 128]`, neighbour sums `[100000, 64]`,
    inverse counts `[100000, 1]`, root weight `[128, 64]`, bias `[64]`. -/
abbrev hiddenLayer (c : Dev nD) : S100000x64.Idx → EReal :=
  Cert.Net.postLayer Ideal.tanh (V c (Pipeline.arrRef spec6 0) : S100000x128.Idx → EReal)
    (V c (Pipeline.arrRef spec6 1) : S100000x64.Idx → EReal) (V c (Pipeline.arrRef spec6 2) : S100000x1.Idx → EReal)
    (V c (Pipeline.arrRef spec6 3) : S128x64.Idx → EReal) (V c (Pipeline.arrRef spec6 4) : S64.Idx → EReal)

/-- What point `t` writes back is block `t` of the layer over the whole tables: the body's value at entry `(p, c)` of the
    block reads row `p` of the three row blocks, which are rows `5000 t + p` of the tables, and the layer at a row reads
    nothing else of them. -/
theorem flushed6_eq (c : Dev nD) (t : Fin cfg6.N) :
    (dat6 V c).flushed 5 t = ((cfg6.win 5).blk t).view.read (Elt Ideal) (hiddenLayer V c) := by
  show (cfg6.win 5).cut (grid6.coords t) ((dat6 V c).after 5 t) = _
  rw [after6_5]
  unfold out6_5
  rw [View.canon_unit_zero post_zero2]
  simp only [View.ld_unit_zero (S := S5000x64) post_zero2, View.ld_unit_zero (S := S5000x1) post_zero2,
    View.ld_unit_zero (S := S5000x128) post_zero2, View.ld_unit_zero (S := S128x64) post_zero2,
    View.ld_unit_zero (S := S64) post_zero1]
  rw [hidden_payload_eq, iblk6_3_eq, iblk6_4_eq]
  obtain ⟨-, -, -, -, -, -, -, -, -, e0, e1⟩ := idx_facts6 t
  funext j
  show Cert.Net.postLayer Ideal.tanh (iblk6 V c 0 t) (iblk6 V c 1 t) (iblk6 V c 2 t)
      (V c (Pipeline.arrRef spec6 3) : S128x64.Idx → EReal) (V c (Pipeline.arrRef spec6 4) : S64.Idx → EReal) j
    = hiddenLayer V c (((cfg6.win 5).blk t).view.emb j)
  have r0 : ((((cfg6.win 5).blk t).view.emb j : S100000x64.Idx) 0).val = t.val * 5000 + (j 0).val := by
    show win6_5.index t (0 : Fin 2) * 5000 + 1 * (j 0).val = _; rw [e0]; omega
  have r1 : ((((cfg6.win 5).blk t).view.emb j : S100000x64.Idx) 1).val = (j 1).val := by
    show win6_5.index t (1 : Fin 2) * 64 + 1 * (j 1).val = _; rw [e1]; omega
  refine Cert.Net.postLayer_congr _ _ _ _ _ _ _ _ _ _ _ _ _ (fun q => ?_) ?_ ?_ (fun q => ?_) ?_
  · exact iblk6_0_apply V c t _ _ r0 rfl
  · exact iblk6_1_apply V c t _ _ r0 r1
  · exact iblk6_2_apply V c t _ _ r0 rfl
  · exact congrArg _ (congrArg (ix2 q) (Fin.ext r1.symm))
  · exact congrArg _ (congrArg ix1 (Fin.ext r1.symm))

/-- An index of the output table is in point `t`'s block iff each coordinate is in the block's range on its axis. -/
theorem mem_blk6 (t : Fin cfg6.N) (i : S100000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v81).slice (win6_5.rect t)).set ↔ _
  rw [View.set_slice_whole, Rect.mem_set_unit]
  exact Iff.rfl

/-- The 20 blocks of 5000 rows tile the 100000 rows: row `r` is in the block of point `r / 5000`, which writes back. -/
theorem cover6 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : cfg6.N = 20 := N_6
  obtain ⟨t, ht⟩ : ∃ t : Fin cfg6.N, t.val = (i 0).val / 5000 := ⟨⟨(i 0).val / 5000, by rw [hN]; omega⟩, rfl⟩
  refine ⟨t, flush6_5 t, ?_⟩
  rw [mem_blk6]
  obtain ⟨-, -, -, -, -, -, -, -, -, e0, e1⟩ := idx_facts6 t
  intro a
  match a with
  | ⟨0, _⟩ => show win6_5.index t (0 : Fin 2) * 5000 ≤ (i 0).val ∧ (i 0).val < win6_5.index t (0 : Fin 2) * 5000 + 5000; rw [e0, ht]; omega
  | ⟨1, _⟩ => show win6_5.index t (1 : Fin 2) * 64 ≤ (i 1).val ∧ (i 1).val < win6_5.index t (1 : Fin 2) * 64 + 64; rw [e1]; omega

/-- THE HIDDEN LAYER'S TABLE after the region: every block is written whole at its point and the blocks tile the table, so it
    holds `tanh ((Σ_q x[r,q] · wr[q,c] + s[r,c] · ic[r,0]) + b[c])` at every `(r, c)`, whatever it held before. -/
theorem hidden_postLayer_array (c : Dev nD) :
    ((dat6 (F := Ideal) V c).arrAt 5 cfg6.N : S100000x64.Idx → EReal)
      = Cert.Net.postLayer Ideal.tanh (V c (Pipeline.arrRef spec6 0) : S100000x128.Idx → EReal)
          (V c (Pipeline.arrRef spec6 1) : S100000x64.Idx → EReal) (V c (Pipeline.arrRef spec6 2) : S100000x1.Idx → EReal)
          (V c (Pipeline.arrRef spec6 3) : S128x64.Idx → EReal) (V c (Pipeline.arrRef spec6 4) : S64.Idx → EReal) :=
  (dat6 V c).arrAt_eq_of_cover 5 (hiddenLayer V c) (fun t _ => flushed6_eq V c t) cover6

end Cert.KernelIdeal.Regions

end
-- ==== Proof.LastPostLayerArray.lean ====
/-
  The last layer's output table, as one function of the tables the region is entered with.

  The region runs over 20 grid points; point `t` stages rows `5000 t … 5000 t + 4999` of the node features
  `x : [100000, 64]`, of the neighbour sums `s : [100000, 3]` and of the inverse counts `ic : [100000, 1]`, together
  with the whole root weight `wr : [64, 3]` and bias `b : [3]`, and writes back the same rows of the output
  `[100000, 3]`. The body's value on a block is `Cert.Net.postLayer` of the blocks with no activation (the payload
  module); the layer at a row reads only that row of `x`, `s`, `ic`, so block `t` of the output is block `t` of the
  layer over the whole tables; the 20 blocks tile the table, so after the region it IS that layer.
-/
import proofs.«102533_j14611478741197_2_alg».proof.Proof.Gen.KernelIdeal.Frame
import proofs.«102533_j14611478741197_2_alg».proof.Proof.PostLayerPayload
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at grid point `t`, decided over the 20 points: the three row-blocked inputs and the output sit at
    row block `t`, column block 0; the weight and the bias sit at block 0. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 1) = 0
    ∧ win8_5.index t (0 : Fin 2) = t.val ∧ win8_5.index t (1 : Fin 2) = 0 :=
  (by decide +kernel : ∀ t : Fin grid8.N, _)

/-- The block of node features at point `t`: entry `y` is the table's entry `k` of row `5000 t + y 0`, same column. -/
theorem iblk8_0_apply (c : Dev nD) (t : Fin cfg8.N) (y : S5000x64.Idx) (k : S100000x64.Idx)
    (hk0 : (k 0).val = t.val * 5000 + (y 0).val) (hk1 : (k 1).val = (y 1).val) :
    (iblk8 V c 0 t : Vec Ideal S5000x64 .f32) y = (V c (Pipeline.arrRef spec8 0) : S100000x64.Idx → EReal) k := by
  obtain ⟨e0, e1, -⟩ := idx_facts8 t
  unfold iblk8
  rw [View.read_apply]
  show V c (Pipeline.arrRef spec8 0) _ = V c (Pipeline.arrRef spec8 0) k
  congr 1
  funext a
  apply Fin.ext
  match a with
  | ⟨0, _⟩ => show win8_0.index t (0 : Fin 2) * 5000 + 1 * (y 0).val = (k 0).val; rw [e0, hk0]; omega
  | ⟨1, _⟩ => show win8_0.index t (1 : Fin 2) * 64 + 1 * (y 1).val = (k 1).val; rw [e1, hk1]; omega

/-- The block of neighbour sums at point `t`, likewise. -/
theorem iblk8_1_apply (c : Dev nD) (t : Fin cfg8.N) (y : S5000x3.Idx) (k : S100000x3.Idx)
    (hk0 : (k 0).val = t.val * 5000 + (y 0).val) (hk1 : (k 1).val = (y 1).val) :
    (iblk8 V c 1 t : Vec Ideal S5000x3 .f32) y = (V c (Pipeline.arrRef spec8 1) : S100000x3.Idx → EReal) k := by
  obtain ⟨-, -, e0, e1, -⟩ := idx_facts8 t
  unfold iblk8
  rw [View.read_apply]
  show V c (Pipeline.arrRef spec8 1) _ = V c (Pipeline.arrRef spec8 1) k
  congr 1
  funext a
  apply Fin.ext
  match a with
  | ⟨0, _⟩ => show win8_1.index t (0 : Fin 2) * 5000 + 1 * (y 0).val = (k 0).val; rw [e0, hk0]; omega
  | ⟨1, _⟩ => show win8_1.index t (1 : Fin 2) * 3 + 1 * (y 1).val = (k 1).val; rw [e1, hk1]; omega

/-- The block of the inverse-count column at point `t`, likewise. -/
theorem iblk8_2_apply (c : Dev nD) (t : Fin cfg8.N) (y : S5000x1.Idx) (k : S100000x1.Idx)
    (hk0 : (k 0).val = t.val * 5000 + (y 0).val) (hk1 : (k 1).val = (y 1).val) :
    (iblk8 V c 2 t : Vec Ideal S5000x1 .f32) y = (V c (Pipeline.arrRef spec8 2) : S100000x1.Idx → EReal) k := by
  obtain ⟨-, -, -, -, e0, e1, -⟩ := idx_facts8 t
  unfold iblk8
  rw [View.read_apply]
  show V c (Pipeline.arrRef spec8 2) _ = V c (Pipeline.arrRef spec8 2) k
  congr 1
  funext a
  apply Fin.ext
  match a with
  | ⟨0, _⟩ => show win8_2.index t (0 : Fin 2) * 5000 + 1 * (y 0).val = (k 0).val; rw [e0, hk0]; omega
  | ⟨1, _⟩ => show win8_2.index t (1 : Fin 2) * 1 + 1 * (y 1).val = (k 1).val; rw [e1, hk1]; omega

/-- The weight's one block is the whole weight, at every point. -/
theorem iblk8_3_eq (c : Dev nD) (t : Fin cfg8.N) :
    (iblk8 V c 3 t : Vec Ideal S64x3 .f32) = (V c (Pipeline.arrRef spec8 3) : S64x3.Idx → EReal) := by
  obtain ⟨-, -, -, -, -, -, e0, e1, -⟩ := idx_facts8 t
  funext y
  unfold iblk8
  rw [View.read_apply]
  show V c (Pipeline.arrRef spec8 3) _ = V c (Pipeline.arrRef spec8 3) y
  congr 1
  funext a
  apply Fin.ext
  match a with
  | ⟨0, _⟩ => show win8_3.index t (0 : Fin 2) * 64 + 1 * (y 0).val = (y 0).val; rw [e0]; omega
  | ⟨1, _⟩ => show win8_3.index t (1 : Fin 2) * 3 + 1 * (y 1).val = (y 1).val; rw [e1]; omega

/-- The bias's one block is the whole bias, at every point. -/
theorem iblk8_4_eq (c : Dev nD) (t : Fin cfg8.N) :
    (iblk8 V c 4 t : Vec Ideal S3 .f32) = (V c (Pipeline.arrRef spec8 4) : S3.Idx → EReal) := by
  obtain ⟨-, -, -, -, -, -, -, -, e0, -⟩ := idx_facts8 t
  funext y
  unfold iblk8
  rw [View.read_apply]
  show V c (Pipeline.arrRef spec8 4) _ = V c (Pipeline.arrRef spec8 4) y
  congr 1
  funext a
  apply Fin.ext
  match a with
  | ⟨0, _⟩ => show win8_4.index t (0 : Fin 1) * 3 + 1 * (y 0).val = (y 0).val; rw [e0]; omega

/-- The last layer over the whole tables the region is entered with: node features `[100000, 64]`, neighbour sums `[100000, 3]`,
    inverse counts `[100000, 1]`, root weight `[64, 3]`, bias `[3]`; no activation. -/
abbrev lastLayer (c : Dev nD) : S100000x3.Idx → EReal :=
  Cert.Net.postLayer (fun v => v) (V c (Pipeline.arrRef spec8 0) : S100000x64.Idx → EReal)
    (V c (Pipeline.arrRef spec8 1) : S100000x3.Idx → EReal) (V c (Pipeline.arrRef spec8 2) : S100000x1.Idx → EReal)
    (V c (Pipeline.arrRef spec8 3) : S64x3.Idx → EReal) (V c (Pipeline.arrRef spec8 4) : S3.Idx → EReal)

/-- What point `t` writes back is block `t` of the layer over the whole tables: the body's value at entry `(p, c)` of the
    block reads row `p` of the three row blocks, which are rows `5000 t + p` of the tables, and the layer at a row reads
    nothing else of them. -/
theorem flushed8_eq (c : Dev nD) (t : Fin cfg8.N) :
    (dat8 V c).flushed 5 t = ((cfg8.win 5).blk t).view.read (Elt Ideal) (lastLayer V c) := by
  show (cfg8.win 5).cut (grid8.coords t) ((dat8 V c).after 5 t) = _
  rw [after8_5]
  unfold out8_5
  rw [View.canon_unit_zero post_zero2]
  simp only [View.ld_unit_zero (S := S5000x3) post_zero2, View.ld_unit_zero (S := S5000x1) post_zero2,
    View.ld_unit_zero (S := S5000x64) post_zero2, View.ld_unit_zero (S := S64x3) post_zero2,
    View.ld_unit_zero (S := S3) post_zero1]
  rw [last_payload_eq, iblk8_3_eq, iblk8_4_eq]
  obtain ⟨-, -, -, -, -, -, -, -, -, e0, e1⟩ := idx_facts8 t
  funext j
  show Cert.Net.postLayer (fun v => v) (iblk8 V c 0 t) (iblk8 V c 1 t) (iblk8 V c 2 t)
      (V c (Pipeline.arrRef spec8 3) : S64x3.Idx → EReal) (V c (Pipeline.arrRef spec8 4) : S3.Idx → EReal) j
    = lastLayer V c (((cfg8.win 5).blk t).view.emb j)
  have r0 : ((((cfg8.win 5).blk t).view.emb j : S100000x3.Idx) 0).val = t.val * 5000 + (j 0).val := by
    show win8_5.index t (0 : Fin 2) * 5000 + 1 * (j 0).val = _; rw [e0]; omega
  have r1 : ((((cfg8.win 5).blk t).view.emb j : S100000x3.Idx) 1).val = (j 1).val := by
    show win8_5.index t (1 : Fin 2) * 3 + 1 * (j 1).val = _; rw [e1]; omega
  refine Cert.Net.postLayer_congr _ _ _ _ _ _ _ _ _ _ _ _ _ (fun q => ?_) ?_ ?_ (fun q => ?_) ?_
  · exact iblk8_0_apply V c t _ _ r0 rfl
  · exact iblk8_1_apply V c t _ _ r0 r1
  · exact iblk8_2_apply V c t _ _ r0 rfl
  · exact congrArg _ (congrArg (ix2 q) (Fin.ext r1.symm))
  · exact congrArg _ (congrArg ix1 (Fin.ext r1.symm))

/-- An index of the output table is in point `t`'s block iff each coordinate is in the block's range on its axis. -/
theorem mem_blk8 (t : Fin cfg8.N) (i : S100000x3.Idx) :
    i ∈ ((cfg8.win 5).blk t).view.set ↔ ∀ a : Fin 2, win8_5.index t a * S5000x3.size a ≤ (i a).val ∧ (i a).val < win8_5.index t a * S5000x3.size a + S5000x3.size a := by
  show i ∈ ((View.whole main_v95).slice (win8_5.rect t)).set ↔ _
  rw [View.set_slice_whole, Rect.mem_set_unit]
  exact Iff.rfl

/-- The 20 blocks of 5000 rows tile the 100000 rows: row `r` is in the block of point `r / 5000`, which writes back. -/
theorem cover8 (i : S100000x3.Idx) :
    ∃ t : Fin cfg8.N, (cfg8.win 5).flush t = true ∧ i ∈ ((cfg8.win 5).blk t).view.set := by
  have hi0 : (i 0).val < 100000 := (i 0).isLt
  have hi1 : (i 1).val < 3 := (i 1).isLt
  have hN : cfg8.N = 20 := N_8
  obtain ⟨t, ht⟩ : ∃ t : Fin cfg8.N, t.val = (i 0).val / 5000 := ⟨⟨(i 0).val / 5000, by rw [hN]; omega⟩, rfl⟩
  refine ⟨t, flush8_5 t, ?_⟩
  rw [mem_blk8]
  obtain ⟨-, -, -, -, -, -, -, -, -, e0, e1⟩ := idx_facts8 t
  intro a
  match a with
  | ⟨0, _⟩ => show win8_5.index t (0 : Fin 2) * 5000 ≤ (i 0).val ∧ (i 0).val < win8_5.index t (0 : Fin 2) * 5000 + 5000; rw [e0, ht]; omega
  | ⟨1, _⟩ => show win8_5.index t (1 : Fin 2) * 3 ≤ (i 1).val ∧ (i 1).val < win8_5.index t (1 : Fin 2) * 3 + 3; rw [e1]; omega

/-- THE LAST LAYER'S TABLE after the region: every block is written whole at its point and the blocks tile the table, so it
    holds `(Σ_q x[r,q] · wr[q,c] + s[r,c] · ic[r,0]) + b[c]` at every `(r, c)`, whatever it held before. -/
theorem last_postLayer_array (c : Dev nD) :
    ((dat8 (F := Ideal) V c).arrAt 5 cfg8.N : S100000x3.Idx → EReal)
      = Cert.Net.postLayer (fun v => v) (V c (Pipeline.arrRef spec8 0) : S100000x64.Idx → EReal)
          (V c (Pipeline.arrRef spec8 1) : S100000x3.Idx → EReal) (V c (Pipeline.arrRef spec8 2) : S100000x1.Idx → EReal)
          (V c (Pipeline.arrRef spec8 3) : S64x3.Idx → EReal) (V c (Pipeline.arrRef spec8 4) : S3.Idx → EReal) :=
  (dat8 V c).arrAt_eq_of_cover 5 (lastLayer V c) (fun t _ => flushed8_eq V c t) cover8

end Cert.KernelIdeal.Regions

end
-- ==== Proof.KernelChain.lean ====
/-
  The idealized kernel's buffers, boundary by boundary, as the network's functions of its parameters.

  `PK` is the record of parameters built from the 24 argument buffers of the launch memory. Reading @main in order:
  the first host stretch leaves the two rows of the edge list, the inverse-count column `ic` and the first neighbour
  sum; every later stretch that aggregates leaves the neighbour sum of the table the previous region wrote (a row
  gather at the wrapped source indices, scatter-added at the target indices into zeros) and the transposed weights the
  next region reads; every region leaves its layer of the arrays it finds. A buffer read later than it was written is
  carried back to the boundary where it was written (no segment in between writes it). Stage by stage this is the
  chain `sh1, sh2, sh3, scaledMu, so1, so2, sy3, so3, sy4, scaledOut` of the scaled order of operations.
-/
import proofs.«102533_j14611478741197_2_alg».proof.Proof.KernelKeep
import proofs.«102533_j14611478741197_2_alg».proof.Proof.ParamsOf
import proofs.«102533_j14611478741197_2_alg».proof.Proof.HostRead
import proofs.«102533_j14611478741197_2_alg».proof.Proof.LibHostWalk
import proofs.«102533_j14611478741197_2_alg».proof.Proof.ScaledLayerRegion0
import proofs.«102533_j14611478741197_2_alg».proof.Proof.ScaledLayerRegion1
import proofs.«102533_j14611478741197_2_alg».proof.Proof.ScaledLayerRegion2
import proofs.«102533_j14611478741197_2_alg».proof.Proof.ScaledLayerRegion4
import proofs.«102533_j14611478741197_2_alg».proof.Proof.RegionTransformDecode
import proofs.«102533_j14611478741197_2_alg».proof.Proof.RegionLinear128x64
import proofs.«102533_j14611478741197_2_alg».proof.Proof.RegionLinear64x3
import proofs.«102533_j14611478741197_2_alg».proof.Proof.HiddenPostLayerArray
import proofs.«102533_j14611478741197_2_alg».proof.Proof.LastPostLayerArray

set_option maxRecDepth 16384

noncomputable section

namespace Cert.KernelIdeal.Chain

open Cert.KernelIdeal Cert.KernelIdeal.Gen Cert.KernelIdeal.Regions Cert.HostWalk
open Idealize.ShloMosaic Idealize.ShloMosaic.TcCoe Idealize.ShloMosaic.StableHlo
open Cert.Net (Params)

variable (m : (ℓ : Loc nD τ sig) → Buf (Elt Ideal) ℓ) (ρ : Dev nD → PrngReg) (c : Dev nD)

/-- The network's parameters at launch. -/
abbrev PK : Params 100000 1600000 32 :=
  Net.paramsOf (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))
    (m ((c.tc : Thread nD τ).loc main_arg22))
    (m ((c.tc : Thread nD τ).loc main_arg23))

/-! ## The edge list's rows, the inverse-count column, the first neighbour sum -/

theorem src_at2 : W2 m ρ c (Proc.devRef .tc main_v1) = Net.edgeRow 0 slices_S2x1600000_S1x1600000_0_0 (m ((c.tc : Thread nD τ).loc main_arg1)) := by
  carry_back main_v1
  walk_back [hostOps0]
  rfl
theorem dst_at2 : W2 m ρ c (Proc.devRef .tc main_v3) = Net.edgeRow 1 slices_S2x1600000_S1x1600000_1_0 (m ((c.tc : Thread nD τ).loc main_arg1)) := by
  carry_back main_v3
  walk_back [hostOps0]
  rfl

theorem src_at4 : W4 m ρ c (Proc.devRef .tc main_v1) = Net.edgeRow 0 slices_S2x1600000_S1x1600000_0_0 (m ((c.tc : Thread nD τ).loc main_arg1)) := by
  carry_back main_v1
  walk_back [hostOps0]
  rfl
theorem dst_at4 : W4 m ρ c (Proc.devRef .tc main_v3) = Net.edgeRow 1 slices_S2x1600000_S1x1600000_1_0 (m ((c.tc : Thread nD τ).loc main_arg1)) := by
  carry_back main_v3
  walk_back [hostOps0]
  rfl

theorem src_at8 : W8 m ρ c (Proc.devRef .tc main_v1) = Net.edgeRow 0 slices_S2x1600000_S1x1600000_0_0 (m ((c.tc : Thread nD τ).loc main_arg1)) := by
  carry_back main_v1
  walk_back [hostOps0]
  rfl
theorem dst_at8 : W8 m ρ c (Proc.devRef .tc main_v3) = Net.edgeRow 1 slices_S2x1600000_S1x1600000_1_0 (m ((c.tc : Thread nD τ).loc main_arg1)) := by
  carry_back main_v3
  walk_back [hostOps0]
  rfl

theorem src_at12 : W12 m ρ c (Proc.devRef .tc main_v1) = Net.edgeRow 0 slices_S2x1600000_S1x1600000_0_0 (m ((c.tc : Thread nD τ).loc main_arg1)) := by
  carry_back main_v1
  walk_back [hostOps0]
  rfl
theorem dst_at12 : W12 m ρ c (Proc.devRef .tc main_v3) = Net.edgeRow 1 slices_S2x1600000_S1x1600000_1_0 (m ((c.tc : Thread nD τ).loc main_arg1)) := by
  carry_back main_v3
  walk_back [hostOps0]
  rfl

theorem src_at16 : W16 m ρ c (Proc.devRef .tc main_v1) = Net.edgeRow 0 slices_S2x1600000_S1x1600000_0_0 (m ((c.tc : Thread nD τ).loc main_arg1)) := by
  carry_back main_v1
  walk_back [hostOps0]
  rfl
theorem dst_at16 : W16 m ρ c (Proc.devRef .tc main_v3) = Net.edgeRow 1 slices_S2x1600000_S1x1600000_1_0 (m ((c.tc : Thread nD τ).loc main_arg1)) := by
  carry_back main_v3
  walk_back [hostOps0]
  rfl

/-- The inverse clamped in-degree column, as the first stretch leaves it. -/
theorem ic_at1 : W1 m ρ c (Proc.devRef .tc main_v12) = (PK m c).ic := by
  show StableHlo.after hostOps0 (W0 m ρ c) (Proc.devRef .tc main_v12) = _
  walk_back [hostOps0]
  exact Net.invCol_read (by norm_num) ⟨rfl, rfl, rfl, rfl⟩ _ _ _ _
theorem ic_at3 : W3 m ρ c (Proc.devRef .tc main_v12) = (PK m c).ic := by
  carry_back main_v12
  exact ic_at1 m ρ c
theorem ic_at5 : W5 m ρ c (Proc.devRef .tc main_v12) = (PK m c).ic := by
  carry_back main_v12
  exact ic_at1 m ρ c
theorem ic_at9 : W9 m ρ c (Proc.devRef .tc main_v12) = (PK m c).ic := by
  carry_back main_v12
  exact ic_at1 m ρ c
theorem ic_at13 : W13 m ρ c (Proc.devRef .tc main_v12) = (PK m c).ic := by
  carry_back main_v12
  exact ic_at1 m ρ c
theorem ic_at17 : W17 m ρ c (Proc.devRef .tc main_v12) = (PK m c).ic := by
  carry_back main_v12
  exact ic_at1 m ρ c

/-- The first neighbour sum: of the node features. -/
theorem s1_at : W1 m ρ c (Proc.devRef .tc main_v22) = (PK m c).nsum (PK m c).x := by
  show StableHlo.after hostOps0 (W0 m ρ c) (Proc.devRef .tc main_v22) = _
  walk_back [hostOps0]
  exact Net.agg_read (PK m c).hN ⟨rfl, rfl, rfl, rfl, rfl, rfl, rfl⟩ ⟨rfl, rfl, rfl, rfl⟩ _ _ _ _

/-! ## The three encoder layers -/

theorem h1_at : W2 m ρ c (Proc.devRef .tc main_v25) = (PK m c).sh1 := by
  have e0 : W1 m ρ c (Proc.devRef .tc main_arg0) = m ((c.tc : Thread nD τ).loc main_arg0) := by carry_back main_arg0
  have e3 : W1 m ρ c (Proc.devRef .tc main_v23) = (PK m c).w1l := by
    show StableHlo.after hostOps0 (W0 m ρ c) (Proc.devRef .tc main_v23) = _
    walk_back [hostOps0]; rfl
  have e4 : W1 m ρ c (Proc.devRef .tc main_v24) = (PK m c).w1r := by
    show StableHlo.after hostOps0 (W0 m ρ c) (Proc.devRef .tc main_v24) = _
    walk_back [hostOps0]; rfl
  have e5 : W1 m ρ c (Proc.devRef .tc main_arg3) = m ((c.tc : Thread nD τ).loc main_arg3) := by carry_back main_arg3
  rw [show W2 m ρ c (Proc.devRef .tc main_v25) = (dat0 (V1 m ρ) c).arrAt 6 cfg0.N from W2_arr m ρ c 6, region0_array (V1 m ρ) c]
  show Net.scaledLayer Ideal.tanh (W1 m ρ c (Proc.devRef .tc main_arg0)) (W1 m ρ c (Proc.devRef .tc main_v22)) (W1 m ρ c (Proc.devRef .tc main_v12))
      (W1 m ρ c (Proc.devRef .tc main_v23)) (W1 m ρ c (Proc.devRef .tc main_v24)) (W1 m ρ c (Proc.devRef .tc main_arg3)) = _
  rw [e0, s1_at m ρ c, ic_at1 m ρ c, e3, e4, e5]
  rfl

/-- The neighbour sum that stretch 1 computes of the table region 0 left. -/
theorem s2_at : W3 m ρ c (Proc.devRef .tc main_v35) = (PK m c).nsum (PK m c).sh1 := by
  have es : W2 m ρ c (Proc.devRef .tc main_v1) = Net.edgeRow 0 slices_S2x1600000_S1x1600000_0_0 (m ((c.tc : Thread nD τ).loc main_arg1)) := src_at2 m ρ c
  have ed : W2 m ρ c (Proc.devRef .tc main_v3) = Net.edgeRow 1 slices_S2x1600000_S1x1600000_1_0 (m ((c.tc : Thread nD τ).loc main_arg1)) := dst_at2 m ρ c
  have et : W2 m ρ c (Proc.devRef .tc main_v25) = (PK m c).sh1 := h1_at m ρ c
  show StableHlo.after hostOps1 (W2 m ρ c) (Proc.devRef .tc main_v35) = _
  walk_back [hostOps1]
  rw [es, ed, et]
  exact Net.agg_read (PK m c).hN ⟨rfl, rfl, rfl, rfl, rfl, rfl, rfl⟩ ⟨rfl, rfl, rfl, rfl⟩ _ _ _ _

theorem h2_at : W4 m ρ c (Proc.devRef .tc main_v38) = (PK m c).sh2 := by
  have e0 : W3 m ρ c (Proc.devRef .tc main_v25) = (PK m c).sh1 := by carry_back main_v25; exact h1_at m ρ c
  have e3 : W3 m ρ c (Proc.devRef .tc main_v36) = (PK m c).w2l := by
    have ea : W2 m ρ c (Proc.devRef .tc main_arg5) = m ((c.tc : Thread nD τ).loc main_arg5) := by carry_back main_arg5
    show StableHlo.after hostOps1 (W2 m ρ c) (Proc.devRef .tc main_v36) = _
    walk_back [hostOps1]; rw [ea]; rfl
  have e4 : W3 m ρ c (Proc.devRef .tc main_v37) = (PK m c).w2r := by
    have ea : W2 m ρ c (Proc.devRef .tc main_arg7) = m ((c.tc : Thread nD τ).loc main_arg7) := by carry_back main_arg7
    show StableHlo.after hostOps1 (W2 m ρ c) (Proc.devRef .tc main_v37) = _
    walk_back [hostOps1]; rw [ea]; rfl
  have e5 : W3 m ρ c (Proc.devRef .tc main_arg6) = m ((c.tc : Thread nD τ).loc main_arg6) := by carry_back main_arg6
  rw [show W4 m ρ c (Proc.devRef .tc main_v38) = (dat1 (V3 m ρ) c).arrAt 6 cfg1.N from W4_arr m ρ c 6, region1_array (V3 m ρ) c]
  show Net.scaledLayer Ideal.tanh (W3 m ρ c (Proc.devRef .tc main_v25)) (W3 m ρ c (Proc.devRef .tc main_v35)) (W3 m ρ c (Proc.devRef .tc main_v12))
      (W3 m ρ c (Proc.devRef .tc main_v36)) (W3 m ρ c (Proc.devRef .tc main_v37)) (W3 m ρ c (Proc.devRef .tc main_arg6)) = _
  rw [e0, s2_at m ρ c, ic_at3 m ρ c, e3, e4, e5]
  rfl

/-- The neighbour sum that stretch 2 computes of the table region 1 left. -/
theorem s3_at : W5 m ρ c (Proc.devRef .tc main_v48) = (PK m c).nsum (PK m c).sh2 := by
  have es : W4 m ρ c (Proc.devRef .tc main_v1) = Net.edgeRow 0 slices_S2x1600000_S1x1600000_0_0 (m ((c.tc : Thread nD τ).loc main_arg1)) := src_at4 m ρ c
  have ed : W4 m ρ c (Proc.devRef .tc main_v3) = Net.edgeRow 1 slices_S2x1600000_S1x1600000_1_0 (m ((c.tc : Thread nD τ).loc main_arg1)) := dst_at4 m ρ c
  have et : W4 m ρ c (Proc.devRef .tc main_v38) = (PK m c).sh2 := h2_at m ρ c
  show StableHlo.after hostOps2 (W4 m ρ c) (Proc.devRef .tc main_v48) = _
  walk_back [hostOps2]
  rw [es, ed, et]
  exact Net.agg_read (PK m c).hN ⟨rfl, rfl, rfl, rfl, rfl, rfl, rfl⟩ ⟨rfl, rfl, rfl, rfl⟩ _ _ _ _

theorem h3_at : W6 m ρ c (Proc.devRef .tc main_v51) = (PK m c).sh3 := by
  have e0 : W5 m ρ c (Proc.devRef .tc main_v38) = (PK m c).sh2 := by carry_back main_v38; exact h2_at m ρ c
  have e3 : W5 m ρ c (Proc.devRef .tc main_v49) = (PK m c).w3l := by
    have ea : W4 m ρ c (Proc.devRef .tc main_arg8) = m ((c.tc : Thread nD τ).loc main_arg8) := by carry_back main_arg8
    show StableHlo.after hostOps2 (W4 m ρ c) (Proc.devRef .tc main_v49) = _
    walk_back [hostOps2]; rw [ea]; rfl
  have e4 : W5 m ρ c (Proc.devRef .tc main_v50) = (PK m c).w3r := by
    have ea : W4 m ρ c (Proc.devRef .tc main_arg10) = m ((c.tc : Thread nD τ).loc main_arg10) := by carry_back main_arg10
    show StableHlo.after hostOps2 (W4 m ρ c) (Proc.devRef .tc main_v50) = _
    walk_back [hostOps2]; rw [ea]; rfl
  have e5 : W5 m ρ c (Proc.devRef .tc main_arg9) = m ((c.tc : Thread nD τ).loc main_arg9) := by carry_back main_arg9
  rw [show W6 m ρ c (Proc.devRef .tc main_v51) = (dat2 (V5 m ρ) c).arrAt 6 cfg2.N from W6_arr m ρ c 6, region2_array (V5 m ρ) c]
  show Net.scaledLayer Ideal.tanh (W5 m ρ c (Proc.devRef .tc main_v38)) (W5 m ρ c (Proc.devRef .tc main_v48)) (W5 m ρ c (Proc.devRef .tc main_v12))
      (W5 m ρ c (Proc.devRef .tc main_v49)) (W5 m ρ c (Proc.devRef .tc main_v50)) (W5 m ρ c (Proc.devRef .tc main_arg9)) = _
  rw [e0, s3_at m ρ c, ic_at5 m ρ c, e3, e4, e5]
  rfl

/-! ## The latent layer and the first decoder layer (one region, two outputs) -/

theorem region3_inputs :
    W7 m ρ c (Proc.devRef .tc main_v51) = (PK m c).sh3 ∧ W7 m ρ c (Proc.devRef .tc main_v52) = (PK m c).wt ∧ W7 m ρ c (Proc.devRef .tc main_arg12) = m ((c.tc : Thread nD τ).loc main_arg12)
      ∧ W7 m ρ c (Proc.devRef .tc main_v53) = (PK m c).wd ∧ W7 m ρ c (Proc.devRef .tc main_arg14) = m ((c.tc : Thread nD τ).loc main_arg14) := by
  refine ⟨?_, ?_, ?_, ?_, ?_⟩
  · carry_back main_v51; exact h3_at m ρ c
  · have ea : W6 m ρ c (Proc.devRef .tc main_arg11) = m ((c.tc : Thread nD τ).loc main_arg11) := by carry_back main_arg11
    show StableHlo.after hostOps3 (W6 m ρ c) (Proc.devRef .tc main_v52) = _
    walk_back [hostOps3]; rw [ea]; rfl
  · carry_back main_arg12
  · have ea : W6 m ρ c (Proc.devRef .tc main_arg13) = m ((c.tc : Thread nD τ).loc main_arg13) := by carry_back main_arg13
    show StableHlo.after hostOps3 (W6 m ρ c) (Proc.devRef .tc main_v53) = _
    walk_back [hostOps3]; rw [ea]; rfl
  · carry_back main_arg14

theorem mu_at8 : W8 m ρ c (Proc.devRef .tc main_v54_0) = (PK m c).scaledMu := by
  obtain ⟨e0, e1, e2, e3, e4⟩ := region3_inputs m ρ c
  rw [show W8 m ρ c (Proc.devRef .tc main_v54_0) = (dat3 (V7 m ρ) c).arrAt 5 cfg3.N from W8_arr m ρ c 5, transformDecode_latent_array (V7 m ρ) c]
  show Net.biased (W7 m ρ c (Proc.devRef .tc main_v51)) (W7 m ρ c (Proc.devRef .tc main_v52)) (W7 m ρ c (Proc.devRef .tc main_arg12)) = _
  rw [e0, e1, e2]
  rfl

theorem o1_at : W8 m ρ c (Proc.devRef .tc main_v54_1) = (PK m c).so1 := by
  obtain ⟨e0, e1, e2, e3, e4⟩ := region3_inputs m ρ c
  rw [show W8 m ρ c (Proc.devRef .tc main_v54_1) = (dat3 (V7 m ρ) c).arrAt 6 cfg3.N from W8_arr m ρ c 6, transformDecode_decoded_array (V7 m ρ) c]
  show (fun j => Net.leaky (Ideal.ofBits .f32 0x00000000#32) (Ideal.ofBits .f32 0x3C23D70A#32)
      (Net.biased (Net.biased (W7 m ρ c (Proc.devRef .tc main_v51)) (W7 m ρ c (Proc.devRef .tc main_v52)) (W7 m ρ c (Proc.devRef .tc main_arg12)))
        (W7 m ρ c (Proc.devRef .tc main_v53)) (W7 m ρ c (Proc.devRef .tc main_arg14)) j)) = _
  rw [e0, e1, e2, e3, e4]
  rfl

/-! ## The second decoder layer -/

/-- The neighbour sum that stretch 4 computes of the table region 3 left. -/
theorem s4_at : W9 m ρ c (Proc.devRef .tc main_v64) = (PK m c).nsum (PK m c).so1 := by
  have es : W8 m ρ c (Proc.devRef .tc main_v1) = Net.edgeRow 0 slices_S2x1600000_S1x1600000_0_0 (m ((c.tc : Thread nD τ).loc main_arg1)) := src_at8 m ρ c
  have ed : W8 m ρ c (Proc.devRef .tc main_v3) = Net.edgeRow 1 slices_S2x1600000_S1x1600000_1_0 (m ((c.tc : Thread nD τ).loc main_arg1)) := dst_at8 m ρ c
  have et : W8 m ρ c (Proc.devRef .tc main_v54_1) = (PK m c).so1 := o1_at m ρ c
  show StableHlo.after hostOps4 (W8 m ρ c) (Proc.devRef .tc main_v64) = _
  walk_back [hostOps4]
  rw [es, ed, et]
  exact Net.agg_read (PK m c).hN ⟨rfl, rfl, rfl, rfl, rfl, rfl, rfl⟩ ⟨rfl, rfl, rfl, rfl⟩ _ _ _ _

theorem o2_at : W10 m ρ c (Proc.devRef .tc main_v67) = (PK m c).so2 := by
  have e0 : W9 m ρ c (Proc.devRef .tc main_v54_1) = (PK m c).so1 := by carry_back main_v54_1; exact o1_at m ρ c
  have e3 : W9 m ρ c (Proc.devRef .tc main_v65) = (PK m c).w4l := by
    have ea : W8 m ρ c (Proc.devRef .tc main_arg15) = m ((c.tc : Thread nD τ).loc main_arg15) := by carry_back main_arg15
    show StableHlo.after hostOps4 (W8 m ρ c) (Proc.devRef .tc main_v65) = _
    walk_back [hostOps4]; rw [ea]; rfl
  have e4 : W9 m ρ c (Proc.devRef .tc main_v66) = (PK m c).w4r := by
    have ea : W8 m ρ c (Proc.devRef .tc main_arg17) = m ((c.tc : Thread nD τ).loc main_arg17) := by carry_back main_arg17
    show StableHlo.after hostOps4 (W8 m ρ c) (Proc.devRef .tc main_v66) = _
    walk_back [hostOps4]; rw [ea]; rfl
  have e5 : W9 m ρ c (Proc.devRef .tc main_arg16) = m ((c.tc : Thread nD τ).loc main_arg16) := by carry_back main_arg16
  rw [show W10 m ρ c (Proc.devRef .tc main_v67) = (dat4 (V9 m ρ) c).arrAt 6 cfg4.N from W10_arr m ρ c 6, region4_array (V9 m ρ) c]
  show Net.scaledLayer (Net.leaky (Ideal.ofBits .f32 0x00000000#32) (Ideal.ofBits .f32 0x3C23D70A#32))
      (W9 m ρ c (Proc.devRef .tc main_v54_1)) (W9 m ρ c (Proc.devRef .tc main_v64)) (W9 m ρ c (Proc.devRef .tc main_v12))
      (W9 m ρ c (Proc.devRef .tc main_v65)) (W9 m ρ c (Proc.devRef .tc main_v66)) (W9 m ρ c (Proc.devRef .tc main_arg16)) = _
  rw [e0, s4_at m ρ c, ic_at9 m ρ c, e3, e4, e5]
  rfl

/-! ## The third decoder layer: left weight first, then the neighbour sum -/

theorem y3_at : W12 m ρ c (Proc.devRef .tc main_v69) = (PK m c).sy3 := by
  have e0 : W11 m ρ c (Proc.devRef .tc main_v67) = (PK m c).so2 := by carry_back main_v67; exact o2_at m ρ c
  have e1 : W11 m ρ c (Proc.devRef .tc main_v68) = (PK m c).w5l := by
    have ea : W10 m ρ c (Proc.devRef .tc main_arg18) = m ((c.tc : Thread nD τ).loc main_arg18) := by carry_back main_arg18
    show StableHlo.after hostOps5 (W10 m ρ c) (Proc.devRef .tc main_v68) = _
    walk_back [hostOps5]; rw [ea]; rfl
  rw [show W12 m ρ c (Proc.devRef .tc main_v69) = (dat5 (V11 m ρ) c).arrAt 2 cfg5.N from W12_arr m ρ c 2, linear128x64_array (V11 m ρ) c]
  show Net.dense (W11 m ρ c (Proc.devRef .tc main_v67)) (W11 m ρ c (Proc.devRef .tc main_v68)) = _
  rw [e0, e1]
  rfl

/-- The neighbour sum that stretch 6 computes of the table region 5 left. -/
theorem s5_at : W13 m ρ c (Proc.devRef .tc main_v79) = (PK m c).nsum (PK m c).sy3 := by
  have es : W12 m ρ c (Proc.devRef .tc main_v1) = Net.edgeRow 0 slices_S2x1600000_S1x1600000_0_0 (m ((c.tc : Thread nD τ).loc main_arg1)) := src_at12 m ρ c
  have ed : W12 m ρ c (Proc.devRef .tc main_v3) = Net.edgeRow 1 slices_S2x1600000_S1x1600000_1_0 (m ((c.tc : Thread nD τ).loc main_arg1)) := dst_at12 m ρ c
  have et : W12 m ρ c (Proc.devRef .tc main_v69) = (PK m c).sy3 := y3_at m ρ c
  show StableHlo.after hostOps6 (W12 m ρ c) (Proc.devRef .tc main_v79) = _
  walk_back [hostOps6]
  rw [es, ed, et]
  exact Net.agg_read (PK m c).hN ⟨rfl, rfl, rfl, rfl, rfl, rfl, rfl⟩ ⟨rfl, rfl, rfl, rfl⟩ _ _ _ _

theorem o3_at : W14 m ρ c (Proc.devRef .tc main_v81) = (PK m c).so3 := by
  have e0 : W13 m ρ c (Proc.devRef .tc main_v67) = (PK m c).so2 := by carry_back main_v67; exact o2_at m ρ c
  have e3 : W13 m ρ c (Proc.devRef .tc main_v80) = (PK m c).w5r := by
    have ea : W12 m ρ c (Proc.devRef .tc main_arg20) = m ((c.tc : Thread nD τ).loc main_arg20) := by carry_back main_arg20
    show StableHlo.after hostOps6 (W12 m ρ c) (Proc.devRef .tc main_v80) = _
    walk_back [hostOps6]; rw [ea]; rfl
  have e4 : W13 m ρ c (Proc.devRef .tc main_arg19) = m ((c.tc : Thread nD τ).loc main_arg19) := by carry_back main_arg19
  rw [show W14 m ρ c (Proc.devRef .tc main_v81) = (dat6 (V13 m ρ) c).arrAt 5 cfg6.N from W14_arr m ρ c 5, hidden_postLayer_array (V13 m ρ) c]
  show Net.postLayer Ideal.tanh (W13 m ρ c (Proc.devRef .tc main_v67)) (W13 m ρ c (Proc.devRef .tc main_v79)) (W13 m ρ c (Proc.devRef .tc main_v12))
      (W13 m ρ c (Proc.devRef .tc main_v80)) (W13 m ρ c (Proc.devRef .tc main_arg19)) = _
  rw [e0, s5_at m ρ c, ic_at13 m ρ c, e3, e4]
  rfl

/-! ## The last layer -/

theorem y4_at : W16 m ρ c (Proc.devRef .tc main_v83) = (PK m c).sy4 := by
  have e0 : W15 m ρ c (Proc.devRef .tc main_v81) = (PK m c).so3 := by carry_back main_v81; exact o3_at m ρ c
  have e1 : W15 m ρ c (Proc.devRef .tc main_v82) = (PK m c).w6l := by
    have ea : W14 m ρ c (Proc.devRef .tc main_arg21) = m ((c.tc : Thread nD τ).loc main_arg21) := by carry_back main_arg21
    show StableHlo.after hostOps7 (W14 m ρ c) (Proc.devRef .tc main_v82) = _
    walk_back [hostOps7]; rw [ea]; rfl
  rw [show W16 m ρ c (Proc.devRef .tc main_v83) = (dat7 (V15 m ρ) c).arrAt 2 cfg7.N from W16_arr m ρ c 2, linear64x3_array (V15 m ρ) c]
  show Net.dense (W15 m ρ c (Proc.devRef .tc main_v81)) (W15 m ρ c (Proc.devRef .tc main_v82)) = _
  rw [e0, e1]
  rfl

/-- The neighbour sum that stretch 8 computes of the table region 7 left. -/
theorem s6_at : W17 m ρ c (Proc.devRef .tc main_v93) = (PK m c).nsum (PK m c).sy4 := by
  have es : W16 m ρ c (Proc.devRef .tc main_v1) = Net.edgeRow 0 slices_S2x1600000_S1x1600000_0_0 (m ((c.tc : Thread nD τ).loc main_arg1)) := src_at16 m ρ c
  have ed : W16 m ρ c (Proc.devRef .tc main_v3) = Net.edgeRow 1 slices_S2x1600000_S1x1600000_1_0 (m ((c.tc : Thread nD τ).loc main_arg1)) := dst_at16 m ρ c
  have et : W16 m ρ c (Proc.devRef .tc main_v83) = (PK m c).sy4 := y4_at m ρ c
  show StableHlo.after hostOps8 (W16 m ρ c) (Proc.devRef .tc main_v93) = _
  walk_back [hostOps8]
  rw [es, ed, et]
  exact Net.agg_read (PK m c).hN ⟨rfl, rfl, rfl, rfl, rfl, rfl, rfl⟩ ⟨rfl, rfl, rfl, rfl⟩ _ _ _ _

theorem out_at : W18 m ρ c (Proc.devRef .tc main_v95) = (PK m c).scaledOut := by
  have e0 : W17 m ρ c (Proc.devRef .tc main_v81) = (PK m c).so3 := by carry_back main_v81; exact o3_at m ρ c
  have e3 : W17 m ρ c (Proc.devRef .tc main_v94) = (PK m c).w6r := by
    have ea : W16 m ρ c (Proc.devRef .tc main_arg23) = m ((c.tc : Thread nD τ).loc main_arg23) := by carry_back main_arg23
    show StableHlo.after hostOps8 (W16 m ρ c) (Proc.devRef .tc main_v94) = _
    walk_back [hostOps8]; rw [ea]; rfl
  have e4 : W17 m ρ c (Proc.devRef .tc main_arg22) = m ((c.tc : Thread nD τ).loc main_arg22) := by carry_back main_arg22
  rw [show W18 m ρ c (Proc.devRef .tc main_v95) = (dat8 (V17 m ρ) c).arrAt 5 cfg8.N from W18_arr m ρ c 5, last_postLayer_array (V17 m ρ) c]
  show Net.postLayer (fun v => v) (W17 m ρ c (Proc.devRef .tc main_v81)) (W17 m ρ c (Proc.devRef .tc main_v93)) (W17 m ρ c (Proc.devRef .tc main_v12))
      (W17 m ρ c (Proc.devRef .tc main_v94)) (W17 m ρ c (Proc.devRef .tc main_arg22)) = _
  rw [e0, s6_at m ρ c, ic_at17 m ρ c, e3, e4]
  rfl

/-! ## The three result buffers at the last boundary -/

/-- The latent result: nothing after region 3 writes it. -/
theorem mu_final : W19 m ρ c (Proc.devRef .tc main_v54_0) = (PK m c).scaledMu := by
  carry_back main_v54_0
  exact mu_at8 m ρ c

/-- The first result: the first two columns of the last layer. -/
theorem out2_final : W19 m ρ c (Proc.devRef .tc main_v96)
    = extractStridedSlice S100000x2 ![0, 0] (PK m c).scaledOut slices_S100000x3_S100000x2_0_0 := by
  show StableHlo.after hostOps9 (W18 m ρ c) (Proc.devRef .tc main_v96) = _
  walk_back [hostOps9]
  rw [out_at m ρ c]

/-- The second result: the third column of the last layer, as a vector. -/
theorem out1_final : W19 m ρ c (Proc.devRef .tc main_v98)
    = shapeCast S100000 (extractStridedSlice S100000x1 ![0, 2] (PK m c).scaledOut slices_S100000x3_S100000x1_0_2) shapeCasts_S100000x1_S100000 := by
  show StableHlo.after hostOps9 (W18 m ρ c) (Proc.devRef .tc main_v98) = _
  walk_back [hostOps9]
  rw [out_at m ρ c]
  rfl

end Cert.KernelIdeal.Chain

end
-- ==== Proof.RefStages.lean ====
/-
  The reference program run in ten consecutive segments, each read on its own.

  @main of the reference is a straight line of 227 host operations. It is cut after the operations that write the two
  rows of the edge list, after each of the six graph-convolution layers, after the linear map to the latent table,
  after the slope rectifier that follows the map back, and at the end. What the buffers hold after a prefix of the
  line is what they hold after its last segment, run from what they held before it; a buffer that no operation of a
  segment writes keeps its contents across it. Segment by segment: the rows of the edge list; then the layers
  `dh1, dh2, dh3`, the latent table `dividedMu`, `do1, do2, do3` and `dividedOut` of the order of operations that
  divides each neighbour sum by the clamped in-degree — each segment's reads being the rows, the table the segment
  before left, and argument buffers nothing has written —; last, the two results cut from `dividedOut`.
-/
import proofs.«102533_j14611478741197_2_alg».proof.Proof.RefOps
import proofs.«102533_j14611478741197_2_alg».proof.Proof.ParamsOf
import proofs.«102533_j14611478741197_2_alg».proof.Proof.HostRead
import proofs.«102533_j14611478741197_2_alg».proof.Proof.LibHostWalk

set_option maxRecDepth 16384

noncomputable section

open scoped BigOperators

namespace Cert.ReferenceIdeal.Stages

open Cert.ReferenceIdeal Cert.ReferenceIdeal.Gen Cert.HostWalk
open Idealize.ShloMosaic Idealize.ShloMosaic.TcCoe Idealize.ShloMosaic.ValueIdx Idealize.SL.Sem Idealize.ShloMosaic.StableHlo
open Cert.Net (Params Mat Vc ICol dense rowDiv dividedLayer agg mxCol leaky)

/-! ## The layer forms, for any extents -/

section General

variable {N E C K w : Nat}

/-- What a layer that divides its neighbour sum applies its activation to. -/
def dividedPre (x s : Mat N K) (mx : Mat N 1) (wl wr : Mat K C) (b : Vc C) : Mat N C :=
  fun j => (dense (rowDiv s mx) wl j + b (ix1 (j 1))) + dense x wr j

/-- The layer is its activation after `dividedPre`. -/
theorem dividedLayer_eq (act : EReal → EReal) (x s : Mat N K) (mx : Mat N 1) (wl wr : Mat K C) (b : Vc C) :
    dividedLayer act x s mx wl wr b = fun j => act (dividedPre x s mx wl wr b j) := rfl

/-- The host operations of a layer from its table `t` up to its activation — the rows of `t` gathered at `S` and
    scatter-added at `D` into zeros, divided by the clamped count of the edges landing on each row, through the left
    weight, plus the bias row, plus `t` through the right weight — as one array. -/
theorem convPre_read (hN : 0 < N) (hN1 : N ≠ 1) (hC1 : C ≠ 1)
    {g : GatherDims ⟨2, ![N, K]⟩ ⟨2, ![E, 1]⟩ ⟨2, ![E, K]⟩} (hg : RowGS.IsRowGather g)
    {d : ScatterDims ⟨2, ![N, K]⟩ ⟨2, ![E, 1]⟩ ⟨2, ![E, K]⟩} (hd : RowGS.IsRowScatter d)
    {d1 : ScatterDims ⟨2, ![N, 1]⟩ ⟨2, ![E, 1]⟩ ⟨2, ![E, 1]⟩} (hd1 : RowGS.IsRowScatter d1)
    {dl dr : DotDims ⟨2, ![N, K]⟩ ⟨2, ![K, C]⟩ ⟨2, ![N, C]⟩} (hdl : PlainDot.IsPlain dl) (hdr : PlainDot.IsPlain dr)
    {hz : (⟨0, ![]⟩ : Shape).BroadcastsInDim ⟨2, ![N, K]⟩ ![]}
    {hz1 : (⟨0, ![]⟩ : Shape).BroadcastsInDim ⟨2, ![N, 1]⟩ ![]}
    {ho : (⟨0, ![]⟩ : Shape).BroadcastsInDim ⟨2, ![E, 1]⟩ ![]}
    {hm : (⟨2, ![N, 1]⟩ : Shape).BroadcastsInDim ⟨2, ![N, K]⟩ ![0, 1]}
    {hb1 : (⟨1, ![C]⟩ : Shape).BroadcastsInDim ⟨2, ![1, C]⟩ ![1]}
    {hb2 : (⟨2, ![1, C]⟩ : Shape).BroadcastsInDim ⟨2, ![N, C]⟩ ![0, 1]}
    (t : Mat N K) (S D : ICol E w) (wl wr : Mat K C) (b : Vc C) :
    addf (F := Ideal) (φ := .f32)
        (addf (F := Ideal) (φ := .f32)
          (Host.dotGeneral dl none (φ₁ := .f32) (φ₂ := .f32)
            (Host.divf (F := Ideal) (φ := .f32)
              (Host.scatterAdd d (broadcastInDim ⟨2, ![N, K]⟩ ![] hz (constant (F := Ideal) ⟨0, ![]⟩ .f32 0x00000000#32)) D
                (Host.gather g t S))
              (broadcastInDim ⟨2, ![N, K]⟩ ![0, 1] hm
                (maximumf
                  (Host.scatterAdd d1 (broadcastInDim ⟨2, ![N, 1]⟩ ![] hz1 (constant (F := Ideal) ⟨0, ![]⟩ .f32 0x00000000#32)) D
                    (broadcastInDim ⟨2, ![E, 1]⟩ ![] ho (constant (F := Ideal) ⟨0, ![]⟩ .f32 0x3F800000#32)))
                  (broadcastInDim ⟨2, ![N, 1]⟩ ![] hz1 (constant (F := Ideal) ⟨0, ![]⟩ .f32 0x3F800000#32)))))
            wl)
          (broadcastInDim ⟨2, ![N, C]⟩ ![0, 1] hb2 (broadcastInDim ⟨2, ![1, C]⟩ ![1] hb1 b)))
        (Host.dotGeneral dr none (φ₁ := .f32) (φ₂ := .f32) t wr)
      = dividedPre t (agg hN S D t) (mxCol D) wl wr b := by
  rw [Net.agg_read hN hg hd hz t S D, Net.mxCol_read hd1 hz1 ho D]
  exact funext fun j => Net.dividedPre_read hN1 hC1 hdl hdr hm hb1 hb2 t (agg hN S D t) (mxCol D) wl wr b j

/-- The host's hyperbolic tangent of an array, entry by entry. -/
theorem tanh_host {s : Shape} (f : FVec Ideal s .f32) : Host.tanh f = fun j => Ideal.tanh (f j) := rfl

/-- The slope rectifier as the host writes it — compare with a zero array, multiply by a slope array, select — at
    one entry. The constants are the words of `0.0` and of the single-precision `0.01`. -/
theorem rect_read {s : Shape} (hz : (⟨0, ![]⟩ : Shape).BroadcastsInDim s ![]) (v : FVec Ideal s .f32) (j : s.Idx) :
    select (cmpf .ogt v (broadcastInDim s ![] hz (constant (F := Ideal) ⟨0, ![]⟩ .f32 0x00000000#32))) v
        (mulf (broadcastInDim s ![] hz (constant (F := Ideal) ⟨0, ![]⟩ .f32 0x3C23D70A#32)) v) j
      = leaky (Ideal.ofBits .f32 0x00000000#32) (Ideal.ofBits .f32 0x3C23D70A#32) (v j) := rfl

/-- A line run in two pieces. -/
theorem after_append {τ : Topo} {sig : RefSig} {Val : EltTy → Type} (a b : List (HloOp τ sig Val)) (V : Valuation τ sig Val) :
    after (a ++ b) V = after b (after a V) := by
  induction a generalizing V with
  | nil => rfl
  | cons op a ih => exact ih _

end General

/-! ## The dimension numbers of this program are the plain ones -/

theorem rowGather64 : RowGS.IsRowGather (N := 100000) (E := 1600000) (C := 64) gather_S100000x64_S1600000x1_S1600000x64_1_0_n_n_0_1_164 :=
  ⟨rfl, rfl, rfl, rfl, rfl, rfl, rfl⟩
theorem rowGather128 : RowGS.IsRowGather (N := 100000) (E := 1600000) (C := 128) gather_S100000x128_S1600000x1_S1600000x128_1_0_n_n_0_1_1128 :=
  ⟨rfl, rfl, rfl, rfl, rfl, rfl, rfl⟩
theorem rowScatter64 : RowGS.IsRowScatter (N := 100000) (E := 1600000) (C := 64) scatter_S100000x64_S1600000x1_S1600000x64_1_0_0_1 :=
  ⟨rfl, rfl, rfl, rfl⟩
theorem rowScatter128 : RowGS.IsRowScatter (N := 100000) (E := 1600000) (C := 128) scatter_S100000x128_S1600000x1_S1600000x128_1_0_0_1 :=
  ⟨rfl, rfl, rfl, rfl⟩
theorem rowScatter1 : RowGS.IsRowScatter (N := 100000) (E := 1600000) (C := 1) scatter_S100000x1_S1600000x1_S1600000x1_1_0_0_1 :=
  ⟨rfl, rfl, rfl, rfl⟩
theorem plain_64_128 : PlainDot.IsPlain (M := 100000) (K := 64) (N := 128) dot_S100000x64_S64x128_S100000x128_1_0_0_1_n_n :=
  ⟨rfl, rfl, rfl, rfl, rfl, rfl⟩
theorem plain_128_128 : PlainDot.IsPlain (M := 100000) (K := 128) (N := 128) dot_S100000x128_S128x128_S100000x128_1_0_0_1_n_n :=
  ⟨rfl, rfl, rfl, rfl, rfl, rfl⟩
theorem plain_128_64 : PlainDot.IsPlain (M := 100000) (K := 128) (N := 64) dot_S100000x128_S128x64_S100000x64_1_0_0_1_n_n :=
  ⟨rfl, rfl, rfl, rfl, rfl, rfl⟩
theorem plain_64_3 : PlainDot.IsPlain (M := 100000) (K := 64) (N := 3) dot_S100000x64_S64x3_S100000x3_1_0_0_1_n_n :=
  ⟨rfl, rfl, rfl, rfl, rfl, rfl⟩

/-! ## The segments

Each is a consecutive stretch of the list of @main's operations, copied from it; together, in order, they are the list. -/

section Segments

variable {F : FTy → Type} [FloatOps F]

/-- Operations 1 to 4 of @main: up to `main_v3`. -/
abbrev segR : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- Operations 5 to 37 of @main: up to `main_v30`. -/
abbrev seg1 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000x1 ![] bcast_S_S1600000x1 : (⟨S_, .f32⟩ : BufTy).Contents (Elt F) → (⟨S1600000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x64 ![0, 1] bcast_S100000x1_S100000x64_0_1 : (⟨S100000x1, .f32⟩ : BufTy).Contents (Elt F) → (⟨S100000x64, .f32⟩ : BufTy).Contents (Elt F)),
    binary main_v13 main_v20 main_v21 (Host.divf : (⟨S100000x64, .f32⟩ : BufTy).Contents (Elt F) → (⟨S100000x64, .f32⟩ : BufTy).Contents (Elt F) → (⟨S100000x64, .f32⟩ : BufTy).Contents (Elt F)),
    unary main_arg2 main_v22 ((transpose S64x128 [1, 0] · transposes_S128x64_S64x128_1_0) : (⟨S128x64, .f32⟩ : BufTy).Contents (Elt F) → (⟨S64x128, .f32⟩ : BufTy).Contents (Elt F)),
    binary main_v21 main_v22 main_v23 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    unary main_arg4 main_v27 ((transpose S64x128 [1, 0] · transposes_S128x64_S64x128_1_0) : (⟨S128x64, .f32⟩ : BufTy).Contents (Elt F) → (⟨S64x128, .f32⟩ : BufTy).Contents (Elt F)),
    binary main_arg0 main_v27 main_v28 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v26 main_v28 main_v29 (addf : (⟨S100000x128, .f32⟩ : BufTy).Contents (Elt F) → (⟨S100000x128, .f32⟩ : BufTy).Contents (Elt F) → (⟨S100000x128, .f32⟩ : BufTy).Contents (Elt F)),
    unary main_v29 main_v30 (Host.tanh : (⟨S100000x128, .f32⟩ : BufTy).Contents (Elt F) → (⟨S100000x128, .f32⟩ : BufTy).Contents (Elt F)) ]

/-- Operations 38 to 70 of @main: up to `main_v57`. -/
abbrev seg2 : List (HloOp τ sig (Elt F)) :=
  [ nullary main_c_4 (constantI S_ 32 0#32),
    unary main_c_4 main_v31 (broadcastInDim S1600000 ![] bcast_S_S1600000 : (⟨S_, .i32⟩ : BufTy).Contents (Elt F) → (⟨S1600000, .i32⟩ : BufTy).Contents (Elt F)),
    binary main_v1 main_v31 main_v32 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v33 (broadcastInDim S1600000 ![] bcast_S_S1600000 : (⟨S_, .i32⟩ : BufTy).Contents (Elt F) → (⟨S1600000, .i32⟩ : BufTy).Contents (Elt F)),
    binary main_v1 main_v33 main_v34 (addi : (⟨S1600000, .i32⟩ : BufTy).Contents (Elt F) → (⟨S1600000, .i32⟩ : BufTy).Contents (Elt F) → (⟨S1600000, .i32⟩ : BufTy).Contents (Elt F)),
    ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v35 main_v36 (broadcastInDim S1600000x1 ![0] bcast_S1600000_S1600000x1_0 : (⟨S1600000, .i32⟩ : BufTy).Contents (Elt F) → (⟨S1600000x1, .i32⟩ : BufTy).Contents (Elt F)),
    binary main_v30 main_v36 main_v37 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v41 (broadcastInDim S1600000x1 ![] bcast_S_S1600000x1 : (⟨S_, .f32⟩ : BufTy).Contents (Elt F) → (⟨S1600000x1, .f32⟩ : BufTy).Contents (Elt F)),
    nullary main_cst_8 (constant S_ .f32 0x00000000#32),
    unary main_cst_8 main_v42 (broadcastInDim S100000x1 ![] bcast_S_S100000x1 : (⟨S_, .f32⟩ : BufTy).Contents (Elt F) → (⟨S100000x1, .f32⟩ : BufTy).Contents (Elt F)),
    unary main_v3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_9 (constant S_ .f32 0x3F800000#32),
    unary main_cst_9 main_v45 (broadcastInDim S100000x1 ![] bcast_S_S100000x1 : (⟨S_, .f32⟩ : BufTy).Contents (Elt F) → (⟨S100000x1, .f32⟩ : BufTy).Contents (Elt F)),
    binary main_v44 main_v45 main_v46 (maximumf : (⟨S100000x1, .f32⟩ : BufTy).Contents (Elt F) → (⟨S100000x1, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v40 main_v47 main_v48 (Host.divf : (⟨S100000x128, .f32⟩ : BufTy).Contents (Elt F) → (⟨S100000x128, .f32⟩ : BufTy).Contents (Elt F) → (⟨S100000x128, .f32⟩ : BufTy).Contents (Elt F)),
    unary main_arg5 main_v49 ((transpose S128x128 [1, 0] · transposes_S128x128_S128x128_1_0) : (⟨S128x128, .f32⟩ : BufTy).Contents (Elt F) → (⟨S128x128, .f32⟩ : BufTy).Contents (Elt F)),
    binary main_v48 main_v49 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)),
    unary main_arg7 main_v54 ((transpose S128x128 [1, 0] · transposes_S128x128_S128x128_1_0) : (⟨S128x128, .f32⟩ : BufTy).Contents (Elt F) → (⟨S128x128, .f32⟩ : BufTy).Contents (Elt F)),
    binary main_v30 main_v54 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v53 main_v55 main_v56 (addf : (⟨S100000x128, .f32⟩ : BufTy).Contents (Elt F) → (⟨S100000x128, .f32⟩ : BufTy).Contents (Elt F) → (⟨S100000x128, .f32⟩ : BufTy).Contents (Elt F)),
    unary main_v56 main_v57 (Host.tanh : (⟨S100000x128, .f32⟩ : BufTy).Contents (Elt F) → (⟨S100000x128, .f32⟩ : BufTy).Contents (Elt F)) ]

/-- Operations 71 to 103 of @main: up to `main_v84`. -/
abbrev seg3 : List (HloOp τ sig (Elt F)) :=
  [ nullary main_c_10 (constantI S_ 32 0#32),
    unary main_c_10 main_v58 (broadcastInDim S1600000 ![] bcast_S_S1600000 : (⟨S_, .i32⟩ : BufTy).Contents (Elt F) → (⟨S1600000, .i32⟩ : BufTy).Contents (Elt F)),
    binary main_v1 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v60 (broadcastInDim S1600000 ![] bcast_S_S1600000 : (⟨S_, .i32⟩ : BufTy).Contents (Elt F) → (⟨S1600000, .i32⟩ : BufTy).Contents (Elt F)),
    binary main_v1 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_v1 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v57 main_v63 main_v64 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_12 (constant S_ .f32 0x00000000#32),
    unary main_cst_12 main_v65 (broadcastInDim S100000x128 ![] bcast_S_S100000x128 : (⟨S_, .f32⟩ : BufTy).Contents (Elt F) → (⟨S100000x128, .f32⟩ : BufTy).Contents (Elt F)),
    unary main_v3 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_13 (constant S_ .f32 0x3F800000#32),
    unary main_cst_13 main_v68 (broadcastInDim S1600000x1 ![] bcast_S_S1600000x1 : (⟨S_, .f32⟩ : BufTy).Contents (Elt F) → (⟨S1600000x1, .f32⟩ : BufTy).Contents (Elt F)),
    nullary main_cst_14 (constant S_ .f32 0x00000000#32),
    unary main_cst_14 main_v69 (broadcastInDim S100000x1 ![] bcast_S_S100000x1 : (⟨S_, .f32⟩ : BufTy).Contents (Elt F) → (⟨S100000x1, .f32⟩ : BufTy).Contents (Elt F)),
    unary main_v3 main_v70 (broadcastInDim S1600000x1 ![0] bcast_S1600000_S1600000x1_0 : (⟨S1600000, .i32⟩ : BufTy).Contents (Elt F) → (⟨S1600000x1, .i32⟩ : BufTy).Contents (Elt F)),
    ternary main_v69 main_v70 main_v68 main_v71 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_15 (constant S_ .f32 0x3F800000#32),
    unary main_cst_15 main_v72 (broadcastInDim S100000x1 ![] bcast_S_S100000x1 : (⟨S_, .f32⟩ : BufTy).Contents (Elt F) → (⟨S100000x1, .f32⟩ : BufTy).Contents (Elt F)),
    binary main_v71 main_v72 main_v73 (maximumf : (⟨S100000x1, .f32⟩ : BufTy).Contents (Elt F) → (⟨S100000x1, .f32⟩ : BufTy).Contents (Elt F) → (⟨S100000x1, .f32⟩ : BufTy).Contents (Elt F)),
    unary main_v73 main_v74 (broadcastInDim S100000x128 ![0, 1] bcast_S100000x1_S100000x128_0_1 : (⟨S100000x1, .f32⟩ : BufTy).Contents (Elt F) → (⟨S100000x128, .f32⟩ : BufTy).Contents (Elt F)),
    binary main_v67 main_v74 main_v75 (Host.divf : (⟨S100000x128, .f32⟩ : BufTy).Contents (Elt F) → (⟨S100000x128, .f32⟩ : BufTy).Contents (Elt F) → (⟨S100000x128, .f32⟩ : BufTy).Contents (Elt F)),
    unary main_arg8 main_v76 ((transpose S128x128 [1, 0] · transposes_S128x128_S128x128_1_0) : (⟨S128x128, .f32⟩ : BufTy).Contents (Elt F) → (⟨S128x128, .f32⟩ : BufTy).Contents (Elt F)),
    binary main_v75 main_v76 main_v77 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v78 (broadcastInDim S1x128 ![1] bcast_S128_S1x128_1 : (⟨S128, .f32⟩ : BufTy).Contents (Elt F) → (⟨S1x128, .f32⟩ : BufTy).Contents (Elt F)),
    unary main_v78 main_v79 (broadcastInDim S100000x128 ![0, 1] bcast_S1x128_S100000x128_0_1 : (⟨S1x128, .f32⟩ : BufTy).Contents (Elt F) → (⟨S100000x128, .f32⟩ : BufTy).Contents (Elt F)),
    binary main_v77 main_v79 main_v80 (addf : (⟨S100000x128, .f32⟩ : BufTy).Contents (Elt F) → (⟨S100000x128, .f32⟩ : BufTy).Contents (Elt F) → (⟨S100000x128, .f32⟩ : BufTy).Contents (Elt F)),
    unary main_arg10 main_v81 ((transpose S128x128 [1, 0] · transposes_S128x128_S128x128_1_0) : (⟨S128x128, .f32⟩ : BufTy).Contents (Elt F) → (⟨S128x128, .f32⟩ : BufTy).Contents (Elt F)),
    binary main_v57 main_v81 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v80 main_v82 main_v83 (addf : (⟨S100000x128, .f32⟩ : BufTy).Contents (Elt F) → (⟨S100000x128, .f32⟩ : BufTy).Contents (Elt F) → (⟨S100000x128, .f32⟩ : BufTy).Contents (Elt F)),
    unary main_v83 main_v84 (Host.tanh : (⟨S100000x128, .f32⟩ : BufTy).Contents (Elt F) → (⟨S100000x128, .f32⟩ : BufTy).Contents (Elt F)) ]

/-- Operations 104 to 108 of @main: up to `main_v89`. -/
abbrev seg4 : List (HloOp τ sig (Elt F)) :=
  [ unary main_arg11 main_v85 ((transpose S128x64 [1, 0] · transposes_S64x128_S128x64_1_0) : (⟨S64x128, .f32⟩ : BufTy).Contents (Elt F) → (⟨S128x64, .f32⟩ : BufTy).Contents (Elt F)),
    binary main_v84 main_v85 main_v86 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v87 (broadcastInDim S1x64 ![1] bcast_S64_S1x64_1 : (⟨S64, .f32⟩ : BufTy).Contents (Elt F) → (⟨S1x64, .f32⟩ : BufTy).Contents (Elt F)),
    unary main_v87 main_v88 (broadcastInDim S100000x64 ![0, 1] bcast_S1x64_S100000x64_0_1 : (⟨S1x64, .f32⟩ : BufTy).Contents (Elt F) → (⟨S100000x64, .f32⟩ : BufTy).Contents (Elt F)),
    binary main_v86 main_v88 main_v89 (addf : (⟨S100000x64, .f32⟩ : BufTy).Contents (Elt F) → (⟨S100000x64, .f32⟩ : BufTy).Contents (Elt F) → (⟨S100000x64, .f32⟩ : BufTy).Contents (Elt F)) ]

/-- Operations 109 to 120 of @main: up to `main_v99`. -/
abbrev seg5 : List (HloOp τ sig (Elt F)) :=
  [ unary main_arg13 main_v90 ((transpose S64x128 [1, 0] · transposes_S128x64_S64x128_1_0) : (⟨S128x64, .f32⟩ : BufTy).Contents (Elt F) → (⟨S64x128, .f32⟩ : BufTy).Contents (Elt F)),
    binary main_v89 main_v90 main_v91 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg14 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    unary main_cst_16 main_v95 (broadcastInDim S100000x128 ![] bcast_S_S100000x128 : (⟨S_, .f32⟩ : BufTy).Contents (Elt F) → (⟨S100000x128, .f32⟩ : BufTy).Contents (Elt F)),
    binary main_v94 main_v95 main_v96 (cmpf .ogt : (⟨S100000x128, .f32⟩ : BufTy).Contents (Elt F) → (⟨S100000x128, .f32⟩ : BufTy).Contents (Elt F) → (⟨S100000x128, .i1⟩ : BufTy).Contents (Elt F)),
    nullary main_cst_17 (constant S_ .f32 0x3C23D70A#32),
    unary main_cst_17 main_v97 (broadcastInDim S100000x128 ![] bcast_S_S100000x128 : (⟨S_, .f32⟩ : BufTy).Contents (Elt F) → (⟨S100000x128, .f32⟩ : BufTy).Contents (Elt F)),
    binary main_v97 main_v94 main_v98 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v96) (TRef.of (T := ⟨S100000x128, .f32⟩) main_v94) (TRef.of (T := ⟨S100000x128, .f32⟩) main_v98) (TRef.of (T := ⟨S100000x128, .f32⟩) main_v99) select ]

/-- Operations 121 to 159 of @main: up to `main_v130`. -/
abbrev seg6 : List (HloOp τ sig (Elt F)) :=
  [ nullary main_c_18 (constantI S_ 32 0#32),
    unary main_c_18 main_v100 (broadcastInDim S1600000 ![] bcast_S_S1600000 : (⟨S_, .i32⟩ : BufTy).Contents (Elt F) → (⟨S1600000, .i32⟩ : BufTy).Contents (Elt F)),
    binary main_v1 main_v100 main_v101 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v102 (broadcastInDim S1600000 ![] bcast_S_S1600000 : (⟨S_, .i32⟩ : BufTy).Contents (Elt F) → (⟨S1600000, .i32⟩ : BufTy).Contents (Elt F)),
    binary main_v1 main_v102 main_v103 (addi : (⟨S1600000, .i32⟩ : BufTy).Contents (Elt F) → (⟨S1600000, .i32⟩ : BufTy).Contents (Elt F) → (⟨S1600000, .i32⟩ : BufTy).Contents (Elt F)),
    ternary main_v101 main_v103 main_v1 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v104 main_v105 (broadcastInDim S1600000x1 ![0] bcast_S1600000_S1600000x1_0 : (⟨S1600000, .i32⟩ : BufTy).Contents (Elt F) → (⟨S1600000x1, .i32⟩ : BufTy).Contents (Elt F)),
    binary main_v99 main_v105 main_v106 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_20 (constant S_ .f32 0x00000000#32),
    unary main_cst_20 main_v107 (broadcastInDim S100000x128 ![] bcast_S_S100000x128 : (⟨S_, .f32⟩ : BufTy).Contents (Elt F) → (⟨S100000x128, .f32⟩ : BufTy).Contents (Elt F)),
    unary main_v3 main_v108 (broadcastInDim S1600000x1 ![0] bcast_S1600000_S1600000x1_0 : (⟨S1600000, .i32⟩ : BufTy).Contents (Elt F) → (⟨S1600000x1, .i32⟩ : BufTy).Contents (Elt F)),
    ternary main_v107 main_v108 main_v106 main_v109 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_21 (constant S_ .f32 0x3F800000#32),
    unary main_cst_21 main_v110 (broadcastInDim S1600000x1 ![] bcast_S_S1600000x1 : (⟨S_, .f32⟩ : BufTy).Contents (Elt F) → (⟨S1600000x1, .f32⟩ : BufTy).Contents (Elt F)),
    nullary main_cst_22 (constant S_ .f32 0x00000000#32),
    unary main_cst_22 main_v111 (broadcastInDim S100000x1 ![] bcast_S_S100000x1 : (⟨S_, .f32⟩ : BufTy).Contents (Elt F) → (⟨S100000x1, .f32⟩ : BufTy).Contents (Elt F)),
    unary main_v3 main_v112 (broadcastInDim S1600000x1 ![0] bcast_S1600000_S1600000x1_0 : (⟨S1600000, .i32⟩ : BufTy).Contents (Elt F) → (⟨S1600000x1, .i32⟩ : BufTy).Contents (Elt F)),
    ternary main_v111 main_v112 main_v110 main_v113 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_23 (constant S_ .f32 0x3F800000#32),
    unary main_cst_23 main_v114 (broadcastInDim S100000x1 ![] bcast_S_S100000x1 : (⟨S_, .f32⟩ : BufTy).Contents (Elt F) → (⟨S100000x1, .f32⟩ : BufTy).Contents (Elt F)),
    binary main_v113 main_v114 main_v115 (maximumf : (⟨S100000x1, .f32⟩ : BufTy).Contents (Elt F) → (⟨S100000x1, .f32⟩ : BufTy).Contents (Elt F) → (⟨S100000x1, .f32⟩ : BufTy).Contents (Elt F)),
    unary main_v115 main_v116 (broadcastInDim S100000x128 ![0, 1] bcast_S100000x1_S100000x128_0_1 : (⟨S100000x1, .f32⟩ : BufTy).Contents (Elt F) → (⟨S100000x128, .f32⟩ : BufTy).Contents (Elt F)),
    binary main_v109 main_v116 main_v117 (Host.divf : (⟨S100000x128, .f32⟩ : BufTy).Contents (Elt F) → (⟨S100000x128, .f32⟩ : BufTy).Contents (Elt F) → (⟨S100000x128, .f32⟩ : BufTy).Contents (Elt F)),
    unary main_arg15 main_v118 ((transpose S128x128 [1, 0] · transposes_S128x128_S128x128_1_0) : (⟨S128x128, .f32⟩ : BufTy).Contents (Elt F) → (⟨S128x128, .f32⟩ : BufTy).Contents (Elt F)),
    binary main_v117 main_v118 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg16 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v119 main_v121 main_v122 (addf : (⟨S100000x128, .f32⟩ : BufTy).Contents (Elt F) → (⟨S100000x128, .f32⟩ : BufTy).Contents (Elt F) → (⟨S100000x128, .f32⟩ : BufTy).Contents (Elt F)),
    unary main_arg17 main_v123 ((transpose S128x128 [1, 0] · transposes_S128x128_S128x128_1_0) : (⟨S128x128, .f32⟩ : BufTy).Contents (Elt F) → (⟨S128x128, .f32⟩ : BufTy).Contents (Elt F)),
    binary main_v99 main_v123 main_v124 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v122 main_v124 main_v125 (addf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x00000000#32),
    unary main_cst_24 main_v126 (broadcastInDim S100000x128 ![] bcast_S_S100000x128 : (⟨S_, .f32⟩ : BufTy).Contents (Elt F) → (⟨S100000x128, .f32⟩ : BufTy).Contents (Elt F)),
    binary main_v125 main_v126 main_v127 (cmpf .ogt : (⟨S100000x128, .f32⟩ : BufTy).Contents (Elt F) → (⟨S100000x128, .f32⟩ : BufTy).Contents (Elt F) → (⟨S100000x128, .i1⟩ : BufTy).Contents (Elt F)),
    nullary main_cst_25 (constant S_ .f32 0x3C23D70A#32),
    unary main_cst_25 main_v128 (broadcastInDim S100000x128 ![] bcast_S_S100000x128 : (⟨S_, .f32⟩ : BufTy).Contents (Elt F) → (⟨S100000x128, .f32⟩ : BufTy).Contents (Elt F)),
    binary main_v128 main_v125 main_v129 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v127) (TRef.of (T := ⟨S100000x128, .f32⟩) main_v125) (TRef.of (T := ⟨S100000x128, .f32⟩) main_v129) (TRef.of (T := ⟨S100000x128, .f32⟩) main_v130) select ]

/-- Operations 160 to 192 of @main: up to `main_v157`. -/
abbrev seg7 : List (HloOp τ sig (Elt F)) :=
  [ nullary main_c_26 (constantI S_ 32 0#32),
    unary main_c_26 main_v131 (broadcastInDim S1600000 ![] bcast_S_S1600000 : (⟨S_, .i32⟩ : BufTy).Contents (Elt F) → (⟨S1600000, .i32⟩ : BufTy).Contents (Elt F)),
    binary main_v1 main_v131 main_v132 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v133 (broadcastInDim S1600000 ![] bcast_S_S1600000 : (⟨S_, .i32⟩ : BufTy).Contents (Elt F) → (⟨S1600000, .i32⟩ : BufTy).Contents (Elt F)),
    binary main_v1 main_v133 main_v134 (addi : (⟨S1600000, .i32⟩ : BufTy).Contents (Elt F) → (⟨S1600000, .i32⟩ : BufTy).Contents (Elt F) → (⟨S1600000, .i32⟩ : BufTy).Contents (Elt F)),
    ternary main_v132 main_v134 main_v1 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v135 main_v136 (broadcastInDim S1600000x1 ![0] bcast_S1600000_S1600000x1_0 : (⟨S1600000, .i32⟩ : BufTy).Contents (Elt F) → (⟨S1600000x1, .i32⟩ : BufTy).Contents (Elt F)),
    binary main_v130 main_v136 main_v137 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_28 (constant S_ .f32 0x00000000#32),
    unary main_cst_28 main_v138 (broadcastInDim S100000x128 ![] bcast_S_S100000x128 : (⟨S_, .f32⟩ : BufTy).Contents (Elt F) → (⟨S100000x128, .f32⟩ : BufTy).Contents (Elt F)),
    unary main_v3 main_v139 (broadcastInDim S1600000x1 ![0] bcast_S1600000_S1600000x1_0 : (⟨S1600000, .i32⟩ : BufTy).Contents (Elt F) → (⟨S1600000x1, .i32⟩ : BufTy).Contents (Elt F)),
    ternary main_v138 main_v139 main_v137 main_v140 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_29 (constant S_ .f32 0x3F800000#32),
    unary main_cst_29 main_v141 (broadcastInDim S1600000x1 ![] bcast_S_S1600000x1 : (⟨S_, .f32⟩ : BufTy).Contents (Elt F) → (⟨S1600000x1, .f32⟩ : BufTy).Contents (Elt F)),
    nullary main_cst_30 (constant S_ .f32 0x00000000#32),
    unary main_cst_30 main_v142 (broadcastInDim S100000x1 ![] bcast_S_S100000x1 : (⟨S_, .f32⟩ : BufTy).Contents (Elt F) → (⟨S100000x1, .f32⟩ : BufTy).Contents (Elt F)),
    unary main_v3 main_v143 (broadcastInDim S1600000x1 ![0] bcast_S1600000_S1600000x1_0 : (⟨S1600000, .i32⟩ : BufTy).Contents (Elt F) → (⟨S1600000x1, .i32⟩ : BufTy).Contents (Elt F)),
    ternary main_v142 main_v143 main_v141 main_v144 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_31 (constant S_ .f32 0x3F800000#32),
    unary main_cst_31 main_v145 (broadcastInDim S100000x1 ![] bcast_S_S100000x1 : (⟨S_, .f32⟩ : BufTy).Contents (Elt F) → (⟨S100000x1, .f32⟩ : BufTy).Contents (Elt F)),
    binary main_v144 main_v145 main_v146 (maximumf : (⟨S100000x1, .f32⟩ : BufTy).Contents (Elt F) → (⟨S100000x1, .f32⟩ : BufTy).Contents (Elt F) → (⟨S100000x1, .f32⟩ : BufTy).Contents (Elt F)),
    unary main_v146 main_v147 (broadcastInDim S100000x128 ![0, 1] bcast_S100000x1_S100000x128_0_1 : (⟨S100000x1, .f32⟩ : BufTy).Contents (Elt F) → (⟨S100000x128, .f32⟩ : BufTy).Contents (Elt F)),
    binary main_v140 main_v147 main_v148 (Host.divf : (⟨S100000x128, .f32⟩ : BufTy).Contents (Elt F) → (⟨S100000x128, .f32⟩ : BufTy).Contents (Elt F) → (⟨S100000x128, .f32⟩ : BufTy).Contents (Elt F)),
    unary main_arg18 main_v149 ((transpose S128x64 [1, 0] · transposes_S64x128_S128x64_1_0) : (⟨S64x128, .f32⟩ : BufTy).Contents (Elt F) → (⟨S128x64, .f32⟩ : BufTy).Contents (Elt F)),
    binary main_v148 main_v149 main_v150 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg19 main_v151 (broadcastInDim S1x64 ![1] bcast_S64_S1x64_1 : (⟨S64, .f32⟩ : BufTy).Contents (Elt F) → (⟨S1x64, .f32⟩ : BufTy).Contents (Elt F)),
    unary main_v151 main_v152 (broadcastInDim S100000x64 ![0, 1] bcast_S1x64_S100000x64_0_1 : (⟨S1x64, .f32⟩ : BufTy).Contents (Elt F) → (⟨S100000x64, .f32⟩ : BufTy).Contents (Elt F)),
    binary main_v150 main_v152 main_v153 (addf : (⟨S100000x64, .f32⟩ : BufTy).Contents (Elt F) → (⟨S100000x64, .f32⟩ : BufTy).Contents (Elt F) → (⟨S100000x64, .f32⟩ : BufTy).Contents (Elt F)),
    unary main_arg20 main_v154 ((transpose S128x64 [1, 0] · transposes_S64x128_S128x64_1_0) : (⟨S64x128, .f32⟩ : BufTy).Contents (Elt F) → (⟨S128x64, .f32⟩ : BufTy).Contents (Elt F)),
    binary main_v130 main_v154 main_v155 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v153 main_v155 main_v156 (addf : (⟨S100000x64, .f32⟩ : BufTy).Contents (Elt F) → (⟨S100000x64, .f32⟩ : BufTy).Contents (Elt F) → (⟨S100000x64, .f32⟩ : BufTy).Contents (Elt F)),
    unary main_v156 main_v157 (Host.tanh : (⟨S100000x64, .f32⟩ : BufTy).Contents (Elt F) → (⟨S100000x64, .f32⟩ : BufTy).Contents (Elt F)) ]

/-- Operations 193 to 224 of @main: up to `main_v183`. -/
abbrev seg8 : List (HloOp τ sig (Elt F)) :=
  [ nullary main_c_32 (constantI S_ 32 0#32),
    unary main_c_32 main_v158 (broadcastInDim S1600000 ![] bcast_S_S1600000 : (⟨S_, .i32⟩ : BufTy).Contents (Elt F) → (⟨S1600000, .i32⟩ : BufTy).Contents (Elt F)),
    binary main_v1 main_v158 main_v159 (cmpi .slt : (⟨S1600000, .i32⟩ : BufTy).Contents (Elt F) → (⟨S1600000, .i32⟩ : BufTy).Contents (Elt F) → (⟨S1600000, .i1⟩ : BufTy).Contents (Elt F)),
    nullary main_c_33 (constantI S_ 32 100000#32),
    unary main_c_33 main_v160 (broadcastInDim S1600000 ![] bcast_S_S1600000 : (⟨S_, .i32⟩ : BufTy).Contents (Elt F) → (⟨S1600000, .i32⟩ : BufTy).Contents (Elt F)),
    binary main_v1 main_v160 main_v161 (addi : (⟨S1600000, .i32⟩ : BufTy).Contents (Elt F) → (⟨S1600000, .i32⟩ : BufTy).Contents (Elt F) → (⟨S1600000, .i32⟩ : BufTy).Contents (Elt F)),
    ternary main_v159 main_v161 main_v1 main_v162 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v162 main_v163 (broadcastInDim S1600000x1 ![0] bcast_S1600000_S1600000x1_0 : (⟨S1600000, .i32⟩ : BufTy).Contents (Elt F) → (⟨S1600000x1, .i32⟩ : BufTy).Contents (Elt F)),
    binary main_v157 main_v163 main_v164 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_34 (constant S_ .f32 0x00000000#32),
    unary main_cst_34 main_v165 (broadcastInDim S100000x64 ![] bcast_S_S100000x64 : (⟨S_, .f32⟩ : BufTy).Contents (Elt F) → (⟨S100000x64, .f32⟩ : BufTy).Contents (Elt F)),
    unary main_v3 main_v166 (broadcastInDim S1600000x1 ![0] bcast_S1600000_S1600000x1_0 : (⟨S1600000, .i32⟩ : BufTy).Contents (Elt F) → (⟨S1600000x1, .i32⟩ : BufTy).Contents (Elt F)),
    ternary main_v165 main_v166 main_v164 main_v167 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_35 (constant S_ .f32 0x3F800000#32),
    unary main_cst_35 main_v168 (broadcastInDim S1600000x1 ![] bcast_S_S1600000x1 : (⟨S_, .f32⟩ : BufTy).Contents (Elt F) → (⟨S1600000x1, .f32⟩ : BufTy).Contents (Elt F)),
    nullary main_cst_36 (constant S_ .f32 0x00000000#32),
    unary main_cst_36 main_v169 (broadcastInDim S100000x1 ![] bcast_S_S100000x1 : (⟨S_, .f32⟩ : BufTy).Contents (Elt F) → (⟨S100000x1, .f32⟩ : BufTy).Contents (Elt F)),
    unary main_v3 main_v170 (broadcastInDim S1600000x1 ![0] bcast_S1600000_S1600000x1_0 : (⟨S1600000, .i32⟩ : BufTy).Contents (Elt F) → (⟨S1600000x1, .i32⟩ : BufTy).Contents (Elt F)),
    ternary main_v169 main_v170 main_v168 main_v171 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_37 (constant S_ .f32 0x3F800000#32),
    unary main_cst_37 main_v172 (broadcastInDim S100000x1 ![] bcast_S_S100000x1 : (⟨S_, .f32⟩ : BufTy).Contents (Elt F) → (⟨S100000x1, .f32⟩ : BufTy).Contents (Elt F)),
    binary main_v171 main_v172 main_v173 (maximumf : (⟨S100000x1, .f32⟩ : BufTy).Contents (Elt F) → (⟨S100000x1, .f32⟩ : BufTy).Contents (Elt F) → (⟨S100000x1, .f32⟩ : BufTy).Contents (Elt F)),
    unary main_v173 main_v174 (broadcastInDim S100000x64 ![0, 1] bcast_S100000x1_S100000x64_0_1 : (⟨S100000x1, .f32⟩ : BufTy).Contents (Elt F) → (⟨S100000x64, .f32⟩ : BufTy).Contents (Elt F)),
    binary main_v167 main_v174 main_v175 (Host.divf : (⟨S100000x64, .f32⟩ : BufTy).Contents (Elt F) → (⟨S100000x64, .f32⟩ : BufTy).Contents (Elt F) → (⟨S100000x64, .f32⟩ : BufTy).Contents (Elt F)),
    unary main_arg21 main_v176 ((transpose S64x3 [1, 0] · transposes_S3x64_S64x3_1_0) : (⟨S3x64, .f32⟩ : BufTy).Contents (Elt F) → (⟨S64x3, .f32⟩ : BufTy).Contents (Elt F)),
    binary main_v175 main_v176 main_v177 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    unary main_arg22 main_v178 (broadcastInDim S1x3 ![1] bcast_S3_S1x3_1 : (⟨S3, .f32⟩ : BufTy).Contents (Elt F) → (⟨S1x3, .f32⟩ : BufTy).Contents (Elt F)),
    unary main_v178 main_v179 (broadcastInDim S100000x3 ![0, 1] bcast_S1x3_S100000x3_0_1 : (⟨S1x3, .f32⟩ : BufTy).Contents (Elt F) → (⟨S100000x3, .f32⟩ : BufTy).Contents (Elt F)),
    binary main_v177 main_v179 main_v180 (addf : (⟨S100000x3, .f32⟩ : BufTy).Contents (Elt F) → (⟨S100000x3, .f32⟩ : BufTy).Contents (Elt F) → (⟨S100000x3, .f32⟩ : BufTy).Contents (Elt F)),
    unary main_arg23 main_v181 ((transpose S64x3 [1, 0] · transposes_S3x64_S64x3_1_0) : (⟨S3x64, .f32⟩ : BufTy).Contents (Elt F) → (⟨S64x3, .f32⟩ : BufTy).Contents (Elt F)),
    binary main_v157 main_v181 main_v182 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    binary main_v180 main_v182 main_v183 (addf : (⟨S100000x3, .f32⟩ : BufTy).Contents (Elt F) → (⟨S100000x3, .f32⟩ : BufTy).Contents (Elt F) → (⟨S100000x3, .f32⟩ : BufTy).Contents (Elt F)) ]

/-- Operations 225 to 227 of @main: up to `main_v186`. -/
abbrev segO : List (HloOp τ sig (Elt F)) :=
  [ unary main_v183 main_v184 ((extractStridedSlice S100000x2 ![0, 0] · slices_S100000x3_S100000x2_0_0) : (⟨S100000x3, .f32⟩ : BufTy).Contents (Elt F) → (⟨S100000x2, .f32⟩ : BufTy).Contents (Elt F)),
    unary main_v183 main_v185 ((extractStridedSlice S100000x1 ![0, 2] · slices_S100000x3_S100000x1_0_2) : (⟨S100000x3, .f32⟩ : BufTy).Contents (Elt F) → (⟨S100000x1, .f32⟩ : BufTy).Contents (Elt F)),
    reshape main_v185 main_v186 rfl shapeCasts_S100000x1_S100000 ]

set_option maxHeartbeats 4000000 in
/-- The list of @main's operations is the segments one after the other. -/
theorem ops_cut : (OpsP.ops (F := F)) = segR ++ (seg1 ++ (seg2 ++ (seg3 ++ (seg4 ++ (seg5 ++ (seg6 ++ (seg7 ++ (seg8 ++ (segO))))))))) := rfl

/-! ## What a segment leaves alone -/

theorem keepR (V : Valuation τ sig (Elt F)) (b : Ref sig .tc)
    (hb : b ∉ ([main_v0, main_v1, main_v2, main_v3] : List (Ref sig .tc))) :
    after segR V (Proc.devRef .tc b) = V (Proc.devRef .tc b) :=
  after_of_forall_not_mem _ _ (List.forall_iff_forall_mem.mp (by
    simp only [segR, List.Forall, TRef.ternary, TRef.of, nullary_writes, unary_writes, binary_writes, ternary_writes, reshape_writes, Finset.mem_singleton]
    repeat' apply And.intro
    all_goals exact devRef_ne_of_ne (fun e => hb (by subst e; decide))))

theorem keep1 (V : Valuation τ sig (Elt F)) (b : Ref sig .tc)
    (hb : b ∉ ([main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_v30] : List (Ref sig .tc))) :
    after seg1 V (Proc.devRef .tc b) = V (Proc.devRef .tc b) :=
  after_of_forall_not_mem _ _ (List.forall_iff_forall_mem.mp (by
    simp only [seg1, List.Forall, TRef.ternary, TRef.of, nullary_writes, unary_writes, binary_writes, ternary_writes, reshape_writes, Finset.mem_singleton]
    repeat' apply And.intro
    all_goals exact devRef_ne_of_ne (fun e => hb (by subst e; decide))))

theorem keep2 (V : Valuation τ sig (Elt F)) (b : Ref sig .tc)
    (hb : b ∉ ([main_c_4, main_v31, main_v32, main_c_5, main_v33, main_v34, main_v35, main_v36, main_v37, main_cst_6, main_v38, main_v39, main_v40, main_cst_7, main_v41, main_cst_8, main_v42, main_v43, main_v44, main_cst_9, main_v45, main_v46, main_v47, main_v48, main_v49, main_v50, main_v51, main_v52, main_v53, main_v54, main_v55, main_v56, main_v57] : List (Ref sig .tc))) :
    after seg2 V (Proc.devRef .tc b) = V (Proc.devRef .tc b) :=
  after_of_forall_not_mem _ _ (List.forall_iff_forall_mem.mp (by
    simp only [seg2, List.Forall, TRef.ternary, TRef.of, nullary_writes, unary_writes, binary_writes, ternary_writes, reshape_writes, Finset.mem_singleton]
    repeat' apply And.intro
    all_goals exact devRef_ne_of_ne (fun e => hb (by subst e; decide))))

theorem keep3 (V : Valuation τ sig (Elt F)) (b : Ref sig .tc)
    (hb : b ∉ ([main_c_10, main_v58, main_v59, main_c_11, main_v60, main_v61, main_v62, main_v63, main_v64, main_cst_12, main_v65, main_v66, main_v67, main_cst_13, main_v68, main_cst_14, main_v69, main_v70, main_v71, main_cst_15, main_v72, main_v73, main_v74, main_v75, main_v76, main_v77, main_v78, main_v79, main_v80, main_v81, main_v82, main_v83, main_v84] : List (Ref sig .tc))) :
    after seg3 V (Proc.devRef .tc b) = V (Proc.devRef .tc b) :=
  after_of_forall_not_mem _ _ (List.forall_iff_forall_mem.mp (by
    simp only [seg3, List.Forall, TRef.ternary, TRef.of, nullary_writes, unary_writes, binary_writes, ternary_writes, reshape_writes, Finset.mem_singleton]
    repeat' apply And.intro
    all_goals exact devRef_ne_of_ne (fun e => hb (by subst e; decide))))

theorem keep4 (V : Valuation τ sig (Elt F)) (b : Ref sig .tc)
    (hb : b ∉ ([main_v85, main_v86, main_v87, main_v88, main_v89] : List (Ref sig .tc))) :
    after seg4 V (Proc.devRef .tc b) = V (Proc.devRef .tc b) :=
  after_of_forall_not_mem _ _ (List.forall_iff_forall_mem.mp (by
    simp only [seg4, List.Forall, TRef.ternary, TRef.of, nullary_writes, unary_writes, binary_writes, ternary_writes, reshape_writes, Finset.mem_singleton]
    repeat' apply And.intro
    all_goals exact devRef_ne_of_ne (fun e => hb (by subst e; decide))))

theorem keep5 (V : Valuation τ sig (Elt F)) (b : Ref sig .tc)
    (hb : b ∉ ([main_v90, main_v91, main_v92, main_v93, main_v94, main_cst_16, main_v95, main_v96, main_cst_17, main_v97, main_v98, main_v99] : List (Ref sig .tc))) :
    after seg5 V (Proc.devRef .tc b) = V (Proc.devRef .tc b) :=
  after_of_forall_not_mem _ _ (List.forall_iff_forall_mem.mp (by
    simp only [seg5, List.Forall, TRef.ternary, TRef.of, nullary_writes, unary_writes, binary_writes, ternary_writes, reshape_writes, Finset.mem_singleton]
    repeat' apply And.intro
    all_goals exact devRef_ne_of_ne (fun e => hb (by subst e; decide))))

theorem keep6 (V : Valuation τ sig (Elt F)) (b : Ref sig .tc)
    (hb : b ∉ ([main_c_18, main_v100, main_v101, main_c_19, main_v102, main_v103, main_v104, main_v105, main_v106, main_cst_20, main_v107, main_v108, main_v109, main_cst_21, main_v110, main_cst_22, main_v111, main_v112, main_v113, main_cst_23, main_v114, main_v115, main_v116, main_v117, main_v118, main_v119, main_v120, main_v121, main_v122, main_v123, main_v124, main_v125, main_cst_24, main_v126, main_v127, main_cst_25, main_v128, main_v129, main_v130] : List (Ref sig .tc))) :
    after seg6 V (Proc.devRef .tc b) = V (Proc.devRef .tc b) :=
  after_of_forall_not_mem _ _ (List.forall_iff_forall_mem.mp (by
    simp only [seg6, List.Forall, TRef.ternary, TRef.of, nullary_writes, unary_writes, binary_writes, ternary_writes, reshape_writes, Finset.mem_singleton]
    repeat' apply And.intro
    all_goals exact devRef_ne_of_ne (fun e => hb (by subst e; decide))))

theorem keep7 (V : Valuation τ sig (Elt F)) (b : Ref sig .tc)
    (hb : b ∉ ([main_c_26, main_v131, main_v132, main_c_27, main_v133, main_v134, main_v135, main_v136, main_v137, main_cst_28, main_v138, main_v139, main_v140, main_cst_29, main_v141, main_cst_30, main_v142, main_v143, main_v144, main_cst_31, main_v145, main_v146, main_v147, main_v148, main_v149, main_v150, main_v151, main_v152, main_v153, main_v154, main_v155, main_v156, main_v157] : List (Ref sig .tc))) :
    after seg7 V (Proc.devRef .tc b) = V (Proc.devRef .tc b) :=
  after_of_forall_not_mem _ _ (List.forall_iff_forall_mem.mp (by
    simp only [seg7, List.Forall, TRef.ternary, TRef.of, nullary_writes, unary_writes, binary_writes, ternary_writes, reshape_writes, Finset.mem_singleton]
    repeat' apply And.intro
    all_goals exact devRef_ne_of_ne (fun e => hb (by subst e; decide))))

theorem keep8 (V : Valuation τ sig (Elt F)) (b : Ref sig .tc)
    (hb : b ∉ ([main_c_32, main_v158, main_v159, main_c_33, main_v160, main_v161, main_v162, main_v163, main_v164, main_cst_34, main_v165, main_v166, main_v167, main_cst_35, main_v168, main_cst_36, main_v169, main_v170, main_v171, main_cst_37, main_v172, main_v173, main_v174, main_v175, main_v176, main_v177, main_v178, main_v179, main_v180, main_v181, main_v182, main_v183] : List (Ref sig .tc))) :
    after seg8 V (Proc.devRef .tc b) = V (Proc.devRef .tc b) :=
  after_of_forall_not_mem _ _ (List.forall_iff_forall_mem.mp (by
    simp only [seg8, List.Forall, TRef.ternary, TRef.of, nullary_writes, unary_writes, binary_writes, ternary_writes, reshape_writes, Finset.mem_singleton]
    repeat' apply And.intro
    all_goals exact devRef_ne_of_ne (fun e => hb (by subst e; decide))))

theorem keepO (V : Valuation τ sig (Elt F)) (b : Ref sig .tc)
    (hb : b ∉ ([main_v184, main_v185, main_v186] : List (Ref sig .tc))) :
    after segO V (Proc.devRef .tc b) = V (Proc.devRef .tc b) :=
  after_of_forall_not_mem _ _ (List.forall_iff_forall_mem.mp (by
    simp only [segO, List.Forall, TRef.ternary, TRef.of, nullary_writes, unary_writes, binary_writes, ternary_writes, reshape_writes, Finset.mem_singleton]
    repeat' apply And.intro
    all_goals exact devRef_ne_of_ne (fun e => hb (by subst e; decide))))

end Segments

/-! ## The buffers at each cut -/

variable (m : (ℓ : Loc nD τ sig) → Buf (Elt Ideal) ℓ) (c : Dev nD)

/-- The network's parameters at launch. -/
abbrev PR : Params 100000 1600000 32 :=
  Net.paramsOf (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))
    (m ((c.tc : Thread nD τ).loc main_arg22))
    (m ((c.tc : Thread nD τ).loc main_arg23))

/-- The buffers at launch, and after each segment (definitions, not abbreviations: a read through one segment stops at
    the cut before it). -/
abbrev V0 : Valuation τ sig (Elt Ideal) := launchContents m c
def VR : Valuation τ sig (Elt Ideal) := after (segR (F := Ideal)) (V0 m c)
def V1 : Valuation τ sig (Elt Ideal) := after (seg1 (F := Ideal)) (VR m c)
def V2 : Valuation τ sig (Elt Ideal) := after (seg2 (F := Ideal)) (V1 m c)
def V3 : Valuation τ sig (Elt Ideal) := after (seg3 (F := Ideal)) (V2 m c)
def V4 : Valuation τ sig (Elt Ideal) := after (seg4 (F := Ideal)) (V3 m c)
def V5 : Valuation τ sig (Elt Ideal) := after (seg5 (F := Ideal)) (V4 m c)
def V6 : Valuation τ sig (Elt Ideal) := after (seg6 (F := Ideal)) (V5 m c)
def V7 : Valuation τ sig (Elt Ideal) := after (seg7 (F := Ideal)) (V6 m c)
def V8 : Valuation τ sig (Elt Ideal) := after (seg8 (F := Ideal)) (V7 m c)
def VO : Valuation τ sig (Elt Ideal) := after (segO (F := Ideal)) (V8 m c)

/-- The whole line leaves what its last segment leaves. -/
theorem after_ops : after (OpsP.ops (F := Ideal)) (launchContents m c) = VO m c := by
  rw [ops_cut]
  simp only [after_append]
  rfl

/-- Carries a read of buffer `b` back across every segment that does not write it. -/
macro "carry_back" b:term : tactic =>
  `(tactic| repeat (first
      | rw [keepO _ $b (by decide)] | rw [keep8 _ $b (by decide)] | rw [keep7 _ $b (by decide)] | rw [keep6 _ $b (by decide)]
      | rw [keep5 _ $b (by decide)] | rw [keep4 _ $b (by decide)] | rw [keep3 _ $b (by decide)] | rw [keep2 _ $b (by decide)]
      | rw [keep1 _ $b (by decide)] | rw [keepR _ $b (by decide)]
      | simp only [VR, V1, V2, V3, V4, V5, V6, V7, V8, VO]))

/-! ## The rows of the edge list -/

theorem v1_atR : VR m c (Proc.devRef .tc main_v1) = Net.edgeRow 0 slices_S2x1600000_S1x1600000_0_0 (m ((c.tc : Thread nD τ).loc main_arg1)) := by
  show after (segR (F := Ideal)) (V0 m c) (Proc.devRef .tc main_v1) = _
  walk_back [segR]
  rfl
theorem v3_atR : VR m c (Proc.devRef .tc main_v3) = Net.edgeRow 1 slices_S2x1600000_S1x1600000_1_0 (m ((c.tc : Thread nD τ).loc main_arg1)) := by
  show after (segR (F := Ideal)) (V0 m c) (Proc.devRef .tc main_v3) = _
  walk_back [segR]
  rfl

/-! ## The layers -/

/-- After segment 1, `main_v30` holds the layer `dh1`. -/
theorem dh1_at : V1 m c (Proc.devRef .tc main_v30) = (PR m c).dh1 := by
  have e1 : VR m c (Proc.devRef .tc main_v1) = Net.edgeRow 0 slices_S2x1600000_S1x1600000_0_0 (m ((c.tc : Thread nD τ).loc main_arg1)) := by
    carry_back main_v1; exact v1_atR m c
  have e3 : VR m c (Proc.devRef .tc main_v3) = Net.edgeRow 1 slices_S2x1600000_S1x1600000_1_0 (m ((c.tc : Thread nD τ).loc main_arg1)) := by
    carry_back main_v3; exact v3_atR m c
  have et : VR m c (Proc.devRef .tc main_arg0) = m ((c.tc : Thread nD τ).loc main_arg0) := by carry_back main_arg0; all_goals rfl
  have a2 : VR m c (Proc.devRef .tc main_arg2) = m ((c.tc : Thread nD τ).loc main_arg2) := by carry_back main_arg2; all_goals rfl
  have a3 : VR m c (Proc.devRef .tc main_arg3) = m ((c.tc : Thread nD τ).loc main_arg3) := by carry_back main_arg3; all_goals rfl
  have a4 : VR m c (Proc.devRef .tc main_arg4) = m ((c.tc : Thread nD τ).loc main_arg4) := by carry_back main_arg4; all_goals rfl
  show after (seg1 (F := Ideal)) (VR m c) (Proc.devRef .tc main_v30) = _
  walk_back [seg1]
  rw [e1, e3, et, a2, a3, a4]
  rw [convPre_read (PR m c).hN (by decide) (by decide) rowGather64 rowScatter64 rowScatter1 plain_64_128 plain_64_128, tanh_host]
  unfold Params.dh1
  rw [dividedLayer_eq]
  rfl

/-- After segment 2, `main_v57` holds the layer `dh2`. -/
theorem dh2_at : V2 m c (Proc.devRef .tc main_v57) = (PR m c).dh2 := by
  have e1 : V1 m c (Proc.devRef .tc main_v1) = Net.edgeRow 0 slices_S2x1600000_S1x1600000_0_0 (m ((c.tc : Thread nD τ).loc main_arg1)) := by
    carry_back main_v1; exact v1_atR m c
  have e3 : V1 m c (Proc.devRef .tc main_v3) = Net.edgeRow 1 slices_S2x1600000_S1x1600000_1_0 (m ((c.tc : Thread nD τ).loc main_arg1)) := by
    carry_back main_v3; exact v3_atR m c
  have et : V1 m c (Proc.devRef .tc main_v30) = (PR m c).dh1 := dh1_at m c
  have a5 : V1 m c (Proc.devRef .tc main_arg5) = m ((c.tc : Thread nD τ).loc main_arg5) := by carry_back main_arg5; all_goals rfl
  have a6 : V1 m c (Proc.devRef .tc main_arg6) = m ((c.tc : Thread nD τ).loc main_arg6) := by carry_back main_arg6; all_goals rfl
  have a7 : V1 m c (Proc.devRef .tc main_arg7) = m ((c.tc : Thread nD τ).loc main_arg7) := by carry_back main_arg7; all_goals rfl
  show after (seg2 (F := Ideal)) (V1 m c) (Proc.devRef .tc main_v57) = _
  walk_back [seg2]
  rw [e1, e3, et, a5, a6, a7]
  rw [convPre_read (PR m c).hN (by decide) (by decide) rowGather128 rowScatter128 rowScatter1 plain_128_128 plain_128_128, tanh_host]
  unfold Params.dh2
  rw [dividedLayer_eq]
  rfl

/-- After segment 3, `main_v84` holds the layer `dh3`. -/
theorem dh3_at : V3 m c (Proc.devRef .tc main_v84) = (PR m c).dh3 := by
  have e1 : V2 m c (Proc.devRef .tc main_v1) = Net.edgeRow 0 slices_S2x1600000_S1x1600000_0_0 (m ((c.tc : Thread nD τ).loc main_arg1)) := by
    carry_back main_v1; exact v1_atR m c
  have e3 : V2 m c (Proc.devRef .tc main_v3) = Net.edgeRow 1 slices_S2x1600000_S1x1600000_1_0 (m ((c.tc : Thread nD τ).loc main_arg1)) := by
    carry_back main_v3; exact v3_atR m c
  have et : V2 m c (Proc.devRef .tc main_v57) = (PR m c).dh2 := dh2_at m c
  have a8 : V2 m c (Proc.devRef .tc main_arg8) = m ((c.tc : Thread nD τ).loc main_arg8) := by carry_back main_arg8; all_goals rfl
  have a9 : V2 m c (Proc.devRef .tc main_arg9) = m ((c.tc : Thread nD τ).loc main_arg9) := by carry_back main_arg9; all_goals rfl
  have a10 : V2 m c (Proc.devRef .tc main_arg10) = m ((c.tc : Thread nD τ).loc main_arg10) := by carry_back main_arg10; all_goals rfl
  show after (seg3 (F := Ideal)) (V2 m c) (Proc.devRef .tc main_v84) = _
  walk_back [seg3]
  rw [e1, e3, et, a8, a9, a10]
  rw [convPre_read (PR m c).hN (by decide) (by decide) rowGather128 rowScatter128 rowScatter1 plain_128_128 plain_128_128, tanh_host]
  unfold Params.dh3
  rw [dividedLayer_eq]
  rfl

/-- After segment 4, `main_v89` holds the latent table. -/
theorem mu_at : V4 m c (Proc.devRef .tc main_v89) = (PR m c).dividedMu := by
  have et : V3 m c (Proc.devRef .tc main_v84) = (PR m c).dh3 := dh3_at m c
  have a11 : V3 m c (Proc.devRef .tc main_arg11) = m ((c.tc : Thread nD τ).loc main_arg11) := by carry_back main_arg11; all_goals rfl
  have a12 : V3 m c (Proc.devRef .tc main_arg12) = m ((c.tc : Thread nD τ).loc main_arg12) := by carry_back main_arg12; all_goals rfl
  show after (seg4 (F := Ideal)) (V3 m c) (Proc.devRef .tc main_v89) = _
  walk_back [seg4]
  rw [et, a11, a12]
  exact Net.biased_read (by decide) plain_128_64 _ _ _ _ _

/-- After segment 5, `main_v99` holds the decoded table under the slope rectifier. -/
theorem do1_at : V5 m c (Proc.devRef .tc main_v99) = (PR m c).do1 := by
  have et : V4 m c (Proc.devRef .tc main_v89) = (PR m c).dividedMu := mu_at m c
  have a13 : V4 m c (Proc.devRef .tc main_arg13) = m ((c.tc : Thread nD τ).loc main_arg13) := by carry_back main_arg13; all_goals rfl
  have a14 : V4 m c (Proc.devRef .tc main_arg14) = m ((c.tc : Thread nD τ).loc main_arg14) := by carry_back main_arg14; all_goals rfl
  show after (seg5 (F := Ideal)) (V4 m c) (Proc.devRef .tc main_v99) = _
  walk_back [seg5]
  rw [et, a13, a14]
  rw [Net.biased_read (by decide) plain_64_128]
  funext j
  rw [rect_read]
  rfl

/-- After segment 6, `main_v130` holds the layer `do2`. -/
theorem do2_at : V6 m c (Proc.devRef .tc main_v130) = (PR m c).do2 := by
  have e1 : V5 m c (Proc.devRef .tc main_v1) = Net.edgeRow 0 slices_S2x1600000_S1x1600000_0_0 (m ((c.tc : Thread nD τ).loc main_arg1)) := by
    carry_back main_v1; exact v1_atR m c
  have e3 : V5 m c (Proc.devRef .tc main_v3) = Net.edgeRow 1 slices_S2x1600000_S1x1600000_1_0 (m ((c.tc : Thread nD τ).loc main_arg1)) := by
    carry_back main_v3; exact v3_atR m c
  have et : V5 m c (Proc.devRef .tc main_v99) = (PR m c).do1 := do1_at m c
  have a15 : V5 m c (Proc.devRef .tc main_arg15) = m ((c.tc : Thread nD τ).loc main_arg15) := by carry_back main_arg15; all_goals rfl
  have a16 : V5 m c (Proc.devRef .tc main_arg16) = m ((c.tc : Thread nD τ).loc main_arg16) := by carry_back main_arg16; all_goals rfl
  have a17 : V5 m c (Proc.devRef .tc main_arg17) = m ((c.tc : Thread nD τ).loc main_arg17) := by carry_back main_arg17; all_goals rfl
  show after (seg6 (F := Ideal)) (V5 m c) (Proc.devRef .tc main_v130) = _
  walk_back [seg6]
  rw [e1, e3, et, a15, a16, a17]
  rw [convPre_read (PR m c).hN (by decide) (by decide) rowGather128 rowScatter128 rowScatter1 plain_128_128 plain_128_128]
  funext j
  rw [rect_read]
  rfl

/-- After segment 7, `main_v157` holds the layer `do3`. -/
theorem do3_at : V7 m c (Proc.devRef .tc main_v157) = (PR m c).do3 := by
  have e1 : V6 m c (Proc.devRef .tc main_v1) = Net.edgeRow 0 slices_S2x1600000_S1x1600000_0_0 (m ((c.tc : Thread nD τ).loc main_arg1)) := by
    carry_back main_v1; exact v1_atR m c
  have e3 : V6 m c (Proc.devRef .tc main_v3) = Net.edgeRow 1 slices_S2x1600000_S1x1600000_1_0 (m ((c.tc : Thread nD τ).loc main_arg1)) := by
    carry_back main_v3; exact v3_atR m c
  have et : V6 m c (Proc.devRef .tc main_v130) = (PR m c).do2 := do2_at m c
  have a18 : V6 m c (Proc.devRef .tc main_arg18) = m ((c.tc : Thread nD τ).loc main_arg18) := by carry_back main_arg18; all_goals rfl
  have a19 : V6 m c (Proc.devRef .tc main_arg19) = m ((c.tc : Thread nD τ).loc main_arg19) := by carry_back main_arg19; all_goals rfl
  have a20 : V6 m c (Proc.devRef .tc main_arg20) = m ((c.tc : Thread nD τ).loc main_arg20) := by carry_back main_arg20; all_goals rfl
  show after (seg7 (F := Ideal)) (V6 m c) (Proc.devRef .tc main_v157) = _
  walk_back [seg7]
  rw [e1, e3, et, a18, a19, a20]
  rw [convPre_read (PR m c).hN (by decide) (by decide) rowGather128 rowScatter128 rowScatter1 plain_128_64 plain_128_64, tanh_host]
  unfold Params.do3
  rw [dividedLayer_eq]
  rfl

/-- After segment 8, `main_v183` holds the layer `dividedOut`. -/
theorem out_at : V8 m c (Proc.devRef .tc main_v183) = (PR m c).dividedOut := by
  have e1 : V7 m c (Proc.devRef .tc main_v1) = Net.edgeRow 0 slices_S2x1600000_S1x1600000_0_0 (m ((c.tc : Thread nD τ).loc main_arg1)) := by
    carry_back main_v1; exact v1_atR m c
  have e3 : V7 m c (Proc.devRef .tc main_v3) = Net.edgeRow 1 slices_S2x1600000_S1x1600000_1_0 (m ((c.tc : Thread nD τ).loc main_arg1)) := by
    carry_back main_v3; exact v3_atR m c
  have et : V7 m c (Proc.devRef .tc main_v157) = (PR m c).do3 := do3_at m c
  have a21 : V7 m c (Proc.devRef .tc main_arg21) = m ((c.tc : Thread nD τ).loc main_arg21) := by carry_back main_arg21; all_goals rfl
  have a22 : V7 m c (Proc.devRef .tc main_arg22) = m ((c.tc : Thread nD τ).loc main_arg22) := by carry_back main_arg22; all_goals rfl
  have a23 : V7 m c (Proc.devRef .tc main_arg23) = m ((c.tc : Thread nD τ).loc main_arg23) := by carry_back main_arg23; all_goals rfl
  show after (seg8 (F := Ideal)) (V7 m c) (Proc.devRef .tc main_v183) = _
  walk_back [seg8]
  rw [e1, e3, et, a21, a22, a23]
  rw [convPre_read (PR m c).hN (by decide) (by decide) rowGather64 rowScatter64 rowScatter1 plain_64_3 plain_64_3]
  rfl

/-! ## The results -/

theorem res0_at : VO m c (Proc.devRef .tc main_v184)
    = extractStridedSlice S100000x2 ![0, 0] (PR m c).dividedOut slices_S100000x3_S100000x2_0_0 := by
  have et : V8 m c (Proc.devRef .tc main_v183) = (PR m c).dividedOut := out_at m c
  show after (segO (F := Ideal)) (V8 m c) (Proc.devRef .tc main_v184) = _
  walk_back [segO]
  rw [et]

theorem res1_at : VO m c (Proc.devRef .tc main_v186)
    = shapeCast S100000 (extractStridedSlice S100000x1 ![0, 2] (PR m c).dividedOut slices_S100000x3_S100000x1_0_2) shapeCasts_S100000x1_S100000 := by
  have et : V8 m c (Proc.devRef .tc main_v183) = (PR m c).dividedOut := out_at m c
  show after (segO (F := Ideal)) (V8 m c) (Proc.devRef .tc main_v186) = _
  walk_back [segO]
  rw [et]
  rfl

theorem mu_atO : VO m c (Proc.devRef .tc main_v89) = (PR m c).dividedMu := by
  carry_back main_v89
  exact mu_at m c

/-! ## The arguments, which nothing writes -/

theorem arg0_atO : VO m c (Proc.devRef .tc main_arg0) = m ((c.tc : Thread nD τ).loc main_arg0) := by carry_back main_arg0; all_goals rfl
theorem arg1_atO : VO m c (Proc.devRef .tc main_arg1) = m ((c.tc : Thread nD τ).loc main_arg1) := by carry_back main_arg1; all_goals rfl
theorem arg2_atO : VO m c (Proc.devRef .tc main_arg2) = m ((c.tc : Thread nD τ).loc main_arg2) := by carry_back main_arg2; all_goals rfl
theorem arg3_atO : VO m c (Proc.devRef .tc main_arg3) = m ((c.tc : Thread nD τ).loc main_arg3) := by carry_back main_arg3; all_goals rfl
theorem arg4_atO : VO m c (Proc.devRef .tc main_arg4) = m ((c.tc : Thread nD τ).loc main_arg4) := by carry_back main_arg4; all_goals rfl
theorem arg5_atO : VO m c (Proc.devRef .tc main_arg5) = m ((c.tc : Thread nD τ).loc main_arg5) := by carry_back main_arg5; all_goals rfl
theorem arg6_atO : VO m c (Proc.devRef .tc main_arg6) = m ((c.tc : Thread nD τ).loc main_arg6) := by carry_back main_arg6; all_goals rfl
theorem arg7_atO : VO m c (Proc.devRef .tc main_arg7) = m ((c.tc : Thread nD τ).loc main_arg7) := by carry_back main_arg7; all_goals rfl
theorem arg8_atO : VO m c (Proc.devRef .tc main_arg8) = m ((c.tc : Thread nD τ).loc main_arg8) := by carry_back main_arg8; all_goals rfl
theorem arg9_atO : VO m c (Proc.devRef .tc main_arg9) = m ((c.tc : Thread nD τ).loc main_arg9) := by carry_back main_arg9; all_goals rfl
theorem arg10_atO : VO m c (Proc.devRef .tc main_arg10) = m ((c.tc : Thread nD τ).loc main_arg10) := by carry_back main_arg10; all_goals rfl
theorem arg11_atO : VO m c (Proc.devRef .tc main_arg11) = m ((c.tc : Thread nD τ).loc main_arg11) := by carry_back main_arg11; all_goals rfl
theorem arg12_atO : VO m c (Proc.devRef .tc main_arg12) = m ((c.tc : Thread nD τ).loc main_arg12) := by carry_back main_arg12; all_goals rfl
theorem arg13_atO : VO m c (Proc.devRef .tc main_arg13) = m ((c.tc : Thread nD τ).loc main_arg13) := by carry_back main_arg13; all_goals rfl
theorem arg14_atO : VO m c (Proc.devRef .tc main_arg14) = m ((c.tc : Thread nD τ).loc main_arg14) := by carry_back main_arg14; all_goals rfl
theorem arg15_atO : VO m c (Proc.devRef .tc main_arg15) = m ((c.tc : Thread nD τ).loc main_arg15) := by carry_back main_arg15; all_goals rfl
theorem arg16_atO : VO m c (Proc.devRef .tc main_arg16) = m ((c.tc : Thread nD τ).loc main_arg16) := by carry_back main_arg16; all_goals rfl
theorem arg17_atO : VO m c (Proc.devRef .tc main_arg17) = m ((c.tc : Thread nD τ).loc main_arg17) := by carry_back main_arg17; all_goals rfl
theorem arg18_atO : VO m c (Proc.devRef .tc main_arg18) = m ((c.tc : Thread nD τ).loc main_arg18) := by carry_back main_arg18; all_goals rfl
theorem arg19_atO : VO m c (Proc.devRef .tc main_arg19) = m ((c.tc : Thread nD τ).loc main_arg19) := by carry_back main_arg19; all_goals rfl
theorem arg20_atO : VO m c (Proc.devRef .tc main_arg20) = m ((c.tc : Thread nD τ).loc main_arg20) := by carry_back main_arg20; all_goals rfl
theorem arg21_atO : VO m c (Proc.devRef .tc main_arg21) = m ((c.tc : Thread nD τ).loc main_arg21) := by carry_back main_arg21; all_goals rfl
theorem arg22_atO : VO m c (Proc.devRef .tc main_arg22) = m ((c.tc : Thread nD τ).loc main_arg22) := by carry_back main_arg22; all_goals rfl
theorem arg23_atO : VO m c (Proc.devRef .tc main_arg23) = m ((c.tc : Thread nD τ).loc main_arg23) := by carry_back main_arg23; all_goals rfl

/-! ## The run -/

/-- On every device, from any memory with zero counters: every weakly fair execution of the reference's @main
    terminates with the first result the first two columns of `dividedOut`, the second its third column as a vector,
    the third and fourth the latent table `dividedMu` — of the parameters read from the launch memory — and the
    arguments unchanged. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v184) = extractStridedSlice S100000x2 ![0, 0] (PR m c).dividedOut slices_S100000x3_S100000x2_0_0
      ∧ r.2.mem ((c.tc : Thread nD τ).loc main_v186)
          = shapeCast S100000 (extractStridedSlice S100000x1 ![0, 2] (PR m c).dividedOut slices_S100000x3_S100000x1_0_2) shapeCasts_S100000x1_S100000
      ∧ r.2.mem ((c.tc : Thread nD τ).loc main_v89) = (PR m c).dividedMu
      ∧ r.2.mem ((c.tc : Thread nD τ).loc main_v89) = (PR m c).dividedMu
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v184).trans ((congrFun (after_ops m c) _).trans (res0_at m c)),
      (h c main_v186).trans ((congrFun (after_ops m c) _).trans (res1_at m c)),
      (h c main_v89).trans ((congrFun (after_ops m c) _).trans (mu_atO m c)),
      (h c main_v89).trans ((congrFun (after_ops m c) _).trans (mu_atO m c)),
      (h c main_arg0).trans ((congrFun (after_ops m c) _).trans (arg0_atO m c)),
      (h c main_arg1).trans ((congrFun (after_ops m c) _).trans (arg1_atO m c)),
      (h c main_arg2).trans ((congrFun (after_ops m c) _).trans (arg2_atO m c)),
      (h c main_arg3).trans ((congrFun (after_ops m c) _).trans (arg3_atO m c)),
      (h c main_arg4).trans ((congrFun (after_ops m c) _).trans (arg4_atO m c)),
      (h c main_arg5).trans ((congrFun (after_ops m c) _).trans (arg5_atO m c)),
      (h c main_arg6).trans ((congrFun (after_ops m c) _).trans (arg6_atO m c)),
      (h c main_arg7).trans ((congrFun (after_ops m c) _).trans (arg7_atO m c)),
      (h c main_arg8).trans ((congrFun (after_ops m c) _).trans (arg8_atO m c)),
      (h c main_arg9).trans ((congrFun (after_ops m c) _).trans (arg9_atO m c)),
      (h c main_arg10).trans ((congrFun (after_ops m c) _).trans (arg10_atO m c)),
      (h c main_arg11).trans ((congrFun (after_ops m c) _).trans (arg11_atO m c)),
      (h c main_arg12).trans ((congrFun (after_ops m c) _).trans (arg12_atO m c)),
      (h c main_arg13).trans ((congrFun (after_ops m c) _).trans (arg13_atO m c)),
      (h c main_arg14).trans ((congrFun (after_ops m c) _).trans (arg14_atO m c)),
      (h c main_arg15).trans ((congrFun (after_ops m c) _).trans (arg15_atO m c)),
      (h c main_arg16).trans ((congrFun (after_ops m c) _).trans (arg16_atO m c)),
      (h c main_arg17).trans ((congrFun (after_ops m c) _).trans (arg17_atO m c)),
      (h c main_arg18).trans ((congrFun (after_ops m c) _).trans (arg18_atO m c)),
      (h c main_arg19).trans ((congrFun (after_ops m c) _).trans (arg19_atO m c)),
      (h c main_arg20).trans ((congrFun (after_ops m c) _).trans (arg20_atO m c)),
      (h c main_arg21).trans ((congrFun (after_ops m c) _).trans (arg21_atO m c)),
      (h c main_arg22).trans ((congrFun (after_ops m c) _).trans (arg22_atO m c)),
      (h c main_arg23).trans ((congrFun (after_ops m c) _).trans (arg23_atO m c))⟩)
    (run_seq OpsP.scopedRefs_eq OpsP.scopedSems_eq defs main (fun _ => OpsP.ops) OpsP.main_eq (fun _ => OpsP.ops_sub) m ρ)

end Cert.ReferenceIdeal.Stages

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.Finite.lean ====
/-
  The precondition, read back: every float argument of the network is an array of real numbers, and so is every
  parameter the network is written over.

  The precondition tests each of the 23 float argument arrays (every argument but the integer edge list) entry by
  entry for `|x| < +inf`, reduces each array of answers by `and`, and joins the 23 results by `and`, the later test
  always joined to the conjunction of the earlier ones. It holds when the joined answer is 1. An `and` of two truth
  values that is 1 has both equal to 1, so taking the conjunction apart from the outside in leaves the 23 reductions,
  each equal to 1; and a reduction that is 1 says that every entry of its array is a real number.

  The parameters are the argument arrays themselves (the features and the biases), transposes of them (the weights:
  a transpose reads its operand at the index with the two coordinates exchanged, so its entries are entries of the
  operand), and two constants. The rectifier's slope is the single-precision word 0x3C23D70A: sign 0, exponent field
  0x78 = 120, mantissa 0x23D70A = 2348810, which denotes (2^23 + 2348810) · 2^(120 - 127 - 23) = 10737418 / 2^30.
-/
import proofs.«102533_j14611478741197_2_alg».proof.Defs
import proofs.«102533_j14611478741197_2_alg».proof.Proof.ParamsOf
import proofs.«102533_j14611478741197_2_alg».proof.Proof.LibFiniteAll
import Idealize.ShloMosaic.Lib.ValueIdx

noncomputable section

namespace Cert.Net

open Idealize.ShloMosaic Idealize.SL.Sem Cert.RealSum

/-- The shape with no axes has exactly one index. -/
instance : Subsingleton Cert.Pre_finite_inputs.S_.Idx := ⟨fun a b => funext fun d => d.elim0⟩

/-- When the finiteness test of the 24 argument arrays answers 1, every entry of each of the 23 float arrays is a
    real number. The joined answer is `(((t0 and t2) and t3) … and t23)`; it is taken apart from the last test to the
    first, and each `tK = 1` is read back entry by entry. -/
theorem arguments_real [Cert.Pre_finite_inputs.Facts]
    (a0 : FVec Ideal Cert.Pre_finite_inputs.S100000x64 .f32)
    (a1 : IVec Cert.Pre_finite_inputs.S2x1600000 32)
    (a2 : FVec Ideal Cert.Pre_finite_inputs.S128x64 .f32)
    (a3 : FVec Ideal Cert.Pre_finite_inputs.S128 .f32)
    (a4 : FVec Ideal Cert.Pre_finite_inputs.S128x64 .f32)
    (a5 : FVec Ideal Cert.Pre_finite_inputs.S128x128 .f32)
    (a6 : FVec Ideal Cert.Pre_finite_inputs.S128 .f32)
    (a7 : FVec Ideal Cert.Pre_finite_inputs.S128x128 .f32)
    (a8 : FVec Ideal Cert.Pre_finite_inputs.S128x128 .f32)
    (a9 : FVec Ideal Cert.Pre_finite_inputs.S128 .f32)
    (a10 : FVec Ideal Cert.Pre_finite_inputs.S128x128 .f32)
    (a11 : FVec Ideal Cert.Pre_finite_inputs.S64x128 .f32)
    (a12 : FVec Ideal Cert.Pre_finite_inputs.S64 .f32)
    (a13 : FVec Ideal Cert.Pre_finite_inputs.S128x64 .f32)
    (a14 : FVec Ideal Cert.Pre_finite_inputs.S128 .f32)
    (a15 : FVec Ideal Cert.Pre_finite_inputs.S128x128 .f32)
    (a16 : FVec Ideal Cert.Pre_finite_inputs.S128 .f32)
    (a17 : FVec Ideal Cert.Pre_finite_inputs.S128x128 .f32)
    (a18 : FVec Ideal Cert.Pre_finite_inputs.S64x128 .f32)
    (a19 : FVec Ideal Cert.Pre_finite_inputs.S64 .f32)
    (a20 : FVec Ideal Cert.Pre_finite_inputs.S64x128 .f32)
    (a21 : FVec Ideal Cert.Pre_finite_inputs.S3x64 .f32)
    (a22 : FVec Ideal Cert.Pre_finite_inputs.S3 .f32)
    (a23 : FVec Ideal Cert.Pre_finite_inputs.S3x64 .f32)
    (h : Cert.Pre_finite_inputs.fn (F := Ideal) a0 a1 a2 a3 a4 a5 a6 a7 a8 a9 a10 a11 a12 a13 a14 a15 a16 a17 a18 a19 a20 a21 a22 a23 = fun _ => 1#1) :
    AllReal a0 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 := by
  have e := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4,
    Cert.Pre_finite_inputs.fn_part5, Cert.Pre_finite_inputs.fn_part6, andi] at e
  obtain ⟨e, h23⟩ := IntOp.andi_eq_one.1 e
  obtain ⟨e, h22⟩ := IntOp.andi_eq_one.1 e
  obtain ⟨e, h21⟩ := IntOp.andi_eq_one.1 e
  obtain ⟨e, h20⟩ := IntOp.andi_eq_one.1 e
  obtain ⟨e, h19⟩ := IntOp.andi_eq_one.1 e
  obtain ⟨e, h18⟩ := IntOp.andi_eq_one.1 e
  obtain ⟨e, h17⟩ := IntOp.andi_eq_one.1 e
  obtain ⟨e, h16⟩ := IntOp.andi_eq_one.1 e
  obtain ⟨e, h15⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  exact ⟨fun i => Cert.FiniteAll.all_real_of_reduce_and a0 _ _ _ _ _ _ e i,
    fun i => Cert.FiniteAll.all_real_of_reduce_and a2 _ _ _ _ _ _ h2 i,
    fun i => Cert.FiniteAll.all_real_of_reduce_and a3 _ _ _ _ _ _ h3 i,
    fun i => Cert.FiniteAll.all_real_of_reduce_and a4 _ _ _ _ _ _ h4 i,
    fun i => Cert.FiniteAll.all_real_of_reduce_and a5 _ _ _ _ _ _ h5 i,
    fun i => Cert.FiniteAll.all_real_of_reduce_and a6 _ _ _ _ _ _ h6 i,
    fun i => Cert.FiniteAll.all_real_of_reduce_and a7 _ _ _ _ _ _ h7 i,
    fun i => Cert.FiniteAll.all_real_of_reduce_and a8 _ _ _ _ _ _ h8 i,
    fun i => Cert.FiniteAll.all_real_of_reduce_and a9 _ _ _ _ _ _ h9 i,
    fun i => Cert.FiniteAll.all_real_of_reduce_and a10 _ _ _ _ _ _ h10 i,
    fun i => Cert.FiniteAll.all_real_of_reduce_and a11 _ _ _ _ _ _ h11 i,
    fun i => Cert.FiniteAll.all_real_of_reduce_and a12 _ _ _ _ _ _ h12 i,
    fun i => Cert.FiniteAll.all_real_of_reduce_and a13 _ _ _ _ _ _ h13 i,
    fun i => Cert.FiniteAll.all_real_of_reduce_and a14 _ _ _ _ _ _ h14 i,
    fun i => Cert.FiniteAll.all_real_of_reduce_and a15 _ _ _ _ _ _ h15 i,
    fun i => Cert.FiniteAll.all_real_of_reduce_and a16 _ _ _ _ _ _ h16 i,
    fun i => Cert.FiniteAll.all_real_of_reduce_and a17 _ _ _ _ _ _ h17 i,
    fun i => Cert.FiniteAll.all_real_of_reduce_and a18 _ _ _ _ _ _ h18 i,
    fun i => Cert.FiniteAll.all_real_of_reduce_and a19 _ _ _ _ _ _ h19 i,
    fun i => Cert.FiniteAll.all_real_of_reduce_and a20 _ _ _ _ _ _ h20 i,
    fun i => Cert.FiniteAll.all_real_of_reduce_and a21 _ _ _ _ _ _ h21 i,
    fun i => Cert.FiniteAll.all_real_of_reduce_and a22 _ _ _ _ _ _ h22 i,
    fun i => Cert.FiniteAll.all_real_of_reduce_and a23 _ _ _ _ _ _ h23 i⟩

/-- A transpose has real entries when its operand has: each of its entries is an entry of the operand. -/
theorem allReal_transpose {s t : Shape} (perm : List (Fin s.rank)) (x : s.Idx → EReal) (h : s.Transposes perm t)
    (hx : AllReal x) : AllReal (transpose t perm x h) :=
  fun j => hx (h.src j)

/-- The rectifier's slope, the single-precision word nearest to 0.01, is the real number 10737418 / 2^30. -/
theorem slope_real : IsReal (Ideal.ofBits .f32 0x3C23D70A#32) := by
  refine ⟨(10737418 : ℝ) / 2 ^ 30, ?_⟩
  simp [Ideal.ofBits, Ideal.ieee, -EReal.coe_mul]; norm_num

/-- Under the precondition, on every device, every float parameter of the network built from the argument arrays is
    real. -/
theorem params_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (paramsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))).Real := by
  obtain ⟨h0, h2, h3, h4, h5, h6, h7, h8, h9, h10, h11, h12, h13, h14, h15, h16, h17, h18, h19, h20, h21, h22, h23⟩ :=
    arguments_real _ _ _ _ _ _ _ _ _ _ _ _ _ _ _ _ _ _ _ _ _ _ _ _ (h c)
  exact
    { x := h0
      w1l := allReal_transpose _ _ _ h2
      w1r := allReal_transpose _ _ _ h4
      b1 := h3
      w2l := allReal_transpose _ _ _ h5
      w2r := allReal_transpose _ _ _ h7
      b2 := h6
      w3l := allReal_transpose _ _ _ h8
      w3r := allReal_transpose _ _ _ h10
      b3 := h9
      wt := allReal_transpose _ _ _ h11
      bt := h12
      wd := allReal_transpose _ _ _ h13
      bd := h14
      w4l := allReal_transpose _ _ _ h15
      w4r := allReal_transpose _ _ _ h17
      b4 := h16
      w5l := allReal_transpose _ _ _ h18
      w5r := allReal_transpose _ _ _ h20
      b5 := h19
      w6l := allReal_transpose _ _ _ h21
      w6r := allReal_transpose _ _ _ h23
      b6 := h22
      a := slope_real }

end Cert.Net

end
-- ==== Proof.Claims.lean ====
/-
  The five claims.

  Both idealized programs compute the same network from the same 24 arrays. The kernel's three result buffers end at
  the last layer of the SCALED order of operations (its first two columns; its third column as a vector) and at that
  order's latent layer; the reference's end at the same pieces of the DIVIDED order (read stage by stage off its operation list). The two orders agree when every
  float parameter is real (`Params.out_eq`, `Params.mu_eq`), which is what the precondition says of the arguments.
  The three frames are the generated ones (the reference's is its run with the results dropped), and the idealization
  rewrote nothing, so there is nothing to preserve.
-/
import proofs.«102533_j14611478741197_2_alg».proof.Defs
import proofs.«102533_j14611478741197_2_alg».proof.Proof.Gen.Kernel.Frame
import proofs.«102533_j14611478741197_2_alg».proof.Proof.Gen.KernelIdeal.Frame
import proofs.«102533_j14611478741197_2_alg».proof.Proof.KernelRun
import proofs.«102533_j14611478741197_2_alg».proof.Proof.KernelChain
import proofs.«102533_j14611478741197_2_alg».proof.Proof.RefStages
import proofs.«102533_j14611478741197_2_alg».proof.Proof.Finite

set_option maxRecDepth 16384

noncomputable section

namespace Cert.Proof.Claims

open Idealize.ShloMosaic Idealize.ShloMosaic.TcCoe Idealize.SL.Sem

variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2) (Cert.ReferenceIdeal.Stages.run_stages m ρ)

theorem preserves : Cert.preserves_Kernel_KernelIdeal := trivial

section Algebraic

open Cert.KernelIdeal.Chain Cert.KernelIdeal.Gen Cert.Net

theorem algebraic : Cert.algebraic_KernelIdeal_ReferenceIdeal := by
  intro m ρ m' ρ' hpre hagree
  have hag : ∀ c : Dev Cert.KernelIdeal.nD, paramsOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) = PK m c := fun c => by
    obtain ⟨a0, a1, a2, a3, a4, a5, a6, a7, a8, a9, a10, a11, a12, a13, a14, a15, a16, a17, a18, a19, a20, a21, a22, a23⟩ := hagree c
    rw [a0, a1, a2, a3, a4, a5, a6, a7, a8, a9, a10, a11, a12, a13, a14, a15, a16, a17, a18, a19, a20, a21, a22, a23]
  refine ⟨fun c => extractStridedSlice Cert.KernelIdeal.S100000x2 ![0, 0] (PK m c).scaledOut Cert.KernelIdeal.Gen.slices_S100000x3_S100000x2_0_0,
    fun c => shapeCast Cert.KernelIdeal.S100000 (extractStridedSlice Cert.KernelIdeal.S100000x1 ![0, 2] (PK m c).scaledOut Cert.KernelIdeal.Gen.slices_S100000x3_S100000x1_0_2) Cert.KernelIdeal.Gen.shapeCasts_S100000x1_S100000,
    fun c => (PK m c).scaledMu, fun c => (PK m c).scaledMu, ?_, ?_⟩
  · refine (θ_run Cert.KernelIdeal.defs _ _).mono (fun r h c => ?_) (Cert.KernelIdeal.RunValue.run_final m ρ)
    exact ⟨(h c _ (mem_uc Cert.KernelIdeal.main_v96 (by decide))).trans (out2_final m ρ c),
      (h c _ (mem_uc Cert.KernelIdeal.main_v98 (by decide))).trans (out1_final m ρ c),
      (h c _ (mem_uc Cert.KernelIdeal.main_v54_0 (by decide))).trans (mu_final m ρ c),
      (h c _ (mem_uc Cert.KernelIdeal.main_v54_0 (by decide))).trans (mu_final m ρ c),
      (h c _ (mem_uc Cert.KernelIdeal.main_arg0 (by decide))).trans (W19_main_arg0 m ρ c),
      (h c _ (mem_uc Cert.KernelIdeal.main_arg1 (by decide))).trans (W19_main_arg1 m ρ c),
      (h c _ (mem_uc Cert.KernelIdeal.main_arg2 (by decide))).trans (W19_main_arg2 m ρ c),
      (h c _ (mem_uc Cert.KernelIdeal.main_arg3 (by decide))).trans (W19_main_arg3 m ρ c),
      (h c _ (mem_uc Cert.KernelIdeal.main_arg4 (by decide))).trans (W19_main_arg4 m ρ c),
      (h c _ (mem_uc Cert.KernelIdeal.main_arg5 (by decide))).trans (W19_main_arg5 m ρ c),
      (h c _ (mem_uc Cert.KernelIdeal.main_arg6 (by decide))).trans (W19_main_arg6 m ρ c),
      (h c _ (mem_uc Cert.KernelIdeal.main_arg7 (by decide))).trans (W19_main_arg7 m ρ c),
      (h c _ (mem_uc Cert.KernelIdeal.main_arg8 (by decide))).trans (W19_main_arg8 m ρ c),
      (h c _ (mem_uc Cert.KernelIdeal.main_arg9 (by decide))).trans (W19_main_arg9 m ρ c),
      (h c _ (mem_uc Cert.KernelIdeal.main_arg10 (by decide))).trans (W19_main_arg10 m ρ c),
      (h c _ (mem_uc Cert.KernelIdeal.main_arg11 (by decide))).trans (W19_main_arg11 m ρ c),
      (h c _ (mem_uc Cert.KernelIdeal.main_arg12 (by decide))).trans (W19_main_arg12 m ρ c),
      (h c _ (mem_uc Cert.KernelIdeal.main_arg13 (by decide))).trans (W19_main_arg13 m ρ c),
      (h c _ (mem_uc Cert.KernelIdeal.main_arg14 (by decide))).trans (W19_main_arg14 m ρ c),
      (h c _ (mem_uc Cert.KernelIdeal.main_arg15 (by decide))).trans (W19_main_arg15 m ρ c),
      (h c _ (mem_uc Cert.KernelIdeal.main_arg16 (by decide))).trans (W19_main_arg16 m ρ c),
      (h c _ (mem_uc Cert.KernelIdeal.main_arg17 (by decide))).trans (W19_main_arg17 m ρ c),
      (h c _ (mem_uc Cert.KernelIdeal.main_arg18 (by decide))).trans (W19_main_arg18 m ρ c),
      (h c _ (mem_uc Cert.KernelIdeal.main_arg19 (by decide))).trans (W19_main_arg19 m ρ c),
      (h c _ (mem_uc Cert.KernelIdeal.main_arg20 (by decide))).trans (W19_main_arg20 m ρ c),
      (h c _ (mem_uc Cert.KernelIdeal.main_arg21 (by decide))).trans (W19_main_arg21 m ρ c),
      (h c _ (mem_uc Cert.KernelIdeal.main_arg22 (by decide))).trans (W19_main_arg22 m ρ c),
      (h c _ (mem_uc Cert.KernelIdeal.main_arg23 (by decide))).trans (W19_main_arg23 m ρ c)⟩
  · refine (θ_run Cert.ReferenceIdeal.defs _ _).mono (fun r h c => ?_) (Cert.ReferenceIdeal.Stages.run_stages m' ρ')
    have hP : Cert.ReferenceIdeal.Stages.PR m' c = PK m c := hag c
    have hout : (PK m c).dividedOut = (PK m c).scaledOut := (Params.out_eq (params_real m hpre c)).symm
    have hmu : (PK m c).dividedMu = (PK m c).scaledMu := Params.mu_eq.symm
    obtain ⟨h0, h1, h2, h3, hargs⟩ := h c
    rw [hP, hout] at h0 h1
    rw [hP, hmu] at h2 h3
    exact ⟨h0, h1, h2, h3, hargs⟩

end Algebraic

end Cert.Proof.Claims

end
-- ==== Proof.lean ====
/-
  The certificate: the five claims of `Cert.Claim` under the witnesses of the programs' stated side conditions.
  The claims themselves are proved in `Proof/Claims.lean`.
-/
import proofs.«102533_j14611478741197_2_alg».proof.Defs
import proofs.«102533_j14611478741197_2_alg».proof.Proof.Gen.Kernel
import proofs.«102533_j14611478741197_2_alg».proof.Proof.Gen.KernelIdeal
import proofs.«102533_j14611478741197_2_alg».proof.Proof.Gen.ReferenceIdeal
import proofs.«102533_j14611478741197_2_alg».proof.Proof.Gen.Pre_finite_inputs
import proofs.«102533_j14611478741197_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
